-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2x2048x2048 : Shape := ⟨3, ![2, 2048, 2048]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024 .f32) (main_arg9 : FVec F S1024x1024 .f32) (main_arg10 : FVec F S1024 .f32) (main_v33 : IVec S_ 1) : IVec S_ 1 :=
  let main_v34 : FVec F S1024 .f32 := Host.absf main_arg8
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg9
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg10
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg7
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg8 main_arg9 main_arg10 main_v33

def fn {F : FTy → Type} [FloatOps F] (main_arg0 : FVec F S2x2048x1024 .f32) (main_arg1 : FVec F S2x2048x1024 .f32) (main_arg2 : IVec S2x2048x2048 32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_arg7 main_arg8 main_arg9 main_arg10 main_v13 main_v16
-- ==== Kernel.lean ====
abbrev S2x2048x1024 : Shape := ⟨3, ![2, 2048, 1024]⟩
abbrev S2x2048x2048 : Shape := ⟨3, ![2, 2048, 2048]⟩
abbrev S1024x1024 : Shape := ⟨2, ![1024, 1024]⟩
abbrev S1024 : Shape := ⟨1, ![1024]⟩
abbrev S4096x1024 : Shape := ⟨2, ![4096, 1024]⟩
abbrev S1024x2048 : Shape := ⟨2, ![1024, 2048]⟩
abbrev S2048 : Shape := ⟨1, ![2048]⟩
abbrev S1x1024 : Shape := ⟨2, ![1, 1024]⟩
abbrev S512x1024 : Shape := ⟨2, ![512, 1024]⟩
abbrev S1x2048 : Shape := ⟨2, ![1, 2048]⟩
abbrev S4096x2048 : Shape := ⟨2, ![4096, 2048]⟩
abbrev S512x2048 : Shape := ⟨2, ![512, 2048]⟩
abbrev S256x128 : Shape := ⟨2, ![256, 128]⟩
abbrev S2048x128 : Shape := ⟨2, ![2048, 128]⟩
abbrev S256x64 : Shape := ⟨2, ![256, 64]⟩
abbrev S2048x64 : Shape := ⟨2, ![2048, 64]⟩
abbrev S256x2048 : Shape := ⟨2, ![256, 2048]⟩
abbrev S256 : Shape := ⟨1, ![256]⟩
abbrev S256x1 : Shape := ⟨2, ![256, 1]⟩

abbrev nBuf : Space → Nat
  | .hbm => 30
  | .vmem => 26
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x2048, .i32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S4096x1024, .f32⟩
  | .hbm, ⟨12, _⟩ => ⟨S4096x1024, .f32⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .f32⟩
  | .hbm, ⟨17, _⟩ => ⟨S1024x2048, .f32⟩
  | .hbm, ⟨18, _⟩ => ⟨S1024x2048, .bf16⟩
  | .hbm, ⟨19, _⟩ => ⟨S2048, .f32⟩
  | .hbm, ⟨20, _⟩ => ⟨S1024x1024, .f32⟩
  | .hbm, ⟨21, _⟩ => ⟨S1024x1024, .bf16⟩
  | .hbm, ⟨22, _⟩ => ⟨S1x1024, .f32⟩
  | .hbm, ⟨23, _⟩ => ⟨S4096x1024, .bf16⟩
  | .hbm, ⟨24, _⟩ => ⟨S1x2048, .f32⟩
  | .hbm, ⟨25, _⟩ => ⟨S4096x2048, .bf16⟩
  | .hbm, ⟨26, _⟩ => ⟨S4096x1024, .bf16⟩
  | .hbm, ⟨27, _⟩ => ⟨S1x1024, .f32⟩
  | .hbm, ⟨28, _⟩ => ⟨S4096x1024, .f32⟩
  | .hbm, ⟨29, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x2048, .bf16⟩
  | .local _ .vmem, ⟨9, _⟩ => ⟨S1x2048, .f32⟩
  | .local _ .vmem, ⟨10, _⟩ => ⟨S512x2048, .bf16⟩
  | .local _ .vmem, ⟨11, _⟩ => ⟨S512x2048, .bf16⟩
  | .local _ .vmem, ⟨12, _⟩ => ⟨S256x128, .bf16⟩
  | .local _ .vmem, ⟨13, _⟩ => ⟨S256x128, .bf16⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S256x128, .bf16⟩
  | .local _ .vmem, ⟨19, _⟩ => ⟨S256x128, .bf16⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![2, 8, 8], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage2_0 : Fin 2 → Memref sig .tc .vmem S256x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S2048x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S256x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1024 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S2x2048x1024_S4096x1024 : S2x2048x1024.ShapeCasts S4096x1024
  transposes_S1024x1024_S1024x1024_1_0 : S1024x1024.Transposes [1, 0] S1024x1024
  bitsLt_bf16_f32 : FTy.bits .bf16 < FTy.bits .f32
  concatenates_S1024x1024_S1024x1024_S1024x2048_d1 : Shape.Concatenates [S1024x1024, S1024x1024] S1024x2048 1
  concatenates_S1024_S1024_S2048_d0 : Shape.Concatenates [S1024, S1024] S2048 0
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  packedbf16_S512x2048_S512x2048_0_0 : (Rect.unit (s := S512x2048) ![0, 0] S512x2048.size inb_S512x2048_S512x2048_0_0).PackedRows (EltTy.packing .bf16)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S256x128_o0_0_S256x64 : S256x128.Slices ![0, 0] S256x64
  slices_S2048x128_o0_0_S2048x64 : S2048x128.Slices ![0, 0] S2048x64
  reduces_S256x2048_S256 : S256x2048.Reduces [1] S256
  shapeCasts_S256_S256x1 : S256.ShapeCasts S256x1
  broadcasts_S256x1_S256x2048 : S256x1.Broadcasts S256x2048
  inb_S256x128_S256x64_0_0 : ∀ a, (![0, 0] : Fin 2 → Nat) a + S256x64.size a ≤ S256x128.size a
  h_S256x64 : 0 < S256x64.numel
  packedbf16_S256x128_S256x64_0_0 : (Rect.unit (s := S256x128) ![0, 0] S256x64.size inb_S256x128_S256x64_0_0).PackedRows (EltTy.packing .bf16)
  slices_S256x128_o0_64_S256x64 : S256x128.Slices ![0, 64] S256x64
  slices_S2048x128_o0_64_S2048x64 : S2048x128.Slices ![0, 64] S2048x64
  inb_S256x128_S256x64_0_64 : ∀ a, (![0, 64] : Fin 2 → Nat) a + S256x64.size a ≤ S256x128.size a
  packedbf16_S256x128_S256x64_0_64 : (Rect.unit (s := S256x128) ![0, 64] S256x64.size inb_S256x128_S256x64_0_64).PackedRows (EltTy.packing .bf16)
  shapeCasts_S4096x1024_S2x2048x1024 : S4096x1024.ShapeCasts S2x2048x1024
  dot_S512x1024_S1024x1024_S512x1024_1_0_0_1_n_n_wf : DotDims.WF S512x1024 S1024x1024 S512x1024 [1] [0] [0] [1] [] []
  dot_S512x1024_S1024x2048_S512x2048_1_0_0_1_n_n_wf : DotDims.WF S512x1024 S1024x2048 S512x2048 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x2048.size a
  hwx1_1 : ∀ i : grid1.Coords, EltTy.bits .bf16 = 32 ∨ (Rect.block (s := S1024x2048) S1024x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2048.size a ≤ S4096x2048.size a
  hwx1_3 : ∀ i : grid1.Coords, EltTy.bits .bf16 = 32 ∨ (Rect.block (s := S4096x2048) S512x2048.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x128.size a ≤ S4096x1024.size a
  hwx2_0 : ∀ i : grid2.Coords, EltTy.bits .bf16 = 32 ∨ (Rect.block (s := S4096x1024) S256x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S4096x2048.size a
  hwx2_1 : ∀ i : grid2.Coords, EltTy.bits .bf16 = 32 ∨ (Rect.block (s := S4096x2048) S2048x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x128.size a ≤ S4096x2048.size a
  hwx2_2 : ∀ i : grid2.Coords, EltTy.bits .bf16 = 32 ∨ (Rect.block (s := S4096x2048) S2048x128.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S4096x1024.size a
  hwx2_3 : ∀ i : grid2.Coords, EltTy.bits .bf16 = 32 ∨ (Rect.block (s := S4096x1024) S256x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x1024.size a ≤ S4096x1024.size a
  hwx3_0 : ∀ i : grid3.Coords, EltTy.bits .bf16 = 32 ∨ (Rect.block (s := S4096x1024) S512x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S1024x1024.size a
  hwx3_1 : ∀ i : grid3.Coords, EltTy.bits .bf16 = 32 ∨ (Rect.block (s := S1024x1024) S1024x1024.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1024.size a ≤ S1x1024.size a
  hwx3_2 : ∀ i : grid3.Coords, EltTy.bits .f32 = 32 ∨ (Rect.block (s := S1x1024) S1x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1024.size a ≤ S4096x1024.size a
  hwx3_3 : ∀ i : grid3.Coords, EltTy.bits .f32 = 32 ∨ (Rect.block (s := S4096x1024) S512x1024.size (cc3_transform_3 i) (hinb3_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S512x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S256x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2048x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S256x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v15) S512x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v10) S1024x1024.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v17) S512x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S2x2048x1024 : Shape := ⟨3, ![2, 2048, 1024]⟩
abbrev S2x2048x2048 : Shape := ⟨3, ![2, 2048, 2048]⟩
abbrev S1024x1024 : Shape := ⟨2, ![1024, 1024]⟩
abbrev S1024 : Shape := ⟨1, ![1024]⟩
abbrev S1x1x1024 : Shape := ⟨3, ![1, 1, 1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2x2048x2048, .i32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S2x2048x1024, .f32⟩
  | .hbm, ⟨12, _⟩ => ⟨S1x1x1024, .f32⟩
  | .hbm, ⟨13, _⟩ => ⟨S2x2048x1024, .f32⟩
  | .hbm, ⟨14, _⟩ => ⟨S2x2048x1024, .f32⟩
  | .hbm, ⟨15, _⟩ => ⟨S2x2048x16x64, .f32⟩
  | .hbm, ⟨16, _⟩ => ⟨S2x16x2048x64, .f32⟩
  | .hbm, ⟨17, _⟩ => ⟨S2x2048x1024, .f32⟩
  | .hbm, ⟨18, _⟩ => ⟨S1x1x1024, .f32⟩
  | .hbm, ⟨19, _⟩ => ⟨S2x2048x1024, .f32⟩
  | .hbm, ⟨20, _⟩ => ⟨S2x2048x1024, .f32⟩
  | .hbm, ⟨21, _⟩ => ⟨S2x2048x16x64, .f32⟩
  | .hbm, ⟨22, _⟩ => ⟨S2x16x2048x64, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x16x64, .f32⟩
  | .hbm, ⟨28, _⟩ => ⟨S2x16x2048x64, .f32⟩
  | .hbm, ⟨29, _⟩ => ⟨S2x16x2048x2048, .f32⟩
  | .hbm, ⟨30, _⟩ => ⟨S_, .f32⟩
  | .hbm, ⟨31, _⟩ => ⟨S_, .f32⟩
  | .hbm, ⟨32, _⟩ => ⟨S2x16x2048x2048, .f32⟩
  | .hbm, ⟨33, _⟩ => ⟨S2x16x2048x2048, .f32⟩
  | .hbm, ⟨34, _⟩ => ⟨S_, .f32⟩
  | .hbm, ⟨35, _⟩ => ⟨S2x16x2048, .f32⟩
  | .hbm, ⟨36, _⟩ => ⟨S_, .f32⟩
  | .hbm, ⟨37, _⟩ => ⟨S2x16x2048, .f32⟩
  | .hbm, ⟨38, _⟩ => ⟨S2x16x2048, .f32⟩
  | .hbm, ⟨39, _⟩ => ⟨S2x16x2048x1, .f32⟩
  | .hbm, ⟨40, _⟩ => ⟨S2x16x2048x2048, .f32⟩
  | .hbm, ⟨41, _⟩ => ⟨S2x16x2048x2048, .f32⟩
  | .hbm, ⟨42, _⟩ => ⟨S2x16x2048x2048, .f32⟩
  | .hbm, ⟨43, _⟩ => ⟨S_, .f32⟩
  | .hbm, ⟨44, _⟩ => ⟨S2x16x2048, .f32⟩
  | .hbm, ⟨45, _⟩ => ⟨S2x16x2048x1, .f32⟩
  | .hbm, ⟨46, _⟩ => ⟨S2x16x2048x2048, .f32⟩
  | .hbm, ⟨47, _⟩ => ⟨S2x16x2048x2048, .f32⟩
  | .hbm, ⟨48, _⟩ => ⟨S2x16x2048x64, .f32⟩
  | .hbm, ⟨49, _⟩ => ⟨S2x2048x16x64, .f32⟩
  | .hbm, ⟨50, _⟩ => ⟨S2x2048x1024, .f32⟩
  | .hbm, ⟨51, _⟩ => ⟨S2x2048x1024, .f32⟩
  | .hbm, ⟨52, _⟩ => ⟨S1x1x1024, .f32⟩
  | .hbm, ⟨53, _⟩ => ⟨S2x2048x1024, .f32⟩
  | .hbm, ⟨54, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_0 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.HandK.R0.lean ====
/-
  The first projection, Q = x Wqᵀ + bq, as the pipeline runs it: per grid point one block of 512 rows of x against the
  whole transposed weight and the bias row. Stated for ANY contents `V` of the core's buffers at the region's entry:
  the body's run, the proof data (what every staging buffer holds after the body at every point) and the body obligation.
-/
import proofs.«175174_j31018253812438_2_alg».proof.Proof.Gen.Kernel.Launch
import proofs.«175174_j31018253812438_2_alg».proof.Proof.Gen.Kernel.Skeleton
import proofs.«175174_j31018253812438_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: custom_call 0, `cc0__linear_kernel`, Q = x Wqᵀ + bq

  Window 0 is a block of 512 rows of the left operand, windows 1 and 2 the whole weight and the bias row (the same
  block at every grid point), window 3 the block of 512 result rows written back at every point. -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (an unfetched window's
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rx0 : Rect S512x1024 := Rect.unit (s := S512x1024) ![0, 0] S512x1024.size inb_S512x1024_S512x1024_0_0
abbrev rw0 : Rect S1024x1024 := Rect.unit (s := S1024x1024) ![0, 0] S1024x1024.size inb_S1024x1024_S1024x1024_0_0
abbrev rb0 : Rect S1x1024 := Rect.unit (s := S1x1024) ![0, 0] S1x1024.size inb_S1x1024_S1x1024_0_0
abbrev ro0 : Rect S512x1024 := Rect.unit (s := S512x1024) ![0, 0] S512x1024.size inb_S512x1024_S512x1024_0_0

/-- What the body leaves in the result window's buffer: its one store, of the product plus the bias row. -/
def out0_3 (x0 : Vec F S512x1024 .f32) (x1 : Vec F S1024x1024 .bf16) (x2 : Vec F S1x1024 .f32) : Vec F S512x1024 .bf16 :=
  View.canon [⟨ro0, k0_pay1 (View.ld x0 rx0) (View.ld x1 rw0) (View.ld x2 rb0)⟩]

/-- The store covers the buffer. -/
theorem cover0_3 (p0 : Vec F S512x1024 .bf16) (y : S512x1024.Idx) :
    ∃ pc ∈ ([⟨ro0, p0⟩] : List (View.Piece (Elt F) S512x1024 .bf16)), y ∈ pc.1.set :=
  View.cover_of_tiled [⟨ro0, p0⟩] S512x1024.size (by rfl) y

set_option maxHeartbeats 1000000 in
/-- The kernel body on whole staging memrefs: the inputs' contents are kept, the result's buffer ends at `out0_3`. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .bf16) (harg4 : arg4.IsWhole)
    (x0 : Vec F S512x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this region on core `c`: the arrays as the region finds them; after the body each input's
    buffer at its block and the result's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.HandK.R1.lean ====
/-
  The fused key/value projection, KV = y [Wkᵀ | Wvᵀ] + [bk | bv], as the pipeline runs it: per grid point one block of
  512 rows of y against the whole concatenated weight and bias row. Stated for ANY contents `V` of the core's buffers at
  the region's entry: the body's run, the proof data and the body obligation.
-/
import proofs.«175174_j31018253812438_2_alg».proof.Proof.Gen.Kernel.Launch
import proofs.«175174_j31018253812438_2_alg».proof.Proof.Gen.Kernel.Skeleton
import proofs.«175174_j31018253812438_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: custom_call 1, `cc1__linear_kernel`, KV = y [Wkᵀ | Wvᵀ] + [bk | bv]

  Window 0 is a block of 512 rows of the left operand, windows 1 and 2 the whole weight and the bias row (the same
  block at every grid point), window 3 the block of 512 result rows written back at every point. -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (an unfetched window's
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rx1 : Rect S512x1024 := Rect.unit (s := S512x1024) ![0, 0] S512x1024.size inb_S512x1024_S512x1024_0_0
abbrev rw1 : Rect S1024x2048 := Rect.unit (s := S1024x2048) ![0, 0] S1024x2048.size inb_S1024x2048_S1024x2048_0_0
abbrev rb1 : Rect S1x2048 := Rect.unit (s := S1x2048) ![0, 0] S1x2048.size inb_S1x2048_S1x2048_0_0
abbrev ro1 : Rect S512x2048 := Rect.unit (s := S512x2048) ![0, 0] S512x2048.size inb_S512x2048_S512x2048_0_0

/-- What the body leaves in the result window's buffer: its one store, of the product plus the bias row. -/
def out1_3 (x0 : Vec F S512x1024 .f32) (x1 : Vec F S1024x2048 .bf16) (x2 : Vec F S1x2048 .f32) : Vec F S512x2048 .bf16 :=
  View.canon [⟨ro1, k1_pay1 (View.ld x0 rx1) (View.ld x1 rw1) (View.ld x2 rb1)⟩]

/-- The store covers the buffer. -/
theorem cover1_3 (p0 : Vec F S512x2048 .bf16) (y : S512x2048.Idx) :
    ∃ pc ∈ ([⟨ro1, p0⟩] : List (View.Piece (Elt F) S512x2048 .bf16)), y ∈ pc.1.set :=
  View.cover_of_tiled [⟨ro1, p0⟩] S512x2048.size (by rfl) y

set_option maxHeartbeats 1000000 in
/-- The kernel body on whole staging memrefs: the inputs' contents are kept, the result's buffer ends at `out1_3`. -/
theorem sound_kernel1 (c : Dev nD) (E : Set ℕ) (i : grid1.Coords)
    (arg1 : Memref sig .tc .vmem S512x1024 .f32) (harg1 : arg1.IsWhole) (arg2 : Memref sig .tc .vmem S1024x2048 .bf16) (harg2 : arg2.IsWhole)
    (arg3 : Memref sig .tc .vmem S1x2048 .f32) (harg3 : arg3.IsWhole) (arg4 : Memref sig .tc .vmem S512x2048 .bf16) (harg4 : arg4.IsWhole)
    (x0 : Vec F S512x1024 .f32) (x1 : Vec F S1024x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this region on core `c`: the arrays as the region finds them; after the body each input's
    buffer at its block and the result's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.HandK.R2.lean ====
/-
  The attention region as the pipeline runs it: per grid point (batch, head pair, block of 256 query rows) the body
  reads a 256 x 128 block of Q and the 2048 x 128 blocks of K and V of the same batch and head pair (K and V are
  two windows on ONE array, the fused projection's), and stores the two heads' outputs into the low and the high
  64 lanes of the 256 x 128 result block. Stated for ANY contents `V` of the core's buffers at the region's entry:
  the body's run, the proof data and the body obligation.
-/
import proofs.«175174_j31018253812438_2_alg».proof.Proof.Gen.Kernel.Launch
import proofs.«175174_j31018253812438_2_alg».proof.Proof.Gen.Kernel.Skeleton
import proofs.«175174_j31018253812438_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: custom_call 2, `cc2__flash_kernel` -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (an unfetched window's
    block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body loads and stores through: the whole input blocks, and the two lane halves of the result. -/
abbrev rq2 : Rect S256x128 := Rect.unit (s := S256x128) ![0, 0] S256x128.size inb_S256x128_S256x128_0_0
abbrev rk2 : Rect S2048x128 := Rect.unit (s := S2048x128) ![0, 0] S2048x128.size inb_S2048x128_S2048x128_0_0
abbrev rlo2 : Rect S256x128 := Rect.unit (s := S256x128) ![0, 0] S256x64.size inb_S256x128_S256x64_0_0
abbrev rhi2 : Rect S256x128 := Rect.unit (s := S256x128) ![0, 64] S256x64.size inb_S256x128_S256x64_0_64

/-- What the body leaves in the result window's buffer: the second head's output over lanes 64..127 (the later
    store, listed first) and the first head's over lanes 0..63. -/
def out2_3 (x0 : Vec F S256x128 .bf16) (x1 : Vec F S2048x128 .bf16) (x2 : Vec F S2048x128 .bf16) : Vec F S256x128 .bf16 :=
  View.canon [⟨rhi2, k2_pay1 (k2_pay6 (View.ld x2 rk2)) (k2_pay7 (View.ld x0 rq2) (View.ld x1 rk2)) (k2_pay8 (View.ld x0 rq2) (View.ld x1 rk2))⟩,
    ⟨rlo2, k2_pay5 (View.ld x0 rq2) (View.ld x1 rk2) (View.ld x2 rk2)⟩]

/-- The two stores tile the buffer. -/
theorem cover2_3 (p0 p1 : Vec F S256x64 .bf16) (y : S256x128.Idx) :
    ∃ pc ∈ ([⟨rhi2, p0⟩, ⟨rlo2, p1⟩] : List (View.Piece (Elt F) S256x128 .bf16)), y ∈ pc.1.set :=
  View.cover_of_tiled [⟨rhi2, p0⟩, ⟨rlo2, p1⟩] S256x64.size (by rfl) y

set_option maxHeartbeats 2000000 in
/-- The kernel body on whole staging memrefs: the inputs' contents are kept, the result's buffer ends at `out2_3`. -/
theorem sound_kernel2 (c : Dev nD) (E : Set ℕ) (i : grid2.Coords)
    (arg3 : Memref sig .tc .vmem S256x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S256x128 .bf16) (harg6 : arg6.IsWhole)
    (x0 : Vec F S256x128 .bf16) (x1 : Vec F S2048x128 .bf16) (x2 : Vec F S2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out2_3 x0 x1 x2)) -∗ K ⟨⟩))
      ⊢ wp frame (wpE (defs₀ (F := F)) Variants.none c none) E (cc2__flash_kernel i arg3 harg3 arg4 harg4 arg5 harg5 arg6 harg6) K := by
  simp only [cc2__flash_kernel_eq_skeleton]; unfold cc2__flash_kernel_skel
  simp only [k2_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _ _)

/-- The proof data of this region on core `c`: the arrays as the region finds them; after the body each input's
    buffer at its block and the result's at `out2_3` of the input blocks; nothing owed. The key and value windows
    read one array, so each holds half of it: the left and the right half share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q w := match w with
    | ⟨0, _⟩ => fullShare
    | ⟨1, _⟩ => fullShare.left
    | ⟨2, _⟩ => fullShare.right
    | ⟨3, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.HandK.R2Share.lean ====
/-
  The attention region's key and value windows read ONE array (the fused projection's result). At the region's entry
  that array, held whole, is dealt to the two windows as its left and right half shares; at the exit the two halves,
  at the same contents, are put together again. These are the two entailments between "every unscoped buffer of the
  core at a valuation" and "the region's four windows' arrays beside the other unscoped buffers".
-/
import proofs.«175174_j31018253812438_2_alg».proof.Proof.Gen.Kernel.Launch
import proofs.«175174_j31018253812438_2_alg».proof.Proof.Gen.Kernel.Skeleton
import proofs.«175174_j31018253812438_2_alg».proof.Proof.Gen.Kernel.Points
import proofs.«175174_j31018253812438_2_alg».proof.Proof.HandK.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three distinct buffers behind the region's four windows, one by one. -/
theorem bigSep_arrs2 {M : Type} [URA M] (Φ : Ref sig .tc → sProp M) :
    bigSep (Finset.univ.image (Pipeline.arrRef spec2)) Φ = iprop(Φ main_v12 ∗ Φ main_v14 ∗ Φ main_v15) :=
  bigSep_eq_bigSepL_of_eq [main_v12, main_v14, main_v15] (by decide) (by decide) Φ

/-- ENTRY: the core's unscoped buffers at `V` are the region's arrays at the proof data's entry contents — the
    shared array split in two halves — and the other unscoped buffers. -/
theorem split2 (c : Dev nD) :
    (unscopedBufs c (V c) : sProp 𝕄) ⊢ iprop((dat2 V c).arrays (dat2 V c).A ∗ Pipeline.unscopedRest spec2 c (V c)) := by
  rw [Pipeline.unscopedBufs_split₀ cfgs 2 winFacts₀2.arr_unscoped c (V c)]
  refine sep_mono ?_ .rfl
  unfold Pipeline.arrBufs Pipeline.Dat.arrays
  refine ((Entails.of_eq (bigSep_arrs2 _)).trans ?_).trans (Entails.of_eq (bigSep_W2 _).symm)
  simp only [View.set_whole]
  rw [show (dat2 V c).share 0 = fullShare from rfl, show (dat2 V c).share 1 = fullShare.left from rfl,
    show (dat2 V c).share 2 = fullShare.right from rfl, show (dat2 V c).share 3 = fullShare from rfl]
  iintro ⟨H12, H14, H15⟩
  ihave H14' := (pointsTo_share (PosShare.mem_left_op_right fullShare)).1 $$ H14
  icases H14' with ⟨Hl, Hr⟩
  isplitl [H12]; · iexact H12
  isplitl [Hl]; · iexact Hl
  isplitl [Hr]; · iexact Hr
  iexact H15

/-- EXIT: the region's arrays at contents `Fa` — the two windows on the shared array at the SAME contents — and the
    other unscoped buffers at `V` are the core's unscoped buffers at any valuation `V'` that has the arrays at `Fa` and
    agrees with `V` off them. -/
theorem join2 (c : Dev nD) (V' : (b : Ref sig .tc) → Buf (Elt F) ((c : Thread nD τ).loc b))
    (Fa : (w : Fin cfg2.W) → Buf (Elt F) ((cfg2.win w).arr.view.loc (c : Thread nD τ)))
    (h0 : Fa 0 = V' main_v12) (h1 : Fa 1 = V' main_v14) (h2 : Fa 2 = V' main_v14) (h3 : Fa 3 = V' main_v15)
    (hrest : ∀ b, b ∉ Finset.univ.image (Pipeline.arrRef spec2) → V' b = V c b) :
    iprop((dat2 V c).arrays Fa ∗ Pipeline.unscopedRest spec2 c (V c)) ⊢ (unscopedBufs c V' : sProp 𝕄) := by
  rw [Pipeline.unscopedBufs_split₀ cfgs 2 winFacts₀2.arr_unscoped c V']
  refine sep_mono ?_ (Entails.of_eq ?_)
  · unfold Pipeline.arrBufs Pipeline.Dat.arrays
    refine ((Entails.of_eq (bigSep_W2 _)).trans ?_).trans (Entails.of_eq (bigSep_arrs2 _).symm)
    simp only [View.set_whole]
    rw [show (dat2 V c).share 0 = fullShare from rfl, show (dat2 V c).share 1 = fullShare.left from rfl,
      show (dat2 V c).share 2 = fullShare.right from rfl, show (dat2 V c).share 3 = fullShare from rfl, h0, h1, h2, h3]
    iintro ⟨H12, Hl, Hr, H15⟩
    isplitl [H12]; · iexact H12
    isplitl [Hl Hr]
    · iapply (pointsTo_share (PosShare.mem_left_op_right fullShare)).2
      isplitl [Hl]; · iexact Hl
      iexact Hr
    iexact H15
  · unfold Pipeline.unscopedRest
    exact bigSep_congr fun b hb => by rw [hrest b (Finset.mem_sdiff.mp hb).2]

end Cert.Kernel.Hand

end
-- ==== Proof.HandK.R3.lean ====
/-
  The output projection, out = attn Woᵀ + bo, as the pipeline runs it: per grid point one block of 512 attention rows
  against the whole transposed weight and the bias row. Stated for ANY contents `V` of the core's buffers at the region's
  entry: the body's run, the proof data and the body obligation.
-/
import proofs.«175174_j31018253812438_2_alg».proof.Proof.Gen.Kernel.Launch
import proofs.«175174_j31018253812438_2_alg».proof.Proof.Gen.Kernel.Skeleton
import proofs.«175174_j31018253812438_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: custom_call 3, `cc3__linear_kernel`, out = attn Woᵀ + bo

  Window 0 is a block of 512 rows of the left operand, windows 1 and 2 the whole weight and the bias row (the same
  block at every grid point), window 3 the block of 512 result rows written back at every point. -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not (an unfetched window's
    block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev rx3 : Rect S512x1024 := Rect.unit (s := S512x1024) ![0, 0] S512x1024.size inb_S512x1024_S512x1024_0_0
abbrev rw3 : Rect S1024x1024 := Rect.unit (s := S1024x1024) ![0, 0] S1024x1024.size inb_S1024x1024_S1024x1024_0_0
abbrev rb3 : Rect S1x1024 := Rect.unit (s := S1x1024) ![0, 0] S1x1024.size inb_S1x1024_S1x1024_0_0
abbrev ro3 : Rect S512x1024 := Rect.unit (s := S512x1024) ![0, 0] S512x1024.size inb_S512x1024_S512x1024_0_0

/-- What the body leaves in the result window's buffer: its one store, of the product plus the bias row. -/
def out3_3 (x0 : Vec F S512x1024 .bf16) (x1 : Vec F S1024x1024 .bf16) (x2 : Vec F S1x1024 .f32) : Vec F S512x1024 .f32 :=
  View.canon [⟨ro3, k3_pay1 (View.ld x0 rx3) (View.ld x1 rw3) (View.ld x2 rb3)⟩]

/-- The store covers the buffer. -/
theorem cover3_3 (p0 : Vec F S512x1024 .f32) (y : S512x1024.Idx) :
    ∃ pc ∈ ([⟨ro3, p0⟩] : List (View.Piece (Elt F) S512x1024 .f32)), y ∈ pc.1.set :=
  View.cover_of_tiled [⟨ro3, p0⟩] S512x1024.size (by rfl) y

set_option maxHeartbeats 1000000 in
/-- The kernel body on whole staging memrefs: the inputs' contents are kept, the result's buffer ends at `out3_3`. -/
theorem sound_kernel3 (c : Dev nD) (E : Set ℕ) (i : grid3.Coords)
    (arg1 : Memref sig .tc .vmem S512x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of this region on core `c`: the arrays as the region finds them; after the body each input's
    buffer at its block and the result's at `out3_3` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.HandK.Run.lean ====
/-
  The run of the whole program: @main is four host stretches and four kernel regions. `W0 … W8` are the contents of
  every unscoped buffer of a core at the nine boundaries between them, folded from the launch memory: a host stretch
  applies its operations, a region leaves its result array at what its write-backs fold to and everything else as
  entered. Each region is entered from "every unscoped buffer at the boundary's contents" and left at the next
  boundary's; the regions' arrays are split out of the unscoped buffers at entry and put back at exit. The run
  theorem says every weakly fair execution terminates with EVERY unscoped buffer at `W8`; the frame claim (no argument
  is written by a host stretch or is a region's result) and the result's value are read off it.
-/
import proofs.«175174_j31018253812438_2_alg».proof.Proof.Gen.Kernel.Launch
import proofs.«175174_j31018253812438_2_alg».proof.Proof.Gen.Kernel.Skeleton
import proofs.«175174_j31018253812438_2_alg».proof.Proof.Gen.Kernel.Points
import proofs.«175174_j31018253812438_2_alg».proof.Proof.HandK.R0
import proofs.«175174_j31018253812438_2_alg».proof.Proof.HandK.R1
import proofs.«175174_j31018253812438_2_alg».proof.Proof.HandK.R2Share
import proofs.«175174_j31018253812438_2_alg».proof.Proof.HandK.R3
import proofs.«175174_j31018253812438_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 (c : Dev nD) : Valuation τ sig (Elt F) := fun b => m (c, b)
/-- After the first host stretch (region 0's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b

/-- At region 0's exit: its arrays at what the pipeline leaves (the inputs as entered, the result's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 (c : Dev nD) : Valuation τ sig (Elt F) := StableHlo.after hostOps1 (W2 m c)
abbrev V3 : (c : Dev nD) → (b : Ref sig .tc) → Buf (Elt F) ((c : Thread nD τ).loc b) := fun c b => W3 m c b

/-- At region 1's exit: its arrays at what the pipeline leaves (the inputs as entered, the result's write-backs folded),
    every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At region 2's exit: the attention result array at what the pipeline leaves, every other buffer as entered (its
    three input windows' arrays are not written). -/
def W5 (c : Dev nD) : Valuation τ sig (Elt F) :=
  Function.update (W4 m c) (Proc.devRef .tc main_v15) ((dat2 (V4 m) c).arrAt 3 cfg2.N)
theorem W5_v15 (c : Dev nD) : W5 m c (Proc.devRef .tc main_v15) = (dat2 (V4 m) c).arrAt 3 cfg2.N := by
  unfold W5; exact Function.update_self ..
theorem W5_of_ne (c : Dev nD) (b : Ref sig .tc) (hb : b ≠ main_v15) : W5 m c (Proc.devRef .tc b) = W4 m c (Proc.devRef .tc b) := by
  unfold W5; exact Function.update_of_ne (StableHlo.devRef_ne_of_ne hb) ..
abbrev V5 : (c : Dev nD) → (b : Ref sig .tc) → Buf (Elt F) ((c : Thread nD τ).loc b) := fun c b => W5 m c b

/-- After the third host stretch (region 3's entry). -/
abbrev W6 (c : Dev nD) : Valuation τ sig (Elt F) := StableHlo.after hostOps3 (W5 m c)
abbrev V6 : (c : Dev nD) → (b : Ref sig .tc) → Buf (Elt F) ((c : Thread nD τ).loc b) := fun c b => W6 m c b

/-- At region 3's exit: its arrays at what the pipeline leaves (the inputs as entered, the result's write-backs folded),
    every other buffer as entered. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-- After the last host stretch: the end. -/
abbrev W8 (c : Dev nD) : Valuation τ sig (Elt F) := StableHlo.after hostOps4 (W7 m c)

/-- A buffer no host stretch writes and no region has as a window's array ends as launched. -/
theorem W8_of (c : Dev nD) (r : Ref sig .tc) (h0 : r ∉ hostOps0_W) (ha0 : ∀ w, Pipeline.arrRef spec0 w ≠ r)
    (h1 : r ∉ hostOps1_W) (ha1 : ∀ w, Pipeline.arrRef spec1 w ≠ r) (h2 : r ≠ main_v15)
    (h3 : r ∉ hostOps3_W) (ha3 : ∀ w, Pipeline.arrRef spec3 w ≠ r) (h4 : r ∉ hostOps4_W) :
    W8 m c (Proc.devRef .tc r) = m ((c : Thread nD τ).loc r) :=
  calc W8 m c (Proc.devRef .tc r)
    _ = W7 m c (Proc.devRef .tc r) := StableHlo.after_of_writes_sub hostOps4 _ hostOps4_writes h4
    _ = W6 m c (Proc.devRef .tc r) := W7_of_ne m c r ha3
    _ = W5 m c (Proc.devRef .tc r) := StableHlo.after_of_writes_sub hostOps3 _ hostOps3_writes h3
    _ = W4 m c (Proc.devRef .tc r) := W5_of_ne m c r h2
    _ = W3 m c (Proc.devRef .tc r) := W4_of_ne m c r ha1
    _ = W2 m c (Proc.devRef .tc r) := StableHlo.after_of_writes_sub hostOps1 _ hostOps1_writes h1
    _ = W1 m c (Proc.devRef .tc r) := W2_of_ne m c r ha0
    _ = W0 m c (Proc.devRef .tc r) := StableHlo.after_of_writes_sub hostOps0 _ hostOps0_writes h0
    _ = m ((c : Thread nD τ).loc r) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
  | ⟨3, _⟩ => fun c => dat3 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m c) ∗ ∃ r, prngReg c r)

/-! ## The regions as segments -/

-- a library lemma stated over `pin pcs a p` unifies with the pinned configuration only when unification may unfold
-- plain definitions in a metavariable's type
set_option backward.isDefEq.respectTransparency.types false in
/-- REGION 0 (the query projection): entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 1 (the fused key/value projection): entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention result array at region 2's exit, and every other array of it, in the exit valuation. -/
theorem hF2_0 (c : Dev nD) : (dat2 (V4 m) c).arrAt 0 cfg2.N = V5 m c main_v12 :=
  ((dat2 (V4 m) c).arrAt_in 0 rfl _).trans ((A_eq2 (V4 m) c 0).trans (W5_of_ne m c main_v12 (by decide)).symm)
theorem hF2_1 (c : Dev nD) : (dat2 (V4 m) c).arrAt 1 cfg2.N = V5 m c main_v14 :=
  ((dat2 (V4 m) c).arrAt_in 1 rfl _).trans ((A_eq2 (V4 m) c 1).trans (W5_of_ne m c main_v14 (by decide)).symm)
theorem hF2_2 (c : Dev nD) : (dat2 (V4 m) c).arrAt 2 cfg2.N = V5 m c main_v14 :=
  ((dat2 (V4 m) c).arrAt_in 2 rfl _).trans ((A_eq2 (V4 m) c 2).trans (W5_of_ne m c main_v14 (by decide)).symm)
theorem hF2_3 (c : Dev nD) : (dat2 (V4 m) c).arrAt 3 cfg2.N = V5 m c main_v15 := (W5_v15 m c).symm
theorem hrest2 (c : Dev nD) : ∀ b, b ∉ Finset.univ.image (Pipeline.arrRef spec2) → V5 m c b = V4 m c b :=
  fun b hb => W5_of_ne m c b fun e => hb (Finset.mem_image.mpr ⟨3, Finset.mem_univ _, e.symm⟩)

set_option backward.isDefEq.respectTransparency.types false in
/-- REGION 2 (attention): entered from every unscoped buffer at `W4`, left at `W5`. Its key and value windows read one
    array, split in two half shares at entry and joined at exit. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := split2 (V4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := join2 (V4 m) c (V5 m c) ((dat2 (V4 m) c).arrAt · cfg2.N) (hF2_0 m c) (hF2_1 m c) (hF2_2 m c) (hF2_3 m c) (hrest2 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 3 (the output projection): entered from every unscoped buffer at `W6`, left at `W7`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .host (hseg hostOps4 hostOps4_sub hostOps4_fresh (W7 m)) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final state holds every unscoped buffer of every core at `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame claim's post, at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_arg0 (by decide))).trans (W8_of m c main_arg0 (by decide) (by decide) (by decide) (by decide) (by decide) (by decide) (by decide) (by decide)),
    (h c _ (mem_uc main_arg1 (by decide))).trans (W8_of m c main_arg1 (by decide) (by decide) (by decide) (by decide) (by decide) (by decide) (by decide) (by decide)),
    (h c _ (mem_uc main_arg2 (by decide))).trans (W8_of m c main_arg2 (by decide) (by decide) (by decide) (by decide) (by decide) (by decide) (by decide) (by decide)),
    (h c _ (mem_uc main_arg3 (by decide))).trans (W8_of m c main_arg3 (by decide) (by decide) (by decide) (by decide) (by decide) (by decide) (by decide) (by decide)),
    (h c _ (mem_uc main_arg4 (by decide))).trans (W8_of m c main_arg4 (by decide) (by decide) (by decide) (by decide) (by decide) (by decide) (by decide) (by decide)),
    (h c _ (mem_uc main_arg5 (by decide))).trans (W8_of m c main_arg5 (by decide) (by decide) (by decide) (by decide) (by decide) (by decide) (by decide) (by decide)),
    (h c _ (mem_uc main_arg6 (by decide))).trans (W8_of m c main_arg6 (by decide) (by decide) (by decide) (by decide) (by decide) (by decide) (by decide) (by decide)),
    (h c _ (mem_uc main_arg7 (by decide))).trans (W8_of m c main_arg7 (by decide) (by decide) (by decide) (by decide) (by decide) (by decide) (by decide) (by decide)),
    (h c _ (mem_uc main_arg8 (by decide))).trans (W8_of m c main_arg8 (by decide) (by decide) (by decide) (by decide) (by decide) (by decide) (by decide) (by decide)),
    (h c _ (mem_uc main_arg9 (by decide))).trans (W8_of m c main_arg9 (by decide) (by decide) (by decide) (by decide) (by decide) (by decide) (by decide) (by decide)),
    (h c _ (mem_uc main_arg10 (by decide))).trans (W8_of m c main_arg10 (by decide) (by decide) (by decide) (by decide) (by decide) (by decide) (by decide) (by decide))⟩) (run_all m ρ)

end Cert.Kernel.Hand

end
-- ==== Proof.HandKI.R0.lean ====
/-
  The first projection, Q = x Wqᵀ + bq, as the pipeline runs it: per grid point one block of 512 rows of x against the
  whole transposed weight and the bias row. Stated for ANY contents `V` of the core's buffers at the region's entry:
  the body's run, the proof data (what every staging buffer holds after the body at every point) and the body obligation.
-/
import proofs.«175174_j31018253812438_2_alg».proof.Proof.Gen.KernelIdeal.Launch
import proofs.«175174_j31018253812438_2_alg».proof.Proof.Gen.KernelIdeal.Skeleton
import proofs.«175174_j31018253812438_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: custom_call 0, `cc0__linear_kernel`, Q = x Wqᵀ + bq

  Window 0 is a block of 512 rows of the left operand, windows 1 and 2 the whole weight and the bias row (the same
  block at every grid point), window 3 the block of 512 result rows written back at every point. -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (an unfetched window's
    block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-buffer rectangles the body loads and stores through. -/
abbrev rx0 : Rect S512x1024 := Rect.unit (s := S512x1024) ![0, 0] S512x1024.size inb_S512x1024_S512x1024_0_0
abbrev rw0 : Rect S1024x1024 := Rect.unit (s := S1024x1024) ![0, 0] S1024x1024.size inb_S1024x1024_S1024x1024_0_0
abbrev rb0 : Rect S1x1024 := Rect.unit (s := S1x1024) ![0, 0] S1x1024.size inb_S1x1024_S1x1024_0_0
abbrev ro0 : Rect S512x1024 := Rect.unit (s := S512x1024) ![0, 0] S512x1024.size inb_S512x1024_S512x1024_0_0

/-- What the body leaves in the result window's buffer: its one store, of the product plus the bias row. -/
def out0_3 (x0 : Vec F S512x1024 .f32) (x1 : Vec F S1024x1024 .bf16) (x2 : Vec F S1x1024 .f32) : Vec F S512x1024 .bf16 :=
  View.canon [⟨ro0, k0_pay1 (View.ld x0 rx0) (View.ld x1 rw0) (View.ld x2 rb0)⟩]

/-- The store covers the buffer. -/
theorem cover0_3 (p0 : Vec F S512x1024 .bf16) (y : S512x1024.Idx) :
    ∃ pc ∈ ([⟨ro0, p0⟩] : List (View.Piece (Elt F) S512x1024 .bf16)), y ∈ pc.1.set :=
  View.cover_of_tiled [⟨ro0, p0⟩] S512x1024.size (by rfl) y

set_option maxHeartbeats 1000000 in
/-- The kernel body on whole staging memrefs: the inputs' contents are kept, the result's buffer ends at `out0_3`. -/
theorem sound_kernel0 (c : Dev nD) (E : Set ℕ) (i : grid0.Coords)
    (arg1 : Memref sig .tc .vmem S512x1024 .f32) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .bf16) (harg4 : arg4.IsWhole)
    (x0 : Vec F S512x1024 .f32) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of this region on core `c`: the arrays as the region finds them; after the body each input's
    buffer at its block and the result's at `out0_3` of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.HandKI.R1.lean ====
/-
  The fused key/value projection, KV = y [Wkᵀ | Wvᵀ] + [bk | bv], as the pipeline runs it: per grid point one block of
  512 rows of y against the whole concatenated weight and bias row. Stated for ANY contents `V` of the core's buffers at
  the region's entry: the body's run, the proof data and the body obligation.
-/
import proofs.«175174_j31018253812438_2_alg».proof.Proof.Gen.KernelIdeal.Launch
import proofs.«175174_j31018253812438_2_alg».proof.Proof.Gen.KernelIdeal.Skeleton
import proofs.«175174_j31018253812438_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: custom_call 1, `cc1__linear_kernel`, KV = y [Wkᵀ | Wvᵀ] + [bk | bv]

  Window 0 is a block of 512 rows of the left operand, windows 1 and 2 the whole weight and the bias row (the same
  block at every grid point), window 3 the block of 512 result rows written back at every point. -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (an unfetched window's
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rx1 : Rect S512x1024 := Rect.unit (s := S512x1024) ![0, 0] S512x1024.size inb_S512x1024_S512x1024_0_0
abbrev rw1 : Rect S1024x2048 := Rect.unit (s := S1024x2048) ![0, 0] S1024x2048.size inb_S1024x2048_S1024x2048_0_0
abbrev rb1 : Rect S1x2048 := Rect.unit (s := S1x2048) ![0, 0] S1x2048.size inb_S1x2048_S1x2048_0_0
abbrev ro1 : Rect S512x2048 := Rect.unit (s := S512x2048) ![0, 0] S512x2048.size inb_S512x2048_S512x2048_0_0

/-- What the body leaves in the result window's buffer: its one store, of the product plus the bias row. -/
def out1_3 (x0 : Vec F S512x1024 .f32) (x1 : Vec F S1024x2048 .bf16) (x2 : Vec F S1x2048 .f32) : Vec F S512x2048 .bf16 :=
  View.canon [⟨ro1, k1_pay1 (View.ld x0 rx1) (View.ld x1 rw1) (View.ld x2 rb1)⟩]

/-- The store covers the buffer. -/
theorem cover1_3 (p0 : Vec F S512x2048 .bf16) (y : S512x2048.Idx) :
    ∃ pc ∈ ([⟨ro1, p0⟩] : List (View.Piece (Elt F) S512x2048 .bf16)), y ∈ pc.1.set :=
  View.cover_of_tiled [⟨ro1, p0⟩] S512x2048.size (by rfl) y

set_option maxHeartbeats 1000000 in
/-- The kernel body on whole staging memrefs: the inputs' contents are kept, the result's buffer ends at `out1_3`. -/
theorem sound_kernel1 (c : Dev nD) (E : Set ℕ) (i : grid1.Coords)
    (arg1 : Memref sig .tc .vmem S512x1024 .f32) (harg1 : arg1.IsWhole) (arg2 : Memref sig .tc .vmem S1024x2048 .bf16) (harg2 : arg2.IsWhole)
    (arg3 : Memref sig .tc .vmem S1x2048 .f32) (harg3 : arg3.IsWhole) (arg4 : Memref sig .tc .vmem S512x2048 .bf16) (harg4 : arg4.IsWhole)
    (x0 : Vec F S512x1024 .f32) (x1 : Vec F S1024x2048 .bf16) (x2 : Vec F S1x2048 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this region on core `c`: the arrays as the region finds them; after the body each input's
    buffer at its block and the result's at `out1_3` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.HandKI.R2.lean ====
/-
  The attention region as the pipeline runs it: per grid point (batch, head pair, block of 256 query rows) the body
  reads a 256 x 128 block of Q and the 2048 x 128 blocks of K and V of the same batch and head pair (K and V are
  two windows on ONE array, the fused projection's), and stores the two heads' outputs into the low and the high
  64 lanes of the 256 x 128 result block. Stated for ANY contents `V` of the core's buffers at the region's entry:
  the body's run, the proof data and the body obligation.
-/
import proofs.«175174_j31018253812438_2_alg».proof.Proof.Gen.KernelIdeal.Launch
import proofs.«175174_j31018253812438_2_alg».proof.Proof.Gen.KernelIdeal.Skeleton
import proofs.«175174_j31018253812438_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 2: custom_call 2, `cc2__flash_kernel` -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not (an unfetched window's
    block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The rectangles the body loads and stores through: the whole input blocks, and the two lane halves of the result. -/
abbrev rq2 : Rect S256x128 := Rect.unit (s := S256x128) ![0, 0] S256x128.size inb_S256x128_S256x128_0_0
abbrev rk2 : Rect S2048x128 := Rect.unit (s := S2048x128) ![0, 0] S2048x128.size inb_S2048x128_S2048x128_0_0
abbrev rlo2 : Rect S256x128 := Rect.unit (s := S256x128) ![0, 0] S256x64.size inb_S256x128_S256x64_0_0
abbrev rhi2 : Rect S256x128 := Rect.unit (s := S256x128) ![0, 64] S256x64.size inb_S256x128_S256x64_0_64

/-- What the body leaves in the result window's buffer: the second head's output over lanes 64..127 (the later
    store, listed first) and the first head's over lanes 0..63. -/
def out2_3 (x0 : Vec F S256x128 .bf16) (x1 : Vec F S2048x128 .bf16) (x2 : Vec F S2048x128 .bf16) : Vec F S256x128 .bf16 :=
  View.canon [⟨rhi2, k2_pay1 (k2_pay6 (View.ld x2 rk2)) (k2_pay7 (View.ld x0 rq2) (View.ld x1 rk2)) (k2_pay8 (View.ld x0 rq2) (View.ld x1 rk2))⟩,
    ⟨rlo2, k2_pay5 (View.ld x0 rq2) (View.ld x1 rk2) (View.ld x2 rk2)⟩]

/-- The two stores tile the buffer. -/
theorem cover2_3 (p0 p1 : Vec F S256x64 .bf16) (y : S256x128.Idx) :
    ∃ pc ∈ ([⟨rhi2, p0⟩, ⟨rlo2, p1⟩] : List (View.Piece (Elt F) S256x128 .bf16)), y ∈ pc.1.set :=
  View.cover_of_tiled [⟨rhi2, p0⟩, ⟨rlo2, p1⟩] S256x64.size (by rfl) y

set_option maxHeartbeats 2000000 in
/-- The kernel body on whole staging memrefs: the inputs' contents are kept, the result's buffer ends at `out2_3`. -/
theorem sound_kernel2 (c : Dev nD) (E : Set ℕ) (i : grid2.Coords)
    (arg3 : Memref sig .tc .vmem S256x128 .bf16) (harg3 : arg3.IsWhole) (arg4 : Memref sig .tc .vmem S2048x128 .bf16) (harg4 : arg4.IsWhole)
    (arg5 : Memref sig .tc .vmem S2048x128 .bf16) (harg5 : arg5.IsWhole) (arg6 : Memref sig .tc .vmem S256x128 .bf16) (harg6 : arg6.IsWhole)
    (x0 : Vec F S256x128 .bf16) (x1 : Vec F S2048x128 .bf16) (x2 : Vec F S2048x128 .bf16) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out2_3 x0 x1 x2)) -∗ K ⟨⟩))
      ⊢ wp frame (wpE (defs₀ (F := F)) Variants.none c none) E (cc2__flash_kernel i arg3 harg3 arg4 harg4 arg5 harg5 arg6 harg6) K := by
  simp only [cc2__flash_kernel_eq_skeleton]; unfold cc2__flash_kernel_skel
  simp only [k2_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _ _)

/-- The proof data of this region on core `c`: the arrays as the region finds them; after the body each input's
    buffer at its block and the result's at `out2_3` of the input blocks; nothing owed. The key and value windows
    read one array, so each holds half of it: the left and the right half share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q w := match w with
    | ⟨0, _⟩ => fullShare
    | ⟨1, _⟩ => fullShare.left
    | ⟨2, _⟩ => fullShare.right
    | ⟨3, _⟩ => fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.HandKI.R2Share.lean ====
/-
  The attention region's key and value windows read ONE array (the fused projection's result). At the region's entry
  that array, held whole, is dealt to the two windows as its left and right half shares; at the exit the two halves,
  at the same contents, are put together again. These are the two entailments between "every unscoped buffer of the
  core at a valuation" and "the region's four windows' arrays beside the other unscoped buffers".
-/
import proofs.«175174_j31018253812438_2_alg».proof.Proof.Gen.KernelIdeal.Launch
import proofs.«175174_j31018253812438_2_alg».proof.Proof.Gen.KernelIdeal.Skeleton
import proofs.«175174_j31018253812438_2_alg».proof.Proof.Gen.KernelIdeal.Points
import proofs.«175174_j31018253812438_2_alg».proof.Proof.HandKI.R2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The three distinct buffers behind the region's four windows, one by one. -/
theorem bigSep_arrs2 {M : Type} [URA M] (Φ : Ref sig .tc → sProp M) :
    bigSep (Finset.univ.image (Pipeline.arrRef spec2)) Φ = iprop(Φ main_v12 ∗ Φ main_v14 ∗ Φ main_v15) :=
  bigSep_eq_bigSepL_of_eq [main_v12, main_v14, main_v15] (by decide) (by decide) Φ

/-- ENTRY: the core's unscoped buffers at `V` are the region's arrays at the proof data's entry contents — the
    shared array split in two halves — and the other unscoped buffers. -/
theorem split2 (c : Dev nD) :
    (unscopedBufs c (V c) : sProp 𝕄) ⊢ iprop((dat2 V c).arrays (dat2 V c).A ∗ Pipeline.unscopedRest spec2 c (V c)) := by
  rw [Pipeline.unscopedBufs_split₀ cfgs 2 winFacts₀2.arr_unscoped c (V c)]
  refine sep_mono ?_ .rfl
  unfold Pipeline.arrBufs Pipeline.Dat.arrays
  refine ((Entails.of_eq (bigSep_arrs2 _)).trans ?_).trans (Entails.of_eq (bigSep_W2 _).symm)
  simp only [View.set_whole]
  rw [show (dat2 V c).share 0 = fullShare from rfl, show (dat2 V c).share 1 = fullShare.left from rfl,
    show (dat2 V c).share 2 = fullShare.right from rfl, show (dat2 V c).share 3 = fullShare from rfl]
  iintro ⟨H12, H14, H15⟩
  ihave H14' := (pointsTo_share (PosShare.mem_left_op_right fullShare)).1 $$ H14
  icases H14' with ⟨Hl, Hr⟩
  isplitl [H12]; · iexact H12
  isplitl [Hl]; · iexact Hl
  isplitl [Hr]; · iexact Hr
  iexact H15

/-- EXIT: the region's arrays at contents `Fa` — the two windows on the shared array at the SAME contents — and the
    other unscoped buffers at `V` are the core's unscoped buffers at any valuation `V'` that has the arrays at `Fa` and
    agrees with `V` off them. -/
theorem join2 (c : Dev nD) (V' : (b : Ref sig .tc) → Buf (Elt F) ((c : Thread nD τ).loc b))
    (Fa : (w : Fin cfg2.W) → Buf (Elt F) ((cfg2.win w).arr.view.loc (c : Thread nD τ)))
    (h0 : Fa 0 = V' main_v12) (h1 : Fa 1 = V' main_v14) (h2 : Fa 2 = V' main_v14) (h3 : Fa 3 = V' main_v15)
    (hrest : ∀ b, b ∉ Finset.univ.image (Pipeline.arrRef spec2) → V' b = V c b) :
    iprop((dat2 V c).arrays Fa ∗ Pipeline.unscopedRest spec2 c (V c)) ⊢ (unscopedBufs c V' : sProp 𝕄) := by
  rw [Pipeline.unscopedBufs_split₀ cfgs 2 winFacts₀2.arr_unscoped c V']
  refine sep_mono ?_ (Entails.of_eq ?_)
  · unfold Pipeline.arrBufs Pipeline.Dat.arrays
    refine ((Entails.of_eq (bigSep_W2 _)).trans ?_).trans (Entails.of_eq (bigSep_arrs2 _).symm)
    simp only [View.set_whole]
    rw [show (dat2 V c).share 0 = fullShare from rfl, show (dat2 V c).share 1 = fullShare.left from rfl,
      show (dat2 V c).share 2 = fullShare.right from rfl, show (dat2 V c).share 3 = fullShare from rfl, h0, h1, h2, h3]
    iintro ⟨H12, Hl, Hr, H15⟩
    isplitl [H12]; · iexact H12
    isplitl [Hl Hr]
    · iapply (pointsTo_share (PosShare.mem_left_op_right fullShare)).2
      isplitl [Hl]; · iexact Hl
      iexact Hr
    iexact H15
  · unfold Pipeline.unscopedRest
    exact bigSep_congr fun b hb => by rw [hrest b (Finset.mem_sdiff.mp hb).2]

end Cert.KernelIdeal.Hand

end
-- ==== Proof.HandKI.R3.lean ====
/-
  The output projection, out = attn Woᵀ + bo, as the pipeline runs it: per grid point one block of 512 attention rows
  against the whole transposed weight and the bias row. Stated for ANY contents `V` of the core's buffers at the region's
  entry: the body's run, the proof data and the body obligation.
-/
import proofs.«175174_j31018253812438_2_alg».proof.Proof.Gen.KernelIdeal.Launch
import proofs.«175174_j31018253812438_2_alg».proof.Proof.Gen.KernelIdeal.Skeleton
import proofs.«175174_j31018253812438_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: custom_call 3, `cc3__linear_kernel`, out = attn Woᵀ + bo

  Window 0 is a block of 512 rows of the left operand, windows 1 and 2 the whole weight and the bias row (the same
  block at every grid point), window 3 the block of 512 result rows written back at every point. -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's staging buffer holds its block at every point, fetched there or not (an unfetched window's
    block index has not moved). -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The whole-buffer rectangles the body loads and stores through. -/
abbrev rx3 : Rect S512x1024 := Rect.unit (s := S512x1024) ![0, 0] S512x1024.size inb_S512x1024_S512x1024_0_0
abbrev rw3 : Rect S1024x1024 := Rect.unit (s := S1024x1024) ![0, 0] S1024x1024.size inb_S1024x1024_S1024x1024_0_0
abbrev rb3 : Rect S1x1024 := Rect.unit (s := S1x1024) ![0, 0] S1x1024.size inb_S1x1024_S1x1024_0_0
abbrev ro3 : Rect S512x1024 := Rect.unit (s := S512x1024) ![0, 0] S512x1024.size inb_S512x1024_S512x1024_0_0

/-- What the body leaves in the result window's buffer: its one store, of the product plus the bias row. -/
def out3_3 (x0 : Vec F S512x1024 .bf16) (x1 : Vec F S1024x1024 .bf16) (x2 : Vec F S1x1024 .f32) : Vec F S512x1024 .f32 :=
  View.canon [⟨ro3, k3_pay1 (View.ld x0 rx3) (View.ld x1 rw3) (View.ld x2 rb3)⟩]

/-- The store covers the buffer. -/
theorem cover3_3 (p0 : Vec F S512x1024 .f32) (y : S512x1024.Idx) :
    ∃ pc ∈ ([⟨ro3, p0⟩] : List (View.Piece (Elt F) S512x1024 .f32)), y ∈ pc.1.set :=
  View.cover_of_tiled [⟨ro3, p0⟩] S512x1024.size (by rfl) y

set_option maxHeartbeats 1000000 in
/-- The kernel body on whole staging memrefs: the inputs' contents are kept, the result's buffer ends at `out3_3`. -/
theorem sound_kernel3 (c : Dev nD) (E : Set ℕ) (i : grid3.Coords)
    (arg1 : Memref sig .tc .vmem S512x1024 .bf16) (harg1 : arg1.IsWhole) (arg2 : Memref sig .tc .vmem S1024x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x1024 .bf16) (x1 : Vec F S1024x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-- The proof data of this region on core `c`: the arrays as the region finds them; after the body each input's
    buffer at its block and the result's at `out3_3` of the input blocks; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = out3_3 (iblk3 V c 0 t) (iblk3 V c 1 t) (iblk3 V c 2 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.HandKI.Run.lean ====
/-
  The run of the whole program: @main is four host stretches and four kernel regions. `W0 … W8` are the contents of
  every unscoped buffer of a core at the nine boundaries between them, folded from the launch memory: a host stretch
  applies its operations, a region leaves its result array at what its write-backs fold to and everything else as
  entered. Each region is entered from "every unscoped buffer at the boundary's contents" and left at the next
  boundary's; the regions' arrays are split out of the unscoped buffers at entry and put back at exit. The run
  theorem says every weakly fair execution terminates with EVERY unscoped buffer at `W8`; the frame claim (no argument
  is written by a host stretch or is a region's result) and the result's value are read off it.
-/
import proofs.«175174_j31018253812438_2_alg».proof.Proof.Gen.KernelIdeal.Launch
import proofs.«175174_j31018253812438_2_alg».proof.Proof.Gen.KernelIdeal.Skeleton
import proofs.«175174_j31018253812438_2_alg».proof.Proof.Gen.KernelIdeal.Points
import proofs.«175174_j31018253812438_2_alg».proof.Proof.HandKI.R0
import proofs.«175174_j31018253812438_2_alg».proof.Proof.HandKI.R1
import proofs.«175174_j31018253812438_2_alg».proof.Proof.HandKI.R2Share
import proofs.«175174_j31018253812438_2_alg».proof.Proof.HandKI.R3
import proofs.«175174_j31018253812438_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 (c : Dev nD) : Valuation τ sig (Elt F) := fun b => m (c, b)
/-- After the first host stretch (region 0's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b

/-- At region 0's exit: its arrays at what the pipeline leaves (the inputs as entered, the result's write-backs folded),
    every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 (c : Dev nD) : Valuation τ sig (Elt F) := StableHlo.after hostOps1 (W2 m c)
abbrev V3 : (c : Dev nD) → (b : Ref sig .tc) → Buf (Elt F) ((c : Thread nD τ).loc b) := fun c b => W3 m c b

/-- At region 1's exit: its arrays at what the pipeline leaves (the inputs as entered, the result's write-backs folded),
    every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- At region 2's exit: the attention result array at what the pipeline leaves, every other buffer as entered (its
    three input windows' arrays are not written). -/
def W5 (c : Dev nD) : Valuation τ sig (Elt F) :=
  Function.update (W4 m c) (Proc.devRef .tc main_v15) ((dat2 (V4 m) c).arrAt 3 cfg2.N)
theorem W5_v15 (c : Dev nD) : W5 m c (Proc.devRef .tc main_v15) = (dat2 (V4 m) c).arrAt 3 cfg2.N := by
  unfold W5; exact Function.update_self ..
theorem W5_of_ne (c : Dev nD) (b : Ref sig .tc) (hb : b ≠ main_v15) : W5 m c (Proc.devRef .tc b) = W4 m c (Proc.devRef .tc b) := by
  unfold W5; exact Function.update_of_ne (StableHlo.devRef_ne_of_ne hb) ..
abbrev V5 : (c : Dev nD) → (b : Ref sig .tc) → Buf (Elt F) ((c : Thread nD τ).loc b) := fun c b => W5 m c b

/-- After the third host stretch (region 3's entry). -/
abbrev W6 (c : Dev nD) : Valuation τ sig (Elt F) := StableHlo.after hostOps3 (W5 m c)
abbrev V6 : (c : Dev nD) → (b : Ref sig .tc) → Buf (Elt F) ((c : Thread nD τ).loc b) := fun c b => W6 m c b

/-- At region 3's exit: its arrays at what the pipeline leaves (the inputs as entered, the result's write-backs folded),
    every other buffer as entered. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-- After the last host stretch: the end. -/
abbrev W8 (c : Dev nD) : Valuation τ sig (Elt F) := StableHlo.after hostOps4 (W7 m c)

/-- A buffer no host stretch writes and no region has as a window's array ends as launched. -/
theorem W8_of (c : Dev nD) (r : Ref sig .tc) (h0 : r ∉ hostOps0_W) (ha0 : ∀ w, Pipeline.arrRef spec0 w ≠ r)
    (h1 : r ∉ hostOps1_W) (ha1 : ∀ w, Pipeline.arrRef spec1 w ≠ r) (h2 : r ≠ main_v15)
    (h3 : r ∉ hostOps3_W) (ha3 : ∀ w, Pipeline.arrRef spec3 w ≠ r) (h4 : r ∉ hostOps4_W) :
    W8 m c (Proc.devRef .tc r) = m ((c : Thread nD τ).loc r) :=
  calc W8 m c (Proc.devRef .tc r)
    _ = W7 m c (Proc.devRef .tc r) := StableHlo.after_of_writes_sub hostOps4 _ hostOps4_writes h4
    _ = W6 m c (Proc.devRef .tc r) := W7_of_ne m c r ha3
    _ = W5 m c (Proc.devRef .tc r) := StableHlo.after_of_writes_sub hostOps3 _ hostOps3_writes h3
    _ = W4 m c (Proc.devRef .tc r) := W5_of_ne m c r h2
    _ = W3 m c (Proc.devRef .tc r) := W4_of_ne m c r ha1
    _ = W2 m c (Proc.devRef .tc r) := StableHlo.after_of_writes_sub hostOps1 _ hostOps1_writes h1
    _ = W1 m c (Proc.devRef .tc r) := W2_of_ne m c r ha0
    _ = W0 m c (Proc.devRef .tc r) := StableHlo.after_of_writes_sub hostOps0 _ hostOps0_writes h0
    _ = m ((c : Thread nD τ).loc r) := rfl

/-! ## The proof data family and the thread state -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V4 m) c
  | ⟨3, _⟩ => fun c => dat3 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m c) ∗ ∃ r, prngReg c r)

/-! ## The regions as segments -/

-- a library lemma stated over `pin pcs a p` unifies with the pinned configuration only when unification may unfold
-- plain definitions in a metavariable's type
set_option backward.isDefEq.respectTransparency.types false in
/-- REGION 0 (the query projection): entered from every unscoped buffer at `W1`, left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 1 (the fused key/value projection): entered from every unscoped buffer at `W3`, left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention result array at region 2's exit, and every other array of it, in the exit valuation. -/
theorem hF2_0 (c : Dev nD) : (dat2 (V4 m) c).arrAt 0 cfg2.N = V5 m c main_v12 :=
  ((dat2 (V4 m) c).arrAt_in 0 rfl _).trans ((A_eq2 (V4 m) c 0).trans (W5_of_ne m c main_v12 (by decide)).symm)
theorem hF2_1 (c : Dev nD) : (dat2 (V4 m) c).arrAt 1 cfg2.N = V5 m c main_v14 :=
  ((dat2 (V4 m) c).arrAt_in 1 rfl _).trans ((A_eq2 (V4 m) c 1).trans (W5_of_ne m c main_v14 (by decide)).symm)
theorem hF2_2 (c : Dev nD) : (dat2 (V4 m) c).arrAt 2 cfg2.N = V5 m c main_v14 :=
  ((dat2 (V4 m) c).arrAt_in 2 rfl _).trans ((A_eq2 (V4 m) c 2).trans (W5_of_ne m c main_v14 (by decide)).symm)
theorem hF2_3 (c : Dev nD) : (dat2 (V4 m) c).arrAt 3 cfg2.N = V5 m c main_v15 := (W5_v15 m c).symm
theorem hrest2 (c : Dev nD) : ∀ b, b ∉ Finset.univ.image (Pipeline.arrRef spec2) → V5 m c b = V4 m c b :=
  fun b hb => W5_of_ne m c b fun e => hb (Finset.mem_image.mpr ⟨3, Finset.mem_univ _, e.symm⟩)

set_option backward.isDefEq.respectTransparency.types false in
/-- REGION 2 (attention): entered from every unscoped buffer at `W4`, left at `W5`. Its key and value windows read one
    array, split in two half shares at entry and joined at exit. -/
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := split2 (V4 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := join2 (V4 m) c (V5 m c) ((dat2 (V4 m) c).arrAt · cfg2.N) (hF2_0 m c) (hF2_1 m c) (hF2_2 m c) (hF2_3 m c) (hrest2 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- REGION 3 (the output projection): entered from every unscoped buffer at `W6`, left at `W7`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V6 m c) (V7 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight segments in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .region (reg2 m),
    .host (hseg hostOps3 hostOps3_sub hostOps3_fresh (W5 m)),
    .region (reg3 m),
    .host (hseg hostOps4 hostOps4_sub hostOps4_fresh (W7 m)) ]
/-- @main IS the run of the segments. -/
theorem main_run (c : Dev nD) : main (F := F) c = Pipeline.Seg.run (segs m) := (main_chain c).trans (by chain_rfl)

set_option backward.isDefEq.respectTransparency.types false in
/-- THE RUN: from any memory with zero counters every weakly fair execution of @main on the TensorCores terminates,
    nothing faulting, and every final state holds every unscoped buffer of every core at `W8`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ R c)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame claim's post, at any `F`: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨
    (h c _ (mem_uc main_arg0 (by decide))).trans (W8_of m c main_arg0 (by decide) (by decide) (by decide) (by decide) (by decide) (by decide) (by decide) (by decide)),
    (h c _ (mem_uc main_arg1 (by decide))).trans (W8_of m c main_arg1 (by decide) (by decide) (by decide) (by decide) (by decide) (by decide) (by decide) (by decide)),
    (h c _ (mem_uc main_arg2 (by decide))).trans (W8_of m c main_arg2 (by decide) (by decide) (by decide) (by decide) (by decide) (by decide) (by decide) (by decide)),
    (h c _ (mem_uc main_arg3 (by decide))).trans (W8_of m c main_arg3 (by decide) (by decide) (by decide) (by decide) (by decide) (by decide) (by decide) (by decide)),
    (h c _ (mem_uc main_arg4 (by decide))).trans (W8_of m c main_arg4 (by decide) (by decide) (by decide) (by decide) (by decide) (by decide) (by decide) (by decide)),
    (h c _ (mem_uc main_arg5 (by decide))).trans (W8_of m c main_arg5 (by decide) (by decide) (by decide) (by decide) (by decide) (by decide) (by decide) (by decide)),
    (h c _ (mem_uc main_arg6 (by decide))).trans (W8_of m c main_arg6 (by decide) (by decide) (by decide) (by decide) (by decide) (by decide) (by decide) (by decide)),
    (h c _ (mem_uc main_arg7 (by decide))).trans (W8_of m c main_arg7 (by decide) (by decide) (by decide) (by decide) (by decide) (by decide) (by decide) (by decide)),
    (h c _ (mem_uc main_arg8 (by decide))).trans (W8_of m c main_arg8 (by decide) (by decide) (by decide) (by decide) (by decide) (by decide) (by decide) (by decide)),
    (h c _ (mem_uc main_arg9 (by decide))).trans (W8_of m c main_arg9 (by decide) (by decide) (by decide) (by decide) (by decide) (by decide) (by decide) (by decide)),
    (h c _ (mem_uc main_arg10 (by decide))).trans (W8_of m c main_arg10 (by decide) (by decide) (by decide) (by decide) (by decide) (by decide) (by decide) (by decide))⟩) (run_all m ρ)

end Cert.KernelIdeal.Hand

end
-- ==== Proof.HandKI.Boundaries.lean ====
/-
  Where each buffer a region reads was last written: the valuation a region is entered from, read at one of its
  windows' arrays, is either an earlier region's result array (what that region's write-backs fold to), or what the
  first host stretch computed from the arguments, untouched since. These equations are bookkeeping over the fold
  `W0 … W8`: a host stretch leaves what it does not write, a region leaves what is not its result.
-/
import proofs.«175174_j31018253812438_2_alg».proof.Proof.Gen.KernelIdeal.Launch
import proofs.«175174_j31018253812438_2_alg».proof.Proof.Gen.KernelIdeal.Skeleton
import proofs.«175174_j31018253812438_2_alg».proof.Proof.Gen.KernelIdeal.Points
import proofs.«175174_j31018253812438_2_alg».proof.Proof.HandKI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-- A buffer the second host stretch does not write and region 0 does not have as a window's array is, at region 1's
    entry, as the first host stretch left it. -/
theorem W3_of (r : Ref sig .tc) (h1 : r ∉ hostOps1_W) (ha0 : ∀ w, Pipeline.arrRef spec0 w ≠ r) :
    W3 m c (Proc.devRef .tc r) = W1 m c (Proc.devRef .tc r) :=
  (StableHlo.after_of_writes_sub hostOps1 _ hostOps1_writes h1).trans (W2_of_ne m c r ha0)

/-- The same up to region 2's entry (region 1's windows' arrays apart), -/
theorem W4_of (r : Ref sig .tc) (ha1 : ∀ w, Pipeline.arrRef spec1 w ≠ r) (h1 : r ∉ hostOps1_W) (ha0 : ∀ w, Pipeline.arrRef spec0 w ≠ r) :
    W4 m c (Proc.devRef .tc r) = W1 m c (Proc.devRef .tc r) :=
  (W4_of_ne m c r ha1).trans (W3_of m c r h1 ha0)

/-- and up to region 3's entry (the attention result and what the third host stretch writes apart). -/
theorem W6_of (r : Ref sig .tc) (h3 : r ∉ hostOps3_W) (h2 : r ≠ main_v15) (ha1 : ∀ w, Pipeline.arrRef spec1 w ≠ r)
    (h1 : r ∉ hostOps1_W) (ha0 : ∀ w, Pipeline.arrRef spec0 w ≠ r) :
    W6 m c (Proc.devRef .tc r) = W1 m c (Proc.devRef .tc r) :=
  (StableHlo.after_of_writes_sub hostOps3 _ hostOps3_writes h3).trans ((W5_of_ne m c r h2).trans (W4_of m c r ha1 h1 ha0))

/-- An argument the first host stretch does not write is, after it, as launched. -/
theorem W1_arg (r : Ref sig .tc) (h0 : r ∉ hostOps0_W) : W1 m c (Proc.devRef .tc r) = m ((c : Thread nD τ).loc r) :=
  StableHlo.after_of_writes_sub hostOps0 _ hostOps0_writes h0

/-- The projected queries region 2 reads are region 0's result array. -/
theorem q_at : V4 m c main_v12 = (dat0 (V1 m) c).arrAt 3 cfg0.N :=
  (W4_of_ne m c main_v12 (by decide)).trans ((StableHlo.after_of_writes_sub hostOps1 _ hostOps1_writes (by decide)).trans (W2_arr m c 3))

/-- The projected keys and values region 2 reads are region 1's result array. -/
theorem kv_at : V4 m c main_v14 = (dat1 (V3 m) c).arrAt 3 cfg1.N := W4_arr m c 3

/-- The attention rows region 3 reads are region 2's result array. -/
theorem a_at : V6 m c main_v15 = (dat2 (V4 m) c).arrAt 3 cfg2.N :=
  (StableHlo.after_of_writes_sub hostOps3 _ hostOps3_writes (by decide)).trans (W5_v15 m c)

/-- The array the last host stretch reshapes is region 3's result array. -/
theorem o_at : W7 m c (Proc.devRef .tc main_v17) = (dat3 (V6 m) c).arrAt 3 cfg3.N := W7_arr m c 3

/-- Region 1's left operand, weight and the bias vector its bias row is cast from, as the first host stretch left them. -/
theorem y_at : V3 m c main_v1 = V1 m c main_v1 := W3_of m c main_v1 (by decide) (by decide)
theorem wkv_at : V3 m c main_v7 = V1 m c main_v7 := W3_of m c main_v7 (by decide) (by decide)
theorem bkv_at : W2 m c (Proc.devRef .tc main_v8) = W1 m c (Proc.devRef .tc main_v8) := W2_of_ne m c main_v8 (by decide)

/-- Region 3's weight as the first host stretch left it, and the output bias argument as launched when the third
    host stretch reads it. -/
theorem wo_at : V6 m c main_v10 = V1 m c main_v10 := W6_of m c main_v10 (by decide) (by decide) (by decide) (by decide) (by decide)
theorem bo_at : W5 m c (Proc.devRef .tc main_arg10) = m ((c : Thread nD τ).loc main_arg10) :=
  (W5_of_ne m c main_arg10 (by decide)).trans ((W4_of m c main_arg10 (by decide) (by decide) (by decide)).trans (W1_arg m c main_arg10 (by decide)))

end Cert.KernelIdeal.Hand

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibDenseLayer.lean ====
/-
  One dense layer read at an entry, on a kernel's side and on the host's.

  A dense layer is a matrix product plus a bias. A kernel body prints it as a `tpu.matmul` into a zero accumulator
  with a one-row bias array `[1, N]` broadcast over the rows; jax on the host prints the bias as a vector `[N]`
  placed as the one row of `[1, N]` and that row repeated over the rows (two `broadcast_in_dim`s). At the extended
  reals both read, at `(p, c)`, the sum over the contracted coordinate of left `(p, k)` times right `(k, c)`, plus
  the bias at `c`. The matrix product's part is `Cert.Lib.PlainDot.sum_rows_cols` (this file imports that one; a
  host `dot_general` is that lemma after `Ideal.dotGeneral_apply`). Imports only the Idealize library besides.
-/
import proofs.«175174_j31018253812438_2_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.Lib.DenseLayer

open Idealize.ShloMosaic Idealize.ShloMosaic.ValueIdx

/-! ## A kernel's layer: matmul into zero plus a broadcast bias row -/

/-- A matmul of `[M, K]` by `[K, N]` into the zero accumulator, plus a `[1, N]` row broadcast over the `M` rows,
    read at `(p, c)`: the sum over the contracted coordinate of left `(p, k)` times right `(k, c)`, plus the row's
    entry at `c`. The contraction record enters through the six facts of a plain matrix product. -/
theorem layer_apply {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    {φ₁ φ₂ : FTy} (L : FVec Ideal ⟨2, ![M, K]⟩ φ₁) (R : FVec Ideal ⟨2, ![K, N]⟩ φ₂)
    (b : FVec Ideal ⟨2, ![1, N]⟩ .f32) (hb : (⟨2, ![1, N]⟩ : Shape).Broadcasts ⟨2, ![M, N]⟩) (p : Fin M) (c : Fin N) :
    addf (matmul D none L R (constant (F := Ideal) ⟨2, ![M, N]⟩ .f32 0x00000000#32)) (broadcastTo ⟨2, ![M, N]⟩ b hb) (ix2 p c)
      = (∑ k : Fin K, L (ix2 p k) * R (ix2 k c)) + b (ix2 (0 : Fin 1) c) := by
  rw [addf_apply, broadcastTo_1b_ab_apply]
  simp only [matmul]
  rw [Ideal.matmul_constant_zero_apply]
  exact congrArg (· + b (ix2 (0 : Fin 1) c)) (Cert.Lib.PlainDot.sum_rows_cols D hr hs hl0 hl1 hr0 hr1 L R (ix2 p c))

/-! ## The host's bias: a vector broadcast over the rows in two steps -/

/-- A vector `[N]` placed as the one row of `[1, N]` and that row repeated over `M` rows reads, at `(r, k)`, the
    vector at `k` (for `N ≠ 1`: a unit axis would be read at `0`, which is the same entry, but the library's
    lemma asks which case it is). -/
theorem bias_apply {α : Type} {M N : ℕ} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (k : Fin N) :
    broadcastInDim ⟨2, ![M, N]⟩ ![0, 1] h2 (broadcastInDim ⟨2, ![1, N]⟩ ![1] h1 b) (ix2 r k) = b (ix1 k) :=
  (broadcastInDim_apply ![0, 1] h2 _ (ix2 r k) (ix2 (⟨0, Nat.one_pos⟩ : Fin 1) k) (fun a => match a with
      | ⟨0, _⟩ => by show (0 : ℕ) = if (1 : ℕ) = 1 then 0 else r.val; rw [if_pos rfl]
      | ⟨1, _⟩ => by show k.val = if N = 1 then 0 else k.val; rw [if_neg hN])).trans
    (broadcastInDim_apply ![1] h1 b (ix2 (⟨0, Nat.one_pos⟩ : Fin 1) k) (ix1 k) (fun a => match a with
      | ⟨0, _⟩ => by show k.val = if N = 1 then 0 else k.val; rw [if_neg hN]))

end Cert.Lib.DenseLayer

end
-- ==== Proof.PayLinear.lean ====
/-
  The three linear kernels' arithmetic at an entry, at the extended reals.

  Each linear kernel multiplies a `[512, 1024]` block of rows by a weight matrix `[1024, N]` into a zero
  accumulator and adds a one-row bias `[1, N]` spread over the rows. At the extended reals a change of format is
  the identity and a shape cast to the same shape changes nothing, so entry `(p, c)` of the result is
  `(∑ e, x (p, e) * w (e, c)) + b (0, c)`: row `p` of the block against column `c` of the weights, plus the bias
  at `c`. The contraction records enter through the six coordinate facts of a plain matrix product.
-/
import proofs.«175174_j31018253812438_2_alg».proof.Proof.Gen.KernelIdeal.Skeleton
import proofs.«175174_j31018253812438_2_alg».proof.Proof.LibDenseLayer

noncomputable section

namespace Cert.PayLinear

open Idealize.ShloMosaic Idealize.ShloMosaic.ValueIdx
open Cert.KernelIdeal Cert.KernelIdeal.Gen

/-! ## The contraction `[512, 1024] × [1024, 1024]`: coordinates of the operand indices -/

theorem sq_l0 (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl

theorem sq_l1 (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q

theorem sq_r0 (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q

theorem sq_r1 (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-! ## The contraction `[512, 1024] × [1024, 2048]` -/

theorem wide_l0 (j : S512x2048.Idx) (q : dot_S512x1024_S1024x2048_S512x2048_1_0_0_1_n_n.contr.Idx) :
    (dot_S512x1024_S1024x2048_S512x2048_1_0_0_1_n_n.lhsIdx j q 0).val = (j 0).val := by
  unfold DotDims.lhsIdx
  rw [dif_neg (show ¬(0 : Fin S512x1024.rank) ∈ dot_S512x1024_S1024x2048_S512x2048_1_0_0_1_n_n.lhsBatch by decide),
    dif_pos (show (0 : Fin S512x1024.rank) ∈ dot_S512x1024_S1024x2048_S512x2048_1_0_0_1_n_n.lhsNonContracting by decide)]
  rfl

theorem wide_l1 (j : S512x2048.Idx) (q : dot_S512x1024_S1024x2048_S512x2048_1_0_0_1_n_n.contr.Idx) :
    (dot_S512x1024_S1024x2048_S512x2048_1_0_0_1_n_n.lhsIdx j q 1).val = (q ⟨0, by decide⟩).val :=
  dot_S512x1024_S1024x2048_S512x2048_1_0_0_1_n_n.lhsIdx_val_of_single rfl j q

theorem wide_r0 (j : S512x2048.Idx) (q : dot_S512x1024_S1024x2048_S512x2048_1_0_0_1_n_n.contr.Idx) :
    (dot_S512x1024_S1024x2048_S512x2048_1_0_0_1_n_n.rhsIdx j q 0).val = (q ⟨0, by decide⟩).val :=
  dot_S512x1024_S1024x2048_S512x2048_1_0_0_1_n_n.rhsIdx_val_of_single rfl j q

theorem wide_r1 (j : S512x2048.Idx) (q : dot_S512x1024_S1024x2048_S512x2048_1_0_0_1_n_n.contr.Idx) :
    (dot_S512x1024_S1024x2048_S512x2048_1_0_0_1_n_n.rhsIdx j q 1).val = (j 1).val := by
  unfold DotDims.rhsIdx
  rw [dif_neg (show ¬(1 : Fin S1024x2048.rank) ∈ dot_S512x1024_S1024x2048_S512x2048_1_0_0_1_n_n.rhsBatch by decide),
    dif_pos (show (1 : Fin S1024x2048.rank) ∈ dot_S512x1024_S1024x2048_S512x2048_1_0_0_1_n_n.rhsNonContracting by decide)]
  rfl

/-! ## The three kernels at an entry -/

/-- The query projection's block at `(p, c)`: row `p` against column `c` of the weights, plus the bias at `c`. -/
theorem pay0 (x : Vec Ideal S512x1024 .f32) (w : Vec Ideal S1024x1024 .bf16) (b : Vec Ideal S1x1024 .f32)
    (p : Fin 512) (c : Fin 1024) :
    k0_pay1 (F := Ideal) x w b (ix2 p c) = (∑ e : Fin 1024, x (ix2 p e) * w (ix2 e c)) + b (ix2 (0 : Fin 1) c) := by
  unfold k0_pay1
  rw [truncf_apply, shapeCast_self, shapeCast_self, shapeCast_self]
  exact Cert.Lib.DenseLayer.layer_apply dot_S512x1024_S1024x1024_S512x1024_1_0_0_1_n_n rfl rfl sq_l0 sq_l1 sq_r0 sq_r1
    (truncf .bf16 x bitsLt_bf16_f32) w b broadcasts_S1x1024_S512x1024 p c

/-- The key-and-value projection's block at `(p, c)`, `c` over the 2048 stacked output features. -/
theorem pay1 (x : Vec Ideal S512x1024 .f32) (w : Vec Ideal S1024x2048 .bf16) (b : Vec Ideal S1x2048 .f32)
    (p : Fin 512) (c : Fin 2048) :
    k1_pay1 (F := Ideal) x w b (ix2 p c) = (∑ e : Fin 1024, x (ix2 p e) * w (ix2 e c)) + b (ix2 (0 : Fin 1) c) := by
  unfold k1_pay1
  rw [truncf_apply, shapeCast_self, shapeCast_self, shapeCast_self]
  exact Cert.Lib.DenseLayer.layer_apply dot_S512x1024_S1024x2048_S512x2048_1_0_0_1_n_n rfl rfl wide_l0 wide_l1 wide_r0 wide_r1
    (truncf .bf16 x bitsLt_bf16_f32) w b broadcasts_S1x2048_S512x2048 p c

/-- The output projection's block at `(p, c)`. -/
theorem pay3 (x : Vec Ideal S512x1024 .bf16) (w : Vec Ideal S1024x1024 .bf16) (b : Vec Ideal S1x1024 .f32)
    (p : Fin 512) (c : Fin 1024) :
    k3_pay1 (F := Ideal) x w b (ix2 p c) = (∑ e : Fin 1024, x (ix2 p e) * w (ix2 e c)) + b (ix2 (0 : Fin 1) c) := by
  unfold k3_pay1
  rw [shapeCast_self, shapeCast_self, shapeCast_self]
  exact Cert.Lib.DenseLayer.layer_apply dot_S512x1024_S1024x1024_S512x1024_1_0_0_1_n_n rfl rfl sq_l0 sq_l1 sq_r0 sq_r1
    x w b broadcasts_S1x1024_S512x1024 p c

end Cert.PayLinear

end
-- ==== Proof.HandKI.Final0.lean ====
/-
  The first projection's result array after all write-backs, as one function of the arrays the region starts from.

  The pipeline cuts the 4096 rows into 8 blocks of 512; at grid point `t` the body reads rows `512 t .. 512 t + 511`
  of the left operand, the whole weight matrix and the whole bias row, and writes back rows `512 t .. 512 t + 511`
  of the result. Entry `(p, o)` of that block is row `p` of the block against column `o` of the weights plus the bias
  at `o`, so it is entry `(512 t + p, o)` of ONE function of the three arrays as the region finds them,
  `G r o = (∑ e, A (r, e) * W (e, o)) + b (0, o)`. The 8 blocks cover the rows (row `r` is in block `r / 512`), so after
  all write-backs the result array is `G`.
-/
import proofs.«175174_j31018253812438_2_alg».proof.Proof.HandKI.R0
import proofs.«175174_j31018253812438_2_alg».proof.Proof.PayLinear
import Idealize.ShloMosaic.Lib.Pipeline.Value

noncomputable section

namespace Cert.KernelIdeal.Final

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The product plus the bias row, as one function of the three arrays, index by index. -/
def G0 (a0 : S4096x1024.Idx → EReal) (a1 : S1024x1024.Idx → EReal) (a2 : S1x1024.Idx → EReal) : S4096x1024.Idx → EReal := fun i =>
  (∑ e : Fin 1024, a0 (ix2 (i 0) e) * a1 (ix2 e (i 1))) + a2 (ix2 (0 : Fin 1) (i 1))

theorem hz0 : (![0, 0] : Fin 2 → Nat) = fun _ => 0 := funext fun a => by fin_cases a <;> rfl

/-- One entry of one block. The body's operands `x0`, `x1`, `x2` are the arrays `a0`, `a1`, `a2` read through index
    maps `k0`, `k1`, `k2`: `k0` shifts the rows by `512 T`, the other two move nothing. Then entry `j` of the body's
    result is `G` at any array index `i` that is `j` shifted by `512 T` rows. -/
theorem point0 (x0 : Vec Ideal S512x1024 .f32) (x1 : Vec Ideal S1024x1024 .bf16) (x2 : Vec Ideal S1x1024 .f32)
    (a0 : S4096x1024.Idx → EReal) (a1 : S1024x1024.Idx → EReal) (a2 : S1x1024.Idx → EReal)
    (k0 : S512x1024.Idx → S4096x1024.Idx) (k1 : S1024x1024.Idx → S1024x1024.Idx) (k2 : S1x1024.Idx → S1x1024.Idx)
    (hx0 : ∀ y, x0 y = a0 (k0 y)) (hx1 : ∀ y, x1 y = a1 (k1 y)) (hx2 : ∀ y, x2 y = a2 (k2 y)) (T : Nat)
    (hk0r : ∀ y, (k0 y 0).val = T * 512 + (y 0).val) (hk0c : ∀ y, (k0 y 1).val = (y 1).val)
    (hk1r : ∀ y, (k1 y 0).val = (y 0).val) (hk1c : ∀ y, (k1 y 1).val = (y 1).val)
    (hk2r : ∀ y, (k2 y 0).val = (y 0).val) (hk2c : ∀ y, (k2 y 1).val = (y 1).val)
    (j : S512x1024.Idx) (i : S4096x1024.Idx) (hi0 : (i 0).val = T * 512 + (j 0).val) (hi1 : (i 1).val = (j 1).val) :
    k0_pay1 (F := Ideal) x0 x1 x2 j = G0 a0 a1 a2 i := by
  obtain ⟨p, o, rfl⟩ : ∃ (p : Fin 512) (o : Fin 1024), j = ix2 p o := ⟨j 0, j 1, eq_ix2 j⟩
  rw [Cert.PayLinear.pay0]
  unfold G0
  have e0 : ∀ e : Fin 1024, x0 (ix2 p e) = a0 (ix2 (i 0) e) := fun e =>
    (hx0 _).trans (congrArg a0 (funext fun a => Fin.ext (by
      match a with
      | ⟨0, _⟩ => exact (hk0r _).trans hi0.symm
      | ⟨1, _⟩ => exact hk0c _)))
  have e1 : ∀ e : Fin 1024, x1 (ix2 e o) = a1 (ix2 e (i 1)) := fun e =>
    (hx1 _).trans (congrArg a1 (funext fun a => Fin.ext (by
      match a with
      | ⟨0, _⟩ => exact hk1r _
      | ⟨1, _⟩ => exact (hk1c _).trans hi1.symm)))
  have e2 : x2 (ix2 (0 : Fin 1) o) = a2 (ix2 (0 : Fin 1) (i 1)) :=
    (hx2 _).trans (congrArg a2 (funext fun a => Fin.ext (by
      match a with
      | ⟨0, _⟩ => exact hk2r _
      | ⟨1, _⟩ => exact (hk2c _).trans hi1.symm)))
  exact congrArg₂ (· + ·) (Finset.sum_congr rfl fun e _ => congrArg₂ (· * ·) (e0 e) (e1 e)) e2

/-- The printed index maps, decided over the 8 grid points: the left operand's and the result's block index is
    `(t, 0)`, the weights' and the bias row's is `(0, 0)`. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `G` of the arrays as the region finds them. -/
theorem flushed0_eq (c : Dev nD) (t : Fin cfg0.N) :
    (dat0 (F := Ideal) V c).flushed 3 t
      = ((cfg0.win 3).blk t).view.read (Elt Ideal) (G0 (V c main_v0) (V c main_v3) (V c main_v11)) := by
  show (cfg0.win 3).cut (grid0.coords t) ((dat0 V c).after 3 t) = _
  rw [after0_3]
  unfold out0_3
  rw [View.canon_unit_zero hz0]
  simp only [View.ld_unit_zero (S := S512x1024) hz0, View.ld_unit_zero (S := S1024x1024) hz0, View.ld_unit_zero (S := S1x1024) hz0]
  obtain ⟨e00, e01, e10, e11, e20, e21, e30, e31⟩ := idx_facts0 t
  funext j
  exact point0 (iblk0 V c 0 t) (iblk0 V c 1 t) (iblk0 V c 2 t) (V c main_v0) (V c main_v3) (V c main_v11)
    (fun y => ((cfg0.win 0).blk t).view.emb y) (fun y => ((cfg0.win 1).blk t).view.emb y) (fun y => ((cfg0.win 2).blk t).view.emb y)
    (fun _ => rfl) (fun _ => rfl) (fun _ => rfl) t.val
    (fun y => by show win0_0.index t (0 : Fin 2) * 512 + 1 * (y 0).val = _; omega)
    (fun y => by show win0_0.index t (1 : Fin 2) * 1024 + 1 * (y 1).val = _; omega)
    (fun y => by show win0_1.index t (0 : Fin 2) * 1024 + 1 * (y 0).val = _; omega)
    (fun y => by show win0_1.index t (1 : Fin 2) * 1024 + 1 * (y 1).val = _; omega)
    (fun y => by show win0_2.index t (0 : Fin 2) * 1 + 1 * (y 0).val = _; omega)
    (fun y => by show win0_2.index t (1 : Fin 2) * 1024 + 1 * (y 1).val = _; omega)
    j (((cfg0.win 3).blk t).view.emb j)
    (by show win0_3.index t (0 : Fin 2) * 512 + 1 * (j 0).val = _; omega)
    (by show win0_3.index t (1 : Fin 2) * 1024 + 1 * (j 1).val = _; omega)

/-- An index of the result array is in point `t`'s block iff each coordinate is in the block's range on its axis. -/
theorem mem_blk0 (t : Fin cfg0.N) (i : S4096x1024.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v12).slice (win0_3.rect t)).set ↔ _
  rw [View.set_slice_whole, Rect.mem_set_unit]
  exact Iff.rfl

/-- Every index of the result array is in some point's block: row `r` is in block `r / 512`. -/
theorem cover0 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  have hN : grid0.N = 8 := N_0
  have ht : (i 0).val / 512 < cfg0.N := by show (i 0).val / 512 < grid0.N; omega
  obtain ⟨_, _, _, _, _, _, e30, e31⟩ := idx_facts0 ⟨(i 0).val / 512, ht⟩
  have e30' : win0_3.index ⟨(i 0).val / 512, ht⟩ (0 : Fin 2) = (i 0).val / 512 := e30
  refine ⟨⟨(i 0).val / 512, ht⟩, flush0_3 _, ?_⟩
  rw [mem_blk0]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    omega
  | ⟨1, _⟩ =>
    show win0_3.index ⟨(i 0).val / 512, ht⟩ (1 : Fin 2) * 1024 ≤ (i 1).val
      ∧ (i 1).val < win0_3.index ⟨(i 0).val / 512, ht⟩ (1 : Fin 2) * 1024 + 1024
    omega

/-- The result array after all write-backs is `G` of the arrays as the region finds them. -/
theorem final0_fun (c : Dev nD) :
    (dat0 (F := Ideal) V c).arrAt 3 cfg0.N = G0 (V c main_v0) (V c main_v3) (V c main_v11) :=
  (dat0 (F := Ideal) V c).arrAt_eq_of_cover 3 (G0 (V c main_v0) (V c main_v3) (V c main_v11))
    (fun t _ => flushed0_eq V c t) cover0

/-- `G` at explicit coordinates: row `r` of the left operand against column `o` of the weights, plus the bias at `o`. -/
theorem G0_apply (a0 : S4096x1024.Idx → EReal) (a1 : S1024x1024.Idx → EReal) (a2 : S1x1024.Idx → EReal)
    (r : Fin 4096) (o : Fin 1024) :
    G0 a0 a1 a2 (ix2 r o) = (∑ e : Fin 1024, a0 (ix2 r e) * a1 (ix2 e o)) + a2 (ix2 (0 : Fin 1) o) := rfl

/-- The result array after all write-backs, at explicit coordinates. -/
theorem final0 (c : Dev nD) (r : Fin 4096) (o : Fin 1024) :
    (dat0 (F := Ideal) V c).arrAt 3 cfg0.N (ix2 r o) = G0 (V c main_v0) (V c main_v3) (V c main_v11) (ix2 r o) :=
  congrFun (final0_fun V c) (ix2 r o)

end Cert.KernelIdeal.Final

end
-- ==== Proof.HandKI.Final1.lean ====
/-
  The key-and-value projection's result array after all write-backs, as one function of the arrays the region starts from.

  The pipeline cuts the 4096 rows into 8 blocks of 512; at grid point `t` the body reads rows `512 t .. 512 t + 511`
  of the left operand, the whole weight matrix and the whole bias row, and writes back rows `512 t .. 512 t + 511`
  of the result. Entry `(p, o)` of that block is row `p` of the block against column `o` of the weights plus the bias
  at `o`, so it is entry `(512 t + p, o)` of ONE function of the three arrays as the region finds them,
  `G r o = (∑ e, A (r, e) * W (e, o)) + b (0, o)`. The 8 blocks cover the rows (row `r` is in block `r / 512`), so after
  all write-backs the result array is `G`.
-/
import proofs.«175174_j31018253812438_2_alg».proof.Proof.HandKI.R1
import proofs.«175174_j31018253812438_2_alg».proof.Proof.PayLinear
import Idealize.ShloMosaic.Lib.Pipeline.Value

noncomputable section

namespace Cert.KernelIdeal.Final

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The product plus the bias row, as one function of the three arrays, index by index. -/
def G1 (a0 : S4096x1024.Idx → EReal) (a1 : S1024x2048.Idx → EReal) (a2 : S1x2048.Idx → EReal) : S4096x2048.Idx → EReal := fun i =>
  (∑ e : Fin 1024, a0 (ix2 (i 0) e) * a1 (ix2 e (i 1))) + a2 (ix2 (0 : Fin 1) (i 1))

theorem hz1 : (![0, 0] : Fin 2 → Nat) = fun _ => 0 := funext fun a => by fin_cases a <;> rfl

/-- One entry of one block. The body's operands `x0`, `x1`, `x2` are the arrays `a0`, `a1`, `a2` read through index
    maps `k0`, `k1`, `k2`: `k0` shifts the rows by `512 T`, the other two move nothing. Then entry `j` of the body's
    result is `G` at any array index `i` that is `j` shifted by `512 T` rows. -/
theorem point1 (x0 : Vec Ideal S512x1024 .f32) (x1 : Vec Ideal S1024x2048 .bf16) (x2 : Vec Ideal S1x2048 .f32)
    (a0 : S4096x1024.Idx → EReal) (a1 : S1024x2048.Idx → EReal) (a2 : S1x2048.Idx → EReal)
    (k0 : S512x1024.Idx → S4096x1024.Idx) (k1 : S1024x2048.Idx → S1024x2048.Idx) (k2 : S1x2048.Idx → S1x2048.Idx)
    (hx0 : ∀ y, x0 y = a0 (k0 y)) (hx1 : ∀ y, x1 y = a1 (k1 y)) (hx2 : ∀ y, x2 y = a2 (k2 y)) (T : Nat)
    (hk0r : ∀ y, (k0 y 0).val = T * 512 + (y 0).val) (hk0c : ∀ y, (k0 y 1).val = (y 1).val)
    (hk1r : ∀ y, (k1 y 0).val = (y 0).val) (hk1c : ∀ y, (k1 y 1).val = (y 1).val)
    (hk2r : ∀ y, (k2 y 0).val = (y 0).val) (hk2c : ∀ y, (k2 y 1).val = (y 1).val)
    (j : S512x2048.Idx) (i : S4096x2048.Idx) (hi0 : (i 0).val = T * 512 + (j 0).val) (hi1 : (i 1).val = (j 1).val) :
    k1_pay1 (F := Ideal) x0 x1 x2 j = G1 a0 a1 a2 i := by
  obtain ⟨p, o, rfl⟩ : ∃ (p : Fin 512) (o : Fin 2048), j = ix2 p o := ⟨j 0, j 1, eq_ix2 j⟩
  rw [Cert.PayLinear.pay1]
  unfold G1
  have e0 : ∀ e : Fin 1024, x0 (ix2 p e) = a0 (ix2 (i 0) e) := fun e =>
    (hx0 _).trans (congrArg a0 (funext fun a => Fin.ext (by
      match a with
      | ⟨0, _⟩ => exact (hk0r _).trans hi0.symm
      | ⟨1, _⟩ => exact hk0c _)))
  have e1 : ∀ e : Fin 1024, x1 (ix2 e o) = a1 (ix2 e (i 1)) := fun e =>
    (hx1 _).trans (congrArg a1 (funext fun a => Fin.ext (by
      match a with
      | ⟨0, _⟩ => exact hk1r _
      | ⟨1, _⟩ => exact (hk1c _).trans hi1.symm)))
  have e2 : x2 (ix2 (0 : Fin 1) o) = a2 (ix2 (0 : Fin 1) (i 1)) :=
    (hx2 _).trans (congrArg a2 (funext fun a => Fin.ext (by
      match a with
      | ⟨0, _⟩ => exact hk2r _
      | ⟨1, _⟩ => exact (hk2c _).trans hi1.symm)))
  exact congrArg₂ (· + ·) (Finset.sum_congr rfl fun e _ => congrArg₂ (· * ·) (e0 e) (e1 e)) e2

/-- The printed index maps, decided over the 8 grid points: the left operand's and the result's block index is
    `(t, 0)`, the weights' and the bias row's is `(0, 0)`. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of `G` of the arrays as the region finds them. -/
theorem flushed1_eq (c : Dev nD) (t : Fin cfg1.N) :
    (dat1 (F := Ideal) V c).flushed 3 t
      = ((cfg1.win 3).blk t).view.read (Elt Ideal) (G1 (V c main_v1) (V c main_v7) (V c main_v13)) := by
  show (cfg1.win 3).cut (grid1.coords t) ((dat1 V c).after 3 t) = _
  rw [after1_3]
  unfold out1_3
  rw [View.canon_unit_zero hz1]
  simp only [View.ld_unit_zero (S := S512x1024) hz1, View.ld_unit_zero (S := S1024x2048) hz1, View.ld_unit_zero (S := S1x2048) hz1]
  obtain ⟨e00, e01, e10, e11, e20, e21, e30, e31⟩ := idx_facts1 t
  funext j
  exact point1 (iblk1 V c 0 t) (iblk1 V c 1 t) (iblk1 V c 2 t) (V c main_v1) (V c main_v7) (V c main_v13)
    (fun y => ((cfg1.win 0).blk t).view.emb y) (fun y => ((cfg1.win 1).blk t).view.emb y) (fun y => ((cfg1.win 2).blk t).view.emb y)
    (fun _ => rfl) (fun _ => rfl) (fun _ => rfl) t.val
    (fun y => by show win1_0.index t (0 : Fin 2) * 512 + 1 * (y 0).val = _; omega)
    (fun y => by show win1_0.index t (1 : Fin 2) * 1024 + 1 * (y 1).val = _; omega)
    (fun y => by show win1_1.index t (0 : Fin 2) * 1024 + 1 * (y 0).val = _; omega)
    (fun y => by show win1_1.index t (1 : Fin 2) * 2048 + 1 * (y 1).val = _; omega)
    (fun y => by show win1_2.index t (0 : Fin 2) * 1 + 1 * (y 0).val = _; omega)
    (fun y => by show win1_2.index t (1 : Fin 2) * 2048 + 1 * (y 1).val = _; omega)
    j (((cfg1.win 3).blk t).view.emb j)
    (by show win1_3.index t (0 : Fin 2) * 512 + 1 * (j 0).val = _; omega)
    (by show win1_3.index t (1 : Fin 2) * 2048 + 1 * (j 1).val = _; omega)

/-- An index of the result array is in point `t`'s block iff each coordinate is in the block's range on its axis. -/
theorem mem_blk1 (t : Fin cfg1.N) (i : S4096x2048.Idx) :
    i ∈ ((cfg1.win 3).blk t).view.set ↔ ∀ a : Fin 2, win1_3.index t a * S512x2048.size a ≤ (i a).val
      ∧ (i a).val < win1_3.index t a * S512x2048.size a + S512x2048.size a := by
  show i ∈ ((View.whole main_v14).slice (win1_3.rect t)).set ↔ _
  rw [View.set_slice_whole, Rect.mem_set_unit]
  exact Iff.rfl

/-- Every index of the result array is in some point's block: row `r` is in block `r / 512`. -/
theorem cover1 (i : S4096x2048.Idx) :
    ∃ t : Fin cfg1.N, (cfg1.win 3).flush t = true ∧ i ∈ ((cfg1.win 3).blk t).view.set := by
  have hi0 : (i 0).val < 4096 := (i 0).isLt
  have hi1 : (i 1).val < 2048 := (i 1).isLt
  have hN : grid1.N = 8 := N_1
  have ht : (i 0).val / 512 < cfg1.N := by show (i 0).val / 512 < grid1.N; omega
  obtain ⟨_, _, _, _, _, _, e30, e31⟩ := idx_facts1 ⟨(i 0).val / 512, ht⟩
  have e30' : win1_3.index ⟨(i 0).val / 512, ht⟩ (0 : Fin 2) = (i 0).val / 512 := e30
  refine ⟨⟨(i 0).val / 512, ht⟩, flush1_3 _, ?_⟩
  rw [mem_blk1]
  intro a
  match a with
  | ⟨0, _⟩ =>
    show win1_3.index ⟨(i 0).val / 512, ht⟩ (0 : Fin 2) * 512 ≤ (i 0).val
      ∧ (i 0).val < win1_3.index ⟨(i 0).val / 512, ht⟩ (0 : Fin 2) * 512 + 512
    omega
  | ⟨1, _⟩ =>
    show win1_3.index ⟨(i 0).val / 512, ht⟩ (1 : Fin 2) * 2048 ≤ (i 1).val
      ∧ (i 1).val < win1_3.index ⟨(i 0).val / 512, ht⟩ (1 : Fin 2) * 2048 + 2048
    omega

/-- The result array after all write-backs is `G` of the arrays as the region finds them. -/
theorem final1_fun (c : Dev nD) :
    (dat1 (F := Ideal) V c).arrAt 3 cfg1.N = G1 (V c main_v1) (V c main_v7) (V c main_v13) :=
  (dat1 (F := Ideal) V c).arrAt_eq_of_cover 3 (G1 (V c main_v1) (V c main_v7) (V c main_v13))
    (fun t _ => flushed1_eq V c t) cover1

/-- `G` at explicit coordinates: row `r` of the left operand against column `o` of the weights, plus the bias at `o`. -/
theorem G1_apply (a0 : S4096x1024.Idx → EReal) (a1 : S1024x2048.Idx → EReal) (a2 : S1x2048.Idx → EReal)
    (r : Fin 4096) (o : Fin 2048) :
    G1 a0 a1 a2 (ix2 r o) = (∑ e : Fin 1024, a0 (ix2 r e) * a1 (ix2 e o)) + a2 (ix2 (0 : Fin 1) o) := rfl

/-- The result array after all write-backs, at explicit coordinates. -/
theorem final1 (c : Dev nD) (r : Fin 4096) (o : Fin 2048) :
    (dat1 (F := Ideal) V c).arrAt 3 cfg1.N (ix2 r o) = G1 (V c main_v1) (V c main_v7) (V c main_v13) (ix2 r o) :=
  congrFun (final1_fun V c) (ix2 r o)

end Cert.KernelIdeal.Final

end
-- ==== Proof.LibRowSoftmax.lean ====
/-
  Row-wise softmax read at an index, at the ideal (extended-real) values.

  A kernel that normalises the rows of an `[a, b]` matrix writes
  `exp (s - max_row s) / sum_row (exp (s - max_row s))`, the two row statistics taken by a reduction over
  axis 1, turned into a column `[a, 1]` and spread back over the `b` lanes. Entry `(r, j)` of the result
  depends on row `r` of `s` only: it is `softmaxOf (fun j' => s (r, j')) j`, where
  `softmaxOf f j = exp (f j - M) / ∑ j', exp (f j' - M)` and `M` is the maximum of `f` folded from `-∞`.
  No algebra on the extended reals is used: each printed operation is read at the index.
-/
import Idealize.ShloMosaic.PureOps.Ideal.Laws
import Idealize.ShloMosaic.Lib.ValueIdx
import Idealize.ShloMosaic.Lib.ValueLayout

noncomputable section

namespace Cert.Lib.RowSoftmax

open Idealize.ShloMosaic Idealize.ShloMosaic.ValueIdx

/-! ## The two keep-dims layout steps -/

section Layout
variable {α : Type}

/-- A length-`a` vector cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(i, j)`, the column at `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- The two steps together: a per-row statistic spread back over the lanes reads, at `(i, j)`, the statistic of row `i`. -/
theorem keepdims_apply {a b : ℕ} (x : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ x hc) hb (ix2 i j) = x (ix1 i) :=
  (broadcastTo_a1_ab_apply _ hb i j).trans (shapeCast_a_a1_apply x hc i 0)

end Layout

/-! ## The two row reductions -/

/-- The index over row `r` with lane `j` inserted is `(r, j)`. -/
theorem lift_row {a b : ℕ} (h : (⟨2, ![a, b]⟩ : Shape).Reduces [1] ⟨1, ![a]⟩) (r : Fin a) (j : Fin b) :
    h.lift (ix1 r) j = ix2 r j := by
  funext c; apply Fin.ext
  match c with
  | ⟨0, _⟩ => rfl
  | ⟨1, _⟩ => rfl

/-- A maximum over the lanes, at row `r`: the fold of `max` from the accumulator's value over that row's entries. -/
theorem rowMax_apply {a b : ℕ} (s : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (r : Fin a) :
    multiReduction .maximumf [1] ⟨1, ![a]⟩ s acc h hφ hacc (ix1 r)
      = (Finset.univ : Finset (Fin b)).fold max (Ideal.ofBits .f32 acc) (fun j => s (ix2 r j)) := by
  refine (Ideal.multiReduction_maximumf_single s acc h hφ hacc (ix1 r)).trans ?_
  show (Finset.univ : Finset (Fin b)).fold max (Ideal.ofBits .f32 acc) (fun j => s (h.lift (ix1 r) j)) = _
  exact congrArg (fun f => (Finset.univ : Finset (Fin b)).fold max (Ideal.ofBits .f32 acc) f)
    (funext fun j => congrArg s (lift_row h r j))

/-- A sum over the lanes, at row `r`: the sum of that row's entries. -/
theorem rowSum_apply {a b : ℕ} (p : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ p acc h hφ hacc (ix1 r) = ∑ j : Fin b, p (ix2 r j) := by
  refine (Ideal.multiReduction_add_single p acc h hφ hacc (ix1 r)).trans ?_
  show ∑ j : Fin b, p (h.lift (ix1 r) j) = _
  exact Finset.sum_congr rfl fun j _ => congrArg p (lift_row h r j)

/-! ## Softmax of one row -/

/-- `-∞`, as the bit pattern both programs start their maximum from. -/
abbrev negInf : EReal := Ideal.ofBits .f32 0xFF800000#32

/-- The maximum of a row, folded from `-∞`. -/
def maxOf {b : ℕ} (f : Fin b → EReal) : EReal := (Finset.univ : Finset (Fin b)).fold max negInf f

/-- Taking the maximum with `-∞` once more changes nothing: the fold already starts there. -/
theorem max_negInf_maxOf {b : ℕ} (f : Fin b → EReal) : max negInf (maxOf f) = maxOf f :=
  max_eq_right ((Finset.le_fold_max negInf).mpr (Or.inl le_rfl))

/-- The unnormalised weight of lane `j`: `exp (f j - max f)`. -/
def weightOf {b : ℕ} (f : Fin b → EReal) (j : Fin b) : EReal := Ideal.exp (f j - maxOf f)

/-- Softmax of a row at lane `j`: its weight over the sum of the row's weights. -/
def softmaxOf {b : ℕ} (f : Fin b → EReal) (j : Fin b) : EReal :=
  Ideal.div (weightOf f j) (∑ j' : Fin b, weightOf f j')

/-- The chain a kernel prints for a row-wise softmax of an `[a, b]` matrix `s` — row maximum, subtract, `exp`,
    row sum, divide, both statistics kept as columns and spread over the lanes — read at `(r, j)`: the softmax of
    row `r` at lane `j`. -/
theorem softmax_rows_apply {a b : ℕ} (s : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (j : Fin b) :
    divf
        (exp (subf s (broadcastTo ⟨2, ![a, b]⟩ (shapeCast ⟨2, ![a, 1]⟩
          (multiReduction .maximumf [1] ⟨1, ![a]⟩ s 0xFF800000#32 hr hφ hmax) hc) hb)))
        (broadcastTo ⟨2, ![a, b]⟩ (shapeCast ⟨2, ![a, 1]⟩
          (multiReduction .add [1] ⟨1, ![a]⟩
            (exp (subf s (broadcastTo ⟨2, ![a, b]⟩ (shapeCast ⟨2, ![a, 1]⟩
              (multiReduction .maximumf [1] ⟨1, ![a]⟩ s 0xFF800000#32 hr hφ hmax) hc) hb)))
            0x00000000#32 hr hφ hadd) hc) hb)
        (ix2 r j)
      = softmaxOf (fun j' => s (ix2 r j')) j := by
  -- the weights, entry by entry
  have hw : ∀ j' : Fin b,
      exp (subf s (broadcastTo ⟨2, ![a, b]⟩ (shapeCast ⟨2, ![a, 1]⟩
          (multiReduction .maximumf [1] ⟨1, ![a]⟩ s 0xFF800000#32 hr hφ hmax) hc) hb)) (ix2 r j')
        = weightOf (fun j'' => s (ix2 r j'')) j' := by
    intro j'
    show Ideal.exp (s (ix2 r j') - broadcastTo ⟨2, ![a, b]⟩ (shapeCast ⟨2, ![a, 1]⟩
          (multiReduction .maximumf [1] ⟨1, ![a]⟩ s 0xFF800000#32 hr hφ hmax) hc) hb (ix2 r j')) = _
    rw [keepdims_apply _ hc hb r j', rowMax_apply s _ hr hφ hmax r]
    rfl
  show Ideal.div _ _ = _
  rw [hw j, keepdims_apply _ hc hb r j, rowSum_apply _ _ hr hφ hadd r]
  unfold softmaxOf
  exact congrArg (Ideal.div _) (Finset.sum_congr rfl fun j' _ => hw j')

end Cert.Lib.RowSoftmax

end
-- ==== Proof.Spec.lean ====
/-
  The specification both programs are compared with: multi-head attention between two linear projections,
  over the extended reals, as ONE function of the eleven argument arrays, index by index.

  For a token row `X : Fin 1024 → EReal`, a weight `W o e` (output feature `o`, input feature `e`) and a bias `b`,
  `lin X W b o = (∑ e, X e * W o e) + b o` is `X Wᵀ + b`.
  The 1024 features are 16 heads of 64 lanes: feature `c` belongs to head `c / 64`, and `headCol h d = 64 h + d`.
  For one batch entry, with projected rows `q i`, `k j`, `v j` (`i, j : Fin 2048`):
  `score q k h i j = (∑ d, q i (headCol h d) * k j (headCol h d)) * (1/8)` (the scale is the word of `0.125`),
  the attention weights of query `i` in head `h` are the softmax over `j` of `score q k h i`
  (maximum folded from `-∞`, subtract, `exp`, divide by the sum), and
  `attn q k v i c = ∑ j, softmax (score q k (c / 64) i) j * v j c`.
  `out` projects `x` to queries and `y` to keys and values, attends, and projects the result with `Wo`, `bo`.
  The mask argument does not enter.
-/
import proofs.«175174_j31018253812438_2_alg».proof.Proof.LibRowSoftmax
import Idealize.ShloMosaic.PureOps.Ideal
import Idealize.ShloMosaic.Lib.ValueIdx

noncomputable section

namespace Cert.Spec

open Idealize.ShloMosaic Idealize.ShloMosaic.ValueIdx
open Cert.Lib.RowSoftmax (softmaxOf)

/-- `X Wᵀ + b` at output feature `o`. -/
def lin (X : Fin 1024 → EReal) (W : Fin 1024 → Fin 1024 → EReal) (b : Fin 1024 → EReal) (o : Fin 1024) : EReal :=
  (∑ e : Fin 1024, X e * W o e) + b o

/-- Lane `d` of head `h` among the 1024 features. -/
def headCol (h : Fin 16) (d : Fin 64) : Fin 1024 := ⟨h.val * 64 + d.val, by have := h.isLt; have := d.isLt; omega⟩

/-- The head a feature belongs to. -/
def headOf (c : Fin 1024) : Fin 16 := ⟨c.val / 64, by have := c.isLt; omega⟩

/-- The attention scale, the word of `0.125`. -/
abbrev scale : EReal := Ideal.ofBits .f32 0x3E000000#32

/-- The scaled score of query row `i` against key row `j` in head `h`. -/
def score (q k : Fin 2048 → Fin 1024 → EReal) (h : Fin 16) (i j : Fin 2048) : EReal :=
  (∑ d : Fin 64, q i (headCol h d) * k j (headCol h d)) * scale

/-- Attention output of query row `i` at feature `c`: the softmax-weighted sum of the value rows' feature `c`. -/
def attn (q k v : Fin 2048 → Fin 1024 → EReal) (i : Fin 2048) (c : Fin 1024) : EReal :=
  ∑ j : Fin 2048, softmaxOf (fun j' => score q k (headOf c) i j') j * v j c

/-- The whole computation at batch `b`, token `s`, output feature `o`. -/
def out (x y : Fin 2 → Fin 2048 → Fin 1024 → EReal)
    (Wq : Fin 1024 → Fin 1024 → EReal) (bq : Fin 1024 → EReal) (Wk : Fin 1024 → Fin 1024 → EReal) (bk : Fin 1024 → EReal)
    (Wv : Fin 1024 → Fin 1024 → EReal) (bv : Fin 1024 → EReal) (Wo : Fin 1024 → Fin 1024 → EReal) (bo : Fin 1024 → EReal)
    (b : Fin 2) (s : Fin 2048) (o : Fin 1024) : EReal :=
  lin (attn (fun i => lin (x b i) Wq bq) (fun j => lin (y b j) Wk bk) (fun j => lin (y b j) Wv bv) s) Wo bo o

/-- The same over the argument ARRAYS (literal shapes), as the result array. -/
def outArr (x y : (⟨3, ![2, 2048, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal) :
    (⟨3, ![2, 2048, 1024]⟩ : Shape).Idx → EReal := fun i =>
  out (fun b s e => x (ix3 b s e)) (fun b s e => y (ix3 b s e))
    (fun o e => Wq (ix2 o e)) (fun o => bq (ix1 o)) (fun o e => Wk (ix2 o e)) (fun o => bk (ix1 o))
    (fun o e => Wv (ix2 o e)) (fun o => bv (ix1 o)) (fun o e => Wo (ix2 o e)) (fun o => bo (ix1 o))
    (i 0) (i 1) (i 2)

theorem outArr_apply (x y Wq bq Wk bk Wv bv Wo bo) (b : Fin 2) (s : Fin 2048) (o : Fin 1024) :
    outArr x y Wq bq Wk bk Wv bv Wo bo (ix3 b s o)
      = out (fun b s e => x (ix3 b s e)) (fun b s e => y (ix3 b s e))
          (fun o e => Wq (ix2 o e)) (fun o => bq (ix1 o)) (fun o e => Wk (ix2 o e)) (fun o => bk (ix1 o))
          (fun o e => Wv (ix2 o e)) (fun o => bv (ix1 o)) (fun o e => Wo (ix2 o e)) (fun o => bo (ix1 o)) b s o := rfl

end Cert.Spec

end
-- ==== Proof.LibDotRowsRows.lean ====
/-
  Cert.Lib.DotRowsRows: a matrix product with the right operand in the [out, in] layout (y = x @ W.T), as a plain sum.

  For a contraction record over [M, K] x [N, K] -> [M, N] with ONE contracted axis, the second axis of each operand,
  the sum over the record's contraction indices of left (lhsIdx j q) * right (rhsIdx j q) at the output index
  j = (p, c) is the sum over k : Fin K of left (p, k) * right (c, k): row p of the left operand against row c of the
  right one. The record enters only through six facts — its contraction shape has rank one and extent K, and the four
  coordinates of the two operand indices — so one lemma serves a kernel's tpu.matmul with dimension numbers
  [1], [1], [0], [0] and a host dot_general contracting [1] x [1]. The values may be of any type with a product and a
  commutative sum; no law of arithmetic beyond re-indexing the sum is used.
-/
import Idealize.ShloMosaic.Lib.ValueIdx

namespace Cert.Lib.DotRowsRows

open Idealize.ShloMosaic Idealize.ShloMosaic.ValueIdx

/-- Row `p` of the left operand against row `c` of the right operand: the contraction over the record's index type
    re-indexed by the one coordinate of that index. -/
theorem sum_rows_rows {α : Type} [AddCommMonoid α] [Mul α] {M K N : Nat}
    (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q ⟨0, Nat.zero_lt_two⟩).val = (j 0).val)
    (hl1 : ∀ (j : (⟨2, ![M, N]⟩ : Shape).Idx) (q : D.contr.Idx), (D.lhsIdx j q ⟨1, Nat.one_lt_two⟩).val = (q ⟨0, by omega⟩).val)
    (hr0 : ∀ (j : (⟨2, ![M, N]⟩ : Shape).Idx) (q : D.contr.Idx), (D.rhsIdx j q ⟨0, Nat.zero_lt_two⟩).val = (j 1).val)
    (hr1 : ∀ (j : (⟨2, ![M, N]⟩ : Shape).Idx) (q : D.contr.Idx), (D.rhsIdx j q ⟨1, Nat.one_lt_two⟩).val = (q ⟨0, by omega⟩).val)
    (L : (⟨2, ![M, K]⟩ : Shape).Idx → α) (R : (⟨2, ![N, K]⟩ : Shape).Idx → α) (p : Fin M) (c : Fin N) :
    ∑ q : D.contr.Idx, L (D.lhsIdx (ix2 p c) q) * R (D.rhsIdx (ix2 p c) q) = ∑ k : Fin K, L (ix2 p k) * R (ix2 c k) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 c k := funext fun a => Fin.ext (by
    match a with
    | ⟨0, _⟩ => exact hr0 _ _
    | ⟨1, _⟩ => exact (hr1 _ _).trans hk)
  rw [el, er]

end Cert.Lib.DotRowsRows
-- ==== Proof.PayAttn.lean ====
/-
  The attention kernel's arithmetic at an entry, at the extended reals.

  One call of the attention kernel serves a pair of heads: of the 128 lanes of its query, key and value blocks,
  lanes `0 .. 63` are one head and lanes `64 .. 127` the next. For each head it multiplies the 256 query rows
  against the 2048 key rows over that head's 64 lanes, scales by the word of `0.125`, normalises each row by a
  softmax (row maximum folded from `-∞`, subtract, `exp`, divide by the row sum), and multiplies the weights
  into that head's 64 lanes of the value rows. At the extended reals a change of format is the identity, so
  entry `(p, d)` of a head's result is
  `∑ j, softmax (fun j' => (∑ d', q (p, e d') * k (j', e d')) * (1/8)) j * v (j, e d)`,
  with `e` the head's lane embedding (`lo d = d`, `hi d = 64 + d`).
-/
import proofs.«175174_j31018253812438_2_alg».proof.Proof.Gen.KernelIdeal.Skeleton
import proofs.«175174_j31018253812438_2_alg».proof.Proof.Spec
import proofs.«175174_j31018253812438_2_alg».proof.Proof.LibRowSoftmax
import proofs.«175174_j31018253812438_2_alg».proof.Proof.LibPlainDot
import proofs.«175174_j31018253812438_2_alg».proof.Proof.LibDotRowsRows
import Idealize.ShloMosaic.Lib.ValueLayout
import Idealize.ShloMosaic.Lib.Pipeline.Value

noncomputable section

namespace Cert.PayAttn

open Idealize.ShloMosaic Idealize.ShloMosaic.ValueIdx
open Cert.KernelIdeal Cert.KernelIdeal.Gen
open Cert.Lib.RowSoftmax (softmaxOf)

/-! ## The two heads' lanes -/

/-- Lane `d` of the first head of the pair: lane `d` of the block. -/
def lo (d : Fin 64) : Fin 128 := ⟨d.val, by have := d.isLt; omega⟩

/-- Lane `d` of the second head of the pair: lane `64 + d` of the block. -/
def hi (d : Fin 64) : Fin 128 := ⟨64 + d.val, by have := d.isLt; omega⟩

@[simp] theorem lo_val (d : Fin 64) : (lo d).val = d.val := rfl
@[simp] theorem hi_val (d : Fin 64) : (hi d).val = 64 + d.val := rfl

/-- One head's attention output at query row `p` and lane `d`, over the lanes `e` picks from the blocks. -/
def headOut (e : Fin 64 → Fin 128) (q : Vec Ideal S256x128 .bf16) (k v : Vec Ideal S2048x128 .bf16)
    (p : Fin 256) (d : Fin 64) : EReal :=
  ∑ j : Fin 2048,
    softmaxOf (fun j' => (∑ d' : Fin 64, q (ix2 p (e d')) * k (ix2 j' (e d'))) * Cert.Spec.scale) j * v (ix2 j (e d))

/-! ## The contraction `[256, 64] × [2048, 64]` (rows against rows): coordinates of the operand indices -/

theorem qk_l0 (j : S256x2048.Idx) (q : dot_S256x64_S2048x64_S256x2048_1_1_0_0_n_n.contr.Idx) :
    (dot_S256x64_S2048x64_S256x2048_1_1_0_0_n_n.lhsIdx j q 0).val = (j 0).val := by
  unfold DotDims.lhsIdx
  rw [dif_neg (show ¬(0 : Fin S256x64.rank) ∈ dot_S256x64_S2048x64_S256x2048_1_1_0_0_n_n.lhsBatch by decide),
    dif_pos (show (0 : Fin S256x64.rank) ∈ dot_S256x64_S2048x64_S256x2048_1_1_0_0_n_n.lhsNonContracting by decide)]
  rfl

theorem qk_l1 (j : S256x2048.Idx) (q : dot_S256x64_S2048x64_S256x2048_1_1_0_0_n_n.contr.Idx) :
    (dot_S256x64_S2048x64_S256x2048_1_1_0_0_n_n.lhsIdx j q 1).val = (q ⟨0, by decide⟩).val :=
  dot_S256x64_S2048x64_S256x2048_1_1_0_0_n_n.lhsIdx_val_of_single rfl j q

theorem qk_r0 (j : S256x2048.Idx) (q : dot_S256x64_S2048x64_S256x2048_1_1_0_0_n_n.contr.Idx) :
    (dot_S256x64_S2048x64_S256x2048_1_1_0_0_n_n.rhsIdx j q 0).val = (j 1).val := by
  unfold DotDims.rhsIdx
  rw [dif_neg (show ¬(0 : Fin S2048x64.rank) ∈ dot_S256x64_S2048x64_S256x2048_1_1_0_0_n_n.rhsBatch by decide),
    dif_pos (show (0 : Fin S2048x64.rank) ∈ dot_S256x64_S2048x64_S256x2048_1_1_0_0_n_n.rhsNonContracting by decide)]
  rfl

theorem qk_r1 (j : S256x2048.Idx) (q : dot_S256x64_S2048x64_S256x2048_1_1_0_0_n_n.contr.Idx) :
    (dot_S256x64_S2048x64_S256x2048_1_1_0_0_n_n.rhsIdx j q 1).val = (q ⟨0, by decide⟩).val :=
  dot_S256x64_S2048x64_S256x2048_1_1_0_0_n_n.rhsIdx_val_of_single rfl j q

/-! ## The contraction `[256, 2048] × [2048, 64]` (rows against columns) -/

theorem pv_l0 (j : S256x64.Idx) (q : dot_S256x2048_S2048x64_S256x64_1_0_0_1_n_n.contr.Idx) :
    (dot_S256x2048_S2048x64_S256x64_1_0_0_1_n_n.lhsIdx j q 0).val = (j 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl

theorem pv_l1 (j : S256x64.Idx) (q : dot_S256x2048_S2048x64_S256x64_1_0_0_1_n_n.contr.Idx) :
    (dot_S256x2048_S2048x64_S256x64_1_0_0_1_n_n.lhsIdx j q 1).val = (q ⟨0, by decide⟩).val :=
  dot_S256x2048_S2048x64_S256x64_1_0_0_1_n_n.lhsIdx_val_of_single rfl j q

theorem pv_r0 (j : S256x64.Idx) (q : dot_S256x2048_S2048x64_S256x64_1_0_0_1_n_n.contr.Idx) :
    (dot_S256x2048_S2048x64_S256x64_1_0_0_1_n_n.rhsIdx j q 0).val = (q ⟨0, by decide⟩).val :=
  dot_S256x2048_S2048x64_S256x64_1_0_0_1_n_n.rhsIdx_val_of_single rfl j q

theorem pv_r1 (j : S256x64.Idx) (q : dot_S256x2048_S2048x64_S256x64_1_0_0_1_n_n.contr.Idx) :
    (dot_S256x2048_S2048x64_S256x64_1_0_0_1_n_n.rhsIdx j q 1).val = (j 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-! ## The steps of one head, over its own 64-lane operands -/

/-- The scaled scores at `(p, j)`: query row `p` against key row `j` over the head's lanes, times the scale. -/
theorem scores_apply (Q : FVec Ideal S256x64 .bf16) (K : FVec Ideal S2048x64 .bf16) (p : Fin 256) (j : Fin 2048) :
    mulf (matmul dot_S256x64_S2048x64_S256x2048_1_1_0_0_n_n none Q K (constant (F := Ideal) S256x2048 .f32 0x00000000#32))
        (broadcast S256x2048 (Scalar.ofBits (F := Ideal) .f32 0x3E000000#32)) (ix2 p j)
      = (∑ d : Fin 64, Q (ix2 p d) * K (ix2 j d)) * Cert.Spec.scale := by
  rw [mulf_apply, broadcast_apply]
  simp only [matmul]
  rw [Ideal.matmul_constant_zero_apply]
  exact congrArg (· * Cert.Spec.scale)
    (Cert.Lib.DotRowsRows.sum_rows_rows dot_S256x64_S2048x64_S256x2048_1_1_0_0_n_n rfl rfl qk_l0 qk_l1 qk_r0 qk_r1 Q K p j)

/-- Weights `P` multiplied into the value rows, at `(p, d)`: the sum over the key rows of weight times value. -/
theorem weighted_apply (P : FVec Ideal S256x2048 .f32) (V : FVec Ideal S2048x64 .bf16) (p : Fin 256) (d : Fin 64) :
    truncf .bf16 (matmul dot_S256x2048_S2048x64_S256x64_1_0_0_1_n_n none (truncf .bf16 P bitsLt_bf16_f32) V
        (constant (F := Ideal) S256x64 .f32 0x00000000#32)) bitsLt_bf16_f32 (ix2 p d)
      = ∑ j : Fin 2048, P (ix2 p j) * V (ix2 j d) := by
  rw [truncf_apply]
  simp only [matmul]
  rw [Ideal.matmul_constant_zero_apply]
  exact Cert.Lib.PlainDot.sum_rows_cols dot_S256x2048_S2048x64_S256x64_1_0_0_1_n_n rfl rfl pv_l0 pv_l1 pv_r0 pv_r1
    (truncf .bf16 P bitsLt_bf16_f32) V (ix2 p d)

/-- The shifted exponentials of a score matrix: `exp (s - row maximum)`, the maximum kept as a column and spread
    back over the lanes. -/
abbrev expShift (S : FVec Ideal S256x2048 .f32) : FVec Ideal S256x2048 .f32 :=
  exp (subf S (broadcastTo S256x2048 (shapeCast S256x1
    (multiReduction (F := Ideal) .maximumf [1] S256 S 0xFF800000#32 reduces_S256x2048_S256 (.inl rfl) rfl)
    shapeCasts_S256_S256x1) broadcasts_S256x1_S256x2048))

/-- The row sums of a matrix, kept as a column and spread back over the lanes. -/
abbrev rowSums (E : FVec Ideal S256x2048 .f32) : FVec Ideal S256x2048 .f32 :=
  broadcastTo S256x2048 (shapeCast S256x1
    (multiReduction (F := Ideal) .add [1] S256 E 0x00000000#32 reduces_S256x2048_S256 (.inl rfl) rfl)
    shapeCasts_S256_S256x1) broadcasts_S256x1_S256x2048

/-- One head from its scores `S` and value rows `V`, at `(p, d)`: the softmax of row `p` of the scores,
    weighted into lane `d` of the value rows. -/
theorem head_apply (S : FVec Ideal S256x2048 .f32) (V : FVec Ideal S2048x64 .bf16) (p : Fin 256) (d : Fin 64) :
    truncf .bf16 (matmul dot_S256x2048_S2048x64_S256x64_1_0_0_1_n_n none
        (truncf .bf16 (divf (expShift S) (rowSums (expShift S))) bitsLt_bf16_f32) V
        (constant (F := Ideal) S256x64 .f32 0x00000000#32)) bitsLt_bf16_f32 (ix2 p d)
      = ∑ j : Fin 2048, softmaxOf (fun j' => S (ix2 p j')) j * V (ix2 j d) := by
  refine (weighted_apply _ V p d).trans ?_
  exact Finset.sum_congr rfl fun j _ => congrArg (· * V (ix2 j d))
    (Cert.Lib.RowSoftmax.softmax_rows_apply S reduces_S256x2048_S256 shapeCasts_S256_S256x1 broadcasts_S256x1_S256x2048
      (.inl rfl) rfl rfl p j)

/-! ## The lanes of the blocks the two heads read -/

theorem q_lo (q : Vec Ideal S256x128 .bf16) (p : Fin 256) (d : Fin 64) :
    extractStridedSlice S256x64 ![0, 0] (k2_pay2 (F := Ideal) q) slices_S256x128_o0_0_S256x64 (ix2 p d) = q (ix2 p (lo d)) :=
  (slice2_axis1_apply 0 _ _ p d (lo d) (Nat.zero_add _).symm).trans (congrFun (shapeCast_self q _) _)

theorem k_lo (k : Vec Ideal S2048x128 .bf16) (j : Fin 2048) (d : Fin 64) :
    extractStridedSlice S2048x64 ![0, 0] (k2_pay3 (F := Ideal) k) slices_S2048x128_o0_0_S2048x64 (ix2 j d) = k (ix2 j (lo d)) :=
  (slice2_axis1_apply 0 _ _ j d (lo d) (Nat.zero_add _).symm).trans (congrFun (shapeCast_self k _) _)

theorem v_lo (v : Vec Ideal S2048x128 .bf16) (j : Fin 2048) (d : Fin 64) :
    extractStridedSlice S2048x64 ![0, 0] (k2_pay4 (F := Ideal) v) slices_S2048x128_o0_0_S2048x64 (ix2 j d) = v (ix2 j (lo d)) :=
  (slice2_axis1_apply 0 _ _ j d (lo d) (Nat.zero_add _).symm).trans (congrFun (shapeCast_self v _) _)

theorem q_hi (q : Vec Ideal S256x128 .bf16) (p : Fin 256) (d : Fin 64) :
    extractStridedSlice S256x64 ![0, 64] (k2_pay2 (F := Ideal) q) slices_S256x128_o0_64_S256x64 (ix2 p d) = q (ix2 p (hi d)) :=
  (slice2_axis1_apply 64 _ _ p d (hi d) rfl).trans (congrFun (shapeCast_self q _) _)

theorem k_hi (k : Vec Ideal S2048x128 .bf16) (j : Fin 2048) (d : Fin 64) :
    extractStridedSlice S2048x64 ![0, 64] (k2_pay3 (F := Ideal) k) slices_S2048x128_o0_64_S2048x64 (ix2 j d) = k (ix2 j (hi d)) :=
  (slice2_axis1_apply 64 _ _ j d (hi d) rfl).trans (congrFun (shapeCast_self k _) _)

theorem v_hi (v : Vec Ideal S2048x128 .bf16) (j : Fin 2048) (d : Fin 64) :
    extractStridedSlice S2048x64 ![0, 64] (k2_pay4 (F := Ideal) v) slices_S2048x128_o0_64_S2048x64 (ix2 j d) = v (ix2 j (hi d)) :=
  (slice2_axis1_apply 64 _ _ j d (hi d) rfl).trans (congrFun (shapeCast_self v _) _)

/-! ## The two heads at an entry -/

/-- A head's result over sliced operands is `headOut` once each sliced operand is read as lanes `e` of its block. -/
theorem headOut_of_lanes (e : Fin 64 → Fin 128) (q : Vec Ideal S256x128 .bf16) (k v : Vec Ideal S2048x128 .bf16)
    (Q : FVec Ideal S256x64 .bf16) (K V : FVec Ideal S2048x64 .bf16)
    (hQ : ∀ p d, Q (ix2 p d) = q (ix2 p (e d))) (hK : ∀ j d, K (ix2 j d) = k (ix2 j (e d)))
    (hV : ∀ j d, V (ix2 j d) = v (ix2 j (e d))) (p : Fin 256) (d : Fin 64) :
    (∑ j : Fin 2048,
        softmaxOf (fun j' =>
          mulf (matmul dot_S256x64_S2048x64_S256x2048_1_1_0_0_n_n none Q K (constant (F := Ideal) S256x2048 .f32 0x00000000#32))
            (broadcast S256x2048 (Scalar.ofBits (F := Ideal) .f32 0x3E000000#32)) (ix2 p j')) j * V (ix2 j d))
      = headOut e q k v p d := by
  unfold headOut
  refine Finset.sum_congr rfl fun j _ => ?_
  refine congrArg₂ (fun f y => softmaxOf f j * y) (funext fun j' => ?_) (hV j d)
  refine (scores_apply Q K p j').trans ?_
  exact congrArg (· * Cert.Spec.scale) (Finset.sum_congr rfl fun d' _ => congrArg₂ (· * ·) (hQ p d') (hK j' d'))

/-- The first head of the pair at `(p, d)`. -/
theorem pay_lo (q : Vec Ideal S256x128 .bf16) (k v : Vec Ideal S2048x128 .bf16) (p : Fin 256) (d : Fin 64) :
    k2_pay5 (F := Ideal) q k v (ix2 p d) = headOut lo q k v p d := by
  unfold k2_pay5
  refine (head_apply _ _ p d).trans ?_
  exact headOut_of_lanes lo q k v _ _ _ (q_lo q) (k_lo k) (v_lo v) p d

/-- The second head of the pair at `(p, d)`: the same chain, given in three pieces. -/
theorem pay_hi (q : Vec Ideal S256x128 .bf16) (k v : Vec Ideal S2048x128 .bf16) (p : Fin 256) (d : Fin 64) :
    k2_pay1 (F := Ideal) (k2_pay6 v) (k2_pay7 q k) (k2_pay8 q k) (ix2 p d) = headOut hi q k v p d := by
  unfold k2_pay1 k2_pay8 k2_pay7 k2_pay6
  refine (head_apply _ _ p d).trans ?_
  exact headOut_of_lanes hi q k v _ _ _ (q_hi q) (k_hi k) (v_hi v) p d

end Cert.PayAttn

end
-- ==== Proof.HandKI.Final2.lean ====
/-
  The attention region's result array after all write-backs, as one function of the arrays the region starts from.

  The grid is `(batch, head pair, block of 256 query rows)`, 2 x 8 x 8 points. At a point the body reads a
  `[256, 128]` block of the queries (rows of one batch, the 128 lanes of one head pair), the `[2048, 128]` blocks of
  the keys and of the values of the same batch and head pair (two windows on ONE stacked array: keys in columns
  `0 .. 1023`, values in columns `1024 .. 2047`), and writes a `[256, 128]` block of the result: lanes `0 .. 63`
  the pair's first head, lanes `64 .. 127` its second. Entry `(p, l)` of that block is one head's attention output,
  over the 64 lanes `(l / 64) * 64 + d'` of the blocks. Read through the blocks' positions in their arrays it is
  entry `(R, C)` of ONE function `G` of the two arrays: the head of column `C` is `C / 64`, its lanes are
  `(C / 64) * 64 + d'`, the batch of row `R` is `R / 2048`, its key and value rows are `(R / 2048) * 2048 + j`, and the
  value column is `1024 + C`. The 128 blocks cover the array, so after all write-backs the result array is `G`.
-/
import proofs.«175174_j31018253812438_2_alg».proof.Proof.HandKI.R2
import proofs.«175174_j31018253812438_2_alg».proof.Proof.PayAttn
import proofs.«175174_j31018253812438_2_alg».proof.Proof.Spec
import Idealize.ShloMosaic.Lib.Pipeline.Value

noncomputable section

namespace Cert.KernelIdeal.Final

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open Cert.Lib.RowSoftmax (softmaxOf)
open Cert.PayAttn (lo hi headOut)

variable (V : (c : Dev nD) → (b : Ref sig .tc) → Buf (Elt Ideal) ((c : Thread nD τ).loc b))

/-! ## Rows and columns of the stacked arrays -/

/-- Token `i` of batch `b` among the 4096 stacked rows. -/
def row (b : Fin 2) (i : Fin 2048) : Fin 4096 := ⟨b.val * 2048 + i.val, by have := b.isLt; have := i.isLt; omega⟩

/-- Lane `d` of head `h` among the key columns of the stacked key-and-value array. -/
def kcol (h : Fin 16) (d : Fin 64) : Fin 2048 := ⟨h.val * 64 + d.val, by have := h.isLt; have := d.isLt; omega⟩

/-- Lane `d` of head `h` among the value columns of the stacked key-and-value array. -/
def vcol (h : Fin 16) (d : Fin 64) : Fin 2048 := ⟨1024 + h.val * 64 + d.val, by have := h.isLt; have := d.isLt; omega⟩

@[simp] theorem row_val (b : Fin 2) (i : Fin 2048) : (row b i).val = b.val * 2048 + i.val := rfl
@[simp] theorem kcol_val (h : Fin 16) (d : Fin 64) : (kcol h d).val = h.val * 64 + d.val := rfl
@[simp] theorem vcol_val (h : Fin 16) (d : Fin 64) : (vcol h d).val = 1024 + h.val * 64 + d.val := rfl

/-- Row `j` of the batch that row `R` belongs to. -/
def batchRow (R : Fin 4096) (j : Fin 2048) : Fin 4096 := ⟨R.val / 2048 * 2048 + j.val, by have := R.isLt; have := j.isLt; omega⟩

/-- Lane `d` of the head that feature `C` belongs to, among the 1024 features. -/
def headLane (C : Fin 1024) (d : Fin 64) : Fin 1024 := ⟨C.val / 64 * 64 + d.val, by have := C.isLt; have := d.isLt; omega⟩

/-- The same lane among the key columns of the stacked array. -/
def keyLane (C : Fin 1024) (d : Fin 64) : Fin 2048 := ⟨C.val / 64 * 64 + d.val, by have := C.isLt; have := d.isLt; omega⟩

/-- Feature `C` among the value columns of the stacked array. -/
def valLane (C : Fin 1024) : Fin 2048 := ⟨1024 + C.val, by have := C.isLt; omega⟩

theorem headLane_headCol (h : Fin 16) (d d' : Fin 64) : headLane (Cert.Spec.headCol h d) d' = Cert.Spec.headCol h d' :=
  Fin.ext (by
    show (h.val * 64 + d.val) / 64 * 64 + d'.val = h.val * 64 + d'.val
    have := d.isLt; omega)

theorem keyLane_headCol (h : Fin 16) (d d' : Fin 64) : keyLane (Cert.Spec.headCol h d) d' = kcol h d' :=
  Fin.ext (by
    show (h.val * 64 + d.val) / 64 * 64 + d'.val = h.val * 64 + d'.val
    have := d.isLt; omega)

theorem valLane_headCol (h : Fin 16) (d : Fin 64) : valLane (Cert.Spec.headCol h d) = vcol h d :=
  Fin.ext (by
    show 1024 + (h.val * 64 + d.val) = 1024 + h.val * 64 + d.val
    omega)

theorem batchRow_row (b : Fin 2) (i j : Fin 2048) : batchRow (row b i) j = row b j :=
  Fin.ext (by
    show (b.val * 2048 + i.val) / 2048 * 2048 + j.val = b.val * 2048 + j.val
    have := i.isLt; omega)

/-! ## The result as one function of the two arrays -/

/-- Attention at row `R` and feature `C`: the softmax over the batch's key rows of the scaled scores in the head of
    `C`, weighted into the value rows' column for `C`. -/
def G2 (Q : S4096x1024.Idx → EReal) (KV : S4096x2048.Idx → EReal) : S4096x1024.Idx → EReal := fun i =>
  ∑ j : Fin 2048,
    softmaxOf (fun j' => (∑ d' : Fin 64, Q (ix2 (i 0) (headLane (i 1) d')) * KV (ix2 (batchRow (i 0) j') (keyLane (i 1) d')))
      * Cert.Spec.scale) j * KV (ix2 (batchRow (i 0) j) (valLane (i 1)))

/-- `G` at token `i` of batch `b` and lane `d` of head `h`. -/
theorem G2_apply (Q : S4096x1024.Idx → EReal) (KV : S4096x2048.Idx → EReal) (b : Fin 2) (i : Fin 2048) (h : Fin 16) (d : Fin 64) :
    G2 Q KV (ix2 (row b i) (Cert.Spec.headCol h d))
      = ∑ j : Fin 2048,
          softmaxOf (fun j' => (∑ d' : Fin 64, Q (ix2 (row b i) (Cert.Spec.headCol h d')) * KV (ix2 (row b j') (kcol h d')))
            * Cert.Spec.scale) j * KV (ix2 (row b j) (vcol h d)) := by
  show (∑ j : Fin 2048,
      softmaxOf (fun j' => (∑ d' : Fin 64, Q (ix2 (row b i) (headLane (Cert.Spec.headCol h d) d'))
          * KV (ix2 (batchRow (row b i) j') (keyLane (Cert.Spec.headCol h d) d'))) * Cert.Spec.scale) j
        * KV (ix2 (batchRow (row b i) j) (valLane (Cert.Spec.headCol h d)))) = _
  simp only [headLane_headCol, keyLane_headCol, valLane_headCol, batchRow_row]

/-! ## One block: the two stores read as one function of the block's operands -/

theorem hz2 : (![0, 0] : Fin 2 → Nat) = fun _ => 0 := funext fun a => by fin_cases a <;> rfl

/-- Lane `d` of the head that lane `l` of a 128-lane block belongs to. -/
def ln (l : Fin 128) (d : Fin 64) : Fin 128 := ⟨l.val / 64 * 64 + d.val, by have := l.isLt; have := d.isLt; omega⟩

/-- A block of the result as one function of the three operand blocks: entry `(p, l)` is the attention output of
    query row `p` in the head of lane `l`, at lane `l` of the value block. -/
def blockG (x0 : Vec Ideal S256x128 .bf16) (x1 x2 : Vec Ideal S2048x128 .bf16) : S256x128.Idx → EReal := fun y =>
  ∑ j : Fin 2048,
    softmaxOf (fun j' => (∑ d' : Fin 64, x0 (ix2 (y 0) (ln (y 1) d')) * x1 (ix2 j' (ln (y 1) d'))) * Cert.Spec.scale) j
      * x2 (ix2 j (y 1))

/-- `headOut` over the lanes `e` is `blockG` at any block index whose row is `p` and whose lane is `e d`, when the
    lanes of that head are the lanes `e` picks. -/
theorem headOut_eq_blockG (e : Fin 64 → Fin 128) (x0 : Vec Ideal S256x128 .bf16) (x1 x2 : Vec Ideal S2048x128 .bf16)
    (p : Fin 256) (d : Fin 64) (y : S256x128.Idx) (hy0 : (y 0).val = p.val) (hy1 : (y 1).val = (e d).val)
    (he : ∀ d' : Fin 64, (e d').val = (e d).val / 64 * 64 + d'.val) :
    headOut e x0 x1 x2 p d = blockG x0 x1 x2 y := by
  unfold headOut blockG
  have hp : p = y 0 := Fin.ext hy0.symm
  have hl : e d = y 1 := Fin.ext hy1.symm
  have hln : ∀ d' : Fin 64, e d' = ln (y 1) d' := fun d' => Fin.ext (by
    show (e d').val = (y 1).val / 64 * 64 + d'.val
    rw [hy1]; exact he d')
  refine Finset.sum_congr rfl fun j _ => ?_
  refine congrArg₂ (fun f z => softmaxOf f j * z) (funext fun j' => ?_) (by rw [hl])
  exact congrArg (· * Cert.Spec.scale) (Finset.sum_congr rfl fun d' _ => by rw [hln d', hp])

/-- The second head's store, over lanes `64 .. 127`: its entry `x` is `blockG` at `(x 0, 64 + x 1)`. -/
theorem piece_hi (x0 : Vec Ideal S256x128 .bf16) (x1 x2 : Vec Ideal S2048x128 .bf16) (x : S256x64.Idx) (y : S256x128.Idx)
    (hy0 : (y 0).val = (x 0).val) (hy1 : (y 1).val = 64 + (x 1).val) :
    k2_pay1 (F := Ideal) (k2_pay6 x2) (k2_pay7 x0 x1) (k2_pay8 x0 x1) x = blockG x0 x1 x2 y := by
  obtain ⟨p, d, rfl⟩ : ∃ (p : Fin 256) (d : Fin 64), x = ix2 p d := ⟨x 0, x 1, eq_ix2 x⟩
  rw [Cert.PayAttn.pay_hi]
  exact headOut_eq_blockG hi x0 x1 x2 p d y hy0 hy1 (fun d' => by
    show 64 + d'.val = (64 + d.val) / 64 * 64 + d'.val
    have := d.isLt; omega)

/-- The first head's store, over lanes `0 .. 63`: its entry `x` is `blockG` at `(x 0, x 1)`. -/
theorem piece_lo (x0 : Vec Ideal S256x128 .bf16) (x1 x2 : Vec Ideal S2048x128 .bf16) (x : S256x64.Idx) (y : S256x128.Idx)
    (hy0 : (y 0).val = (x 0).val) (hy1 : (y 1).val = (x 1).val) :
    k2_pay5 (F := Ideal) x0 x1 x2 x = blockG x0 x1 x2 y := by
  obtain ⟨p, d, rfl⟩ : ∃ (p : Fin 256) (d : Fin 64), x = ix2 p d := ⟨x 0, x 1, eq_ix2 x⟩
  rw [Cert.PayAttn.pay_lo]
  exact headOut_eq_blockG lo x0 x1 x2 p d y hy0 hy1 (fun d' => by
    show d'.val = d.val / 64 * 64 + d'.val
    have := d.isLt; omega)

/-- What the body leaves in the result window's buffer is `blockG` of the three operand blocks. -/
theorem out2_3_eq (x0 : Vec Ideal S256x128 .bf16) (x1 x2 : Vec Ideal S2048x128 .bf16) :
    out2_3 (F := Ideal) x0 x1 x2 = blockG x0 x1 x2 := by
  funext y
  unfold out2_3
  simp only [View.ld_unit_zero (S := S256x128) hz2, View.ld_unit_zero (S := S2048x128) hz2]
  refine View.canon_apply_of_pieces (Val := Elt Ideal) (S := S256x128) (e := .bf16) (blockG x0 x1 x2) _
    (List.forall_mem_cons.mpr ⟨fun x => ?_, List.forall_mem_cons.mpr ⟨fun x => ?_, fun _ h => absurd h List.not_mem_nil⟩⟩)
    y (cover2_3 _ _ y)
  · exact piece_hi x0 x1 x2 x (rhi2.emb x) (by show 0 + 1 * (x 0).val = (x 0).val; omega)
      (by show 64 + 1 * (x 1).val = 64 + (x 1).val; omega)
  · exact piece_lo x0 x1 x2 x (rlo2.emb x) (by show 0 + 1 * (x 0).val = (x 0).val; omega)
      (by show 0 + 1 * (x 1).val = (x 1).val; omega)

/-! ## One entry of one block, through the blocks' positions in the arrays -/

/-- The operand blocks `x0`, `x1`, `x2` are the query array `Q` and the stacked key-and-value array `KV` read through
    index maps: for batch `B`, head pair `P` and query block `QI`, the query block starts at row `(8 B + QI) * 256` and
    column `128 P`, the key block at row `2048 B` and column `128 P`, the value block at row `2048 B` and column
    `128 (8 + P)`. Then entry `j` of `blockG` is `G` at the array index `i` that is `j` moved to the query block's position. -/
theorem point2 (x0 : Vec Ideal S256x128 .bf16) (x1 x2 : Vec Ideal S2048x128 .bf16)
    (Q : S4096x1024.Idx → EReal) (KV : S4096x2048.Idx → EReal)
    (k0 : S256x128.Idx → S4096x1024.Idx) (k1 k2 : S2048x128.Idx → S4096x2048.Idx)
    (hx0 : ∀ y, x0 y = Q (k0 y)) (hx1 : ∀ y, x1 y = KV (k1 y)) (hx2 : ∀ y, x2 y = KV (k2 y))
    (B P QI : Nat) (hB : B < 2) (hP : P < 8) (hQI : QI < 8)
    (hk0r : ∀ y, (k0 y 0).val = (B * 8 + QI) * 256 + (y 0).val) (hk0c : ∀ y, (k0 y 1).val = P * 128 + (y 1).val)
    (hk1r : ∀ y, (k1 y 0).val = B * 2048 + (y 0).val) (hk1c : ∀ y, (k1 y 1).val = P * 128 + (y 1).val)
    (hk2r : ∀ y, (k2 y 0).val = B * 2048 + (y 0).val) (hk2c : ∀ y, (k2 y 1).val = (8 + P) * 128 + (y 1).val)
    (j : S256x128.Idx) (i : S4096x1024.Idx)
    (hi0 : (i 0).val = (B * 8 + QI) * 256 + (j 0).val) (hi1 : (i 1).val = P * 128 + (j 1).val) :
    blockG x0 x1 x2 j = G2 Q KV i := by
  unfold blockG G2
  have hj0 : (j 0).val < 256 := (j 0).isLt
  have hj1 : (j 1).val < 128 := (j 1).isLt
  have q_eq : ∀ d' : Fin 64, x0 (ix2 (j 0) (ln (j 1) d')) = Q (ix2 (i 0) (headLane (i 1) d')) := fun d' =>
    (hx0 _).trans (congrArg Q (funext fun a => Fin.ext (by
      match a with
      | ⟨0, _⟩ => exact (hk0r _).trans hi0.symm
      | ⟨1, _⟩ =>
        have h1 : (k0 (ix2 (j 0) (ln (j 1) d')) 1).val = P * 128 + ((j 1).val / 64 * 64 + d'.val) := hk0c _
        show (k0 (ix2 (j 0) (ln (j 1) d')) 1).val = (i 1).val / 64 * 64 + d'.val
        omega)))
  have k_eq : ∀ (j' : Fin 2048) (d' : Fin 64),
      x1 (ix2 j' (ln (j 1) d')) = KV (ix2 (batchRow (i 0) j') (keyLane (i 1) d')) := fun j' d' =>
    (hx1 _).trans (congrArg KV (funext fun a => Fin.ext (by
      match a with
      | ⟨0, _⟩ =>
        have h0 : (k1 (ix2 j' (ln (j 1) d')) 0).val = B * 2048 + j'.val := hk1r _
        show (k1 (ix2 j' (ln (j 1) d')) 0).val = (i 0).val / 2048 * 2048 + j'.val
        omega
      | ⟨1, _⟩ =>
        have h1 : (k1 (ix2 j' (ln (j 1) d')) 1).val = P * 128 + ((j 1).val / 64 * 64 + d'.val) := hk1c _
        show (k1 (ix2 j' (ln (j 1) d')) 1).val = (i 1).val / 64 * 64 + d'.val
        omega)))
  have v_eq : ∀ j' : Fin 2048, x2 (ix2 j' (j 1)) = KV (ix2 (batchRow (i 0) j') (valLane (i 1))) := fun j' =>
    (hx2 _).trans (congrArg KV (funext fun a => Fin.ext (by
      match a with
      | ⟨0, _⟩ =>
        have h0 : (k2 (ix2 j' (j 1)) 0).val = B * 2048 + j'.val := hk2r _
        show (k2 (ix2 j' (j 1)) 0).val = (i 0).val / 2048 * 2048 + j'.val
        omega
      | ⟨1, _⟩ =>
        have h1 : (k2 (ix2 j' (j 1)) 1).val = (8 + P) * 128 + (j 1).val := hk2c _
        show (k2 (ix2 j' (j 1)) 1).val = 1024 + (i 1).val
        omega)))
  refine Finset.sum_congr rfl fun j' _ => ?_
  refine congrArg₂ (fun f z => softmaxOf f j' * z) (funext fun j'' => ?_) (v_eq j')
  exact congrArg (· * Cert.Spec.scale) (Finset.sum_congr rfl fun d' _ => congrArg₂ (· * ·) (q_eq d') (k_eq j'' d'))

/-! ## The blocks' positions, the cover, and the array after all write-backs -/

/-- The printed index maps, decided over the 128 grid points: point `t` is batch `t / 64`, head pair `t / 8 % 8`,
    query block `t % 8`; the queries' and the result's block index is `(8 batch + query block, head pair)`, the keys'
    `(batch, head pair)`, the values' `(batch, 8 + head pair)`. -/
theorem idx_facts2 : ∀ t : Fin cfg2.N,
    win2_0.index t (0 : Fin 2) = t.val / 64 * 8 + t.val % 8 ∧ win2_0.index t (1 : Fin 2) = t.val / 8 % 8
    ∧ win2_1.index t (0 : Fin 2) = t.val / 64 ∧ win2_1.index t (1 : Fin 2) = t.val / 8 % 8
    ∧ win2_2.index t (0 : Fin 2) = t.val / 64 ∧ win2_2.index t (1 : Fin 2) = 8 + t.val / 8 % 8
    ∧ win2_3.index t (0 : Fin 2) = t.val / 64 * 8 + t.val % 8 ∧ win2_3.index t (1 : Fin 2) = t.val / 8 % 8 :=
  (by decide +kernel : ∀ t : Fin grid2.N, _)

/-- What point `t` writes back is block `t` of `G` of the arrays as the region finds them. -/
theorem flushed2_eq (c : Dev nD) (t : Fin cfg2.N) :
    (dat2 (F := Ideal) V c).flushed 3 t
      = ((cfg2.win 3).blk t).view.read (Elt Ideal) (G2 (V c main_v12) (V c main_v14)) := by
  show (cfg2.win 3).cut (grid2.coords t) ((dat2 V c).after 3 t) = _
  rw [after2_3, out2_3_eq]
  obtain ⟨e00, e01, e10, e11, e20, e21, e30, e31⟩ := idx_facts2 t
  have hN : grid2.N = 128 := N_2
  have ht : t.val < grid2.N := t.isLt
  funext j
  exact point2 (iblk2 V c 0 t) (iblk2 V c 1 t) (iblk2 V c 2 t) (V c main_v12) (V c main_v14)
    (fun y => ((cfg2.win 0).blk t).view.emb y) (fun y => ((cfg2.win 1).blk t).view.emb y) (fun y => ((cfg2.win 2).blk t).view.emb y)
    (fun _ => rfl) (fun _ => rfl) (fun _ => rfl) (t.val / 64) (t.val / 8 % 8) (t.val % 8) (by omega) (by omega) (by omega)
    (fun y => by show win2_0.index t (0 : Fin 2) * 256 + 1 * (y 0).val = _; omega)
    (fun y => by show win2_0.index t (1 : Fin 2) * 128 + 1 * (y 1).val = _; omega)
    (fun y => by show win2_1.index t (0 : Fin 2) * 2048 + 1 * (y 0).val = _; omega)
    (fun y => by show win2_1.index t (1 : Fin 2) * 128 + 1 * (y 1).val = _; omega)
    (fun y => by show win2_2.index t (0 : Fin 2) * 2048 + 1 * (y 0).val = _; omega)
    (fun y => by show win2_2.index t (1 : Fin 2) * 128 + 1 * (y 1).val = _; omega)
    j (((cfg2.win 3).blk t).view.emb j)
    (by show win2_3.index t (0 : Fin 2) * 256 + 1 * (j 0).val = _; omega)
    (by show win2_3.index t (1 : Fin 2) * 128 + 1 * (j 1).val = _; omega)

/-- An index of the result array is in point `t`'s block iff each coordinate is in the block's range on its axis. -/
theorem mem_blk2 (t : Fin cfg2.N) (i : S4096x1024.Idx) :
    i ∈ ((cfg2.win 3).blk t).view.set ↔ ∀ a : Fin 2, win2_3.index t a * S256x128.size a ≤ (i a).val
      ∧ (i a).val < win2_3.index t a * S256x128.size a + S256x128.size a := by
  show i ∈ ((View.whole main_v15).slice (win2_3.rect t)).set ↔ _
  rw [View.set_slice_whole, Rect.mem_set_unit]
  exact Iff.rfl

/-- Every index `(R, C)` of the result array is in some point's block: batch `R / 2048`, head pair `C / 128`, query
    block `R / 256 % 8`. -/
theorem cover2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  have hN : grid2.N = 128 := N_2
  have ht : (i 0).val / 2048 * 64 + (i 1).val / 128 * 8 + (i 0).val / 256 % 8 < cfg2.N := by
    show (i 0).val / 2048 * 64 + (i 1).val / 128 * 8 + (i 0).val / 256 % 8 < grid2.N; omega
  obtain ⟨_, _, _, _, _, _, e30, e31⟩ :=
    idx_facts2 ⟨(i 0).val / 2048 * 64 + (i 1).val / 128 * 8 + (i 0).val / 256 % 8, ht⟩
  have e30' : win2_3.index ⟨(i 0).val / 2048 * 64 + (i 1).val / 128 * 8 + (i 0).val / 256 % 8, ht⟩ (0 : Fin 2)
      = ((i 0).val / 2048 * 64 + (i 1).val / 128 * 8 + (i 0).val / 256 % 8) / 64 * 8
        + ((i 0).val / 2048 * 64 + (i 1).val / 128 * 8 + (i 0).val / 256 % 8) % 8 := e30
  have e31' : win2_3.index ⟨(i 0).val / 2048 * 64 + (i 1).val / 128 * 8 + (i 0).val / 256 % 8, ht⟩ (1 : Fin 2)
      = ((i 0).val / 2048 * 64 + (i 1).val / 128 * 8 + (i 0).val / 256 % 8) / 8 % 8 := e31
  refine ⟨⟨(i 0).val / 2048 * 64 + (i 1).val / 128 * 8 + (i 0).val / 256 % 8, ht⟩, flush2_3 _, ?_⟩
  rw [mem_blk2]
  intro a
  match a with
  | ⟨0, _⟩ =>
    show win2_3.index ⟨(i 0).val / 2048 * 64 + (i 1).val / 128 * 8 + (i 0).val / 256 % 8, ht⟩ (0 : Fin 2) * 256 ≤ (i 0).val
      ∧ (i 0).val < win2_3.index ⟨(i 0).val / 2048 * 64 + (i 1).val / 128 * 8 + (i 0).val / 256 % 8, ht⟩ (0 : Fin 2) * 256 + 256
    omega
  | ⟨1, _⟩ =>
    show win2_3.index ⟨(i 0).val / 2048 * 64 + (i 1).val / 128 * 8 + (i 0).val / 256 % 8, ht⟩ (1 : Fin 2) * 128 ≤ (i 1).val
      ∧ (i 1).val < win2_3.index ⟨(i 0).val / 2048 * 64 + (i 1).val / 128 * 8 + (i 0).val / 256 % 8, ht⟩ (1 : Fin 2) * 128 + 128
    omega

/-- The result array after all write-backs is `G` of the query array and the stacked key-and-value array as the
    region finds them. -/
theorem final2_fun (c : Dev nD) :
    (dat2 (F := Ideal) V c).arrAt 3 cfg2.N = G2 (V c main_v12) (V c main_v14) :=
  (dat2 (F := Ideal) V c).arrAt_eq_of_cover 3 (G2 (V c main_v12) (V c main_v14)) (fun t _ => flushed2_eq V c t) cover2

/-- The result array after all write-backs, at token `i` of batch `b` and lane `d` of head `h`. -/
theorem final2 (c : Dev nD) (b : Fin 2) (i : Fin 2048) (h : Fin 16) (d : Fin 64) :
    (dat2 (F := Ideal) V c).arrAt 3 cfg2.N (ix2 (row b i) (Cert.Spec.headCol h d))
      = G2 (V c main_v12) (V c main_v14) (ix2 (row b i) (Cert.Spec.headCol h d)) :=
  congrFun (final2_fun V c) (ix2 (row b i) (Cert.Spec.headCol h d))

end Cert.KernelIdeal.Final

end
-- ==== Proof.HandKI.Final3.lean ====
/-
  The output projection's result array after all write-backs, as one function of the arrays the region starts from.

  The pipeline cuts the 4096 rows into 8 blocks of 512; at grid point `t` the body reads rows `512 t .. 512 t + 511`
  of the left operand, the whole weight matrix and the whole bias row, and writes back rows `512 t .. 512 t + 511`
  of the result. Entry `(p, o)` of that block is row `p` of the block against column `o` of the weights plus the bias
  at `o`, so it is entry `(512 t + p, o)` of ONE function of the three arrays as the region finds them,
  `G r o = (∑ e, A (r, e) * W (e, o)) + b (0, o)`. The 8 blocks cover the rows (row `r` is in block `r / 512`), so after
  all write-backs the result array is `G`.
-/
import proofs.«175174_j31018253812438_2_alg».proof.Proof.HandKI.R3
import proofs.«175174_j31018253812438_2_alg».proof.Proof.PayLinear
import Idealize.ShloMosaic.Lib.Pipeline.Value

noncomputable section

namespace Cert.KernelIdeal.Final

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The product plus the bias row, as one function of the three arrays, index by index. -/
def G3 (a0 : S4096x1024.Idx → EReal) (a1 : S1024x1024.Idx → EReal) (a2 : S1x1024.Idx → EReal) : S4096x1024.Idx → EReal := fun i =>
  (∑ e : Fin 1024, a0 (ix2 (i 0) e) * a1 (ix2 e (i 1))) + a2 (ix2 (0 : Fin 1) (i 1))

theorem hz3 : (![0, 0] : Fin 2 → Nat) = fun _ => 0 := funext fun a => by fin_cases a <;> rfl

/-- One entry of one block. The body's operands `x0`, `x1`, `x2` are the arrays `a0`, `a1`, `a2` read through index
    maps `k0`, `k1`, `k2`: `k0` shifts the rows by `512 T`, the other two move nothing. Then entry `j` of the body's
    result is `G` at any array index `i` that is `j` shifted by `512 T` rows. -/
theorem point3 (x0 : Vec Ideal S512x1024 .bf16) (x1 : Vec Ideal S1024x1024 .bf16) (x2 : Vec Ideal S1x1024 .f32)
    (a0 : S4096x1024.Idx → EReal) (a1 : S1024x1024.Idx → EReal) (a2 : S1x1024.Idx → EReal)
    (k0 : S512x1024.Idx → S4096x1024.Idx) (k1 : S1024x1024.Idx → S1024x1024.Idx) (k2 : S1x1024.Idx → S1x1024.Idx)
    (hx0 : ∀ y, x0 y = a0 (k0 y)) (hx1 : ∀ y, x1 y = a1 (k1 y)) (hx2 : ∀ y, x2 y = a2 (k2 y)) (T : Nat)
    (hk0r : ∀ y, (k0 y 0).val = T * 512 + (y 0).val) (hk0c : ∀ y, (k0 y 1).val = (y 1).val)
    (hk1r : ∀ y, (k1 y 0).val = (y 0).val) (hk1c : ∀ y, (k1 y 1).val = (y 1).val)
    (hk2r : ∀ y, (k2 y 0).val = (y 0).val) (hk2c : ∀ y, (k2 y 1).val = (y 1).val)
    (j : S512x1024.Idx) (i : S4096x1024.Idx) (hi0 : (i 0).val = T * 512 + (j 0).val) (hi1 : (i 1).val = (j 1).val) :
    k3_pay1 (F := Ideal) x0 x1 x2 j = G3 a0 a1 a2 i := by
  obtain ⟨p, o, rfl⟩ : ∃ (p : Fin 512) (o : Fin 1024), j = ix2 p o := ⟨j 0, j 1, eq_ix2 j⟩
  rw [Cert.PayLinear.pay3]
  unfold G3
  have e0 : ∀ e : Fin 1024, x0 (ix2 p e) = a0 (ix2 (i 0) e) := fun e =>
    (hx0 _).trans (congrArg a0 (funext fun a => Fin.ext (by
      match a with
      | ⟨0, _⟩ => exact (hk0r _).trans hi0.symm
      | ⟨1, _⟩ => exact hk0c _)))
  have e1 : ∀ e : Fin 1024, x1 (ix2 e o) = a1 (ix2 e (i 1)) := fun e =>
    (hx1 _).trans (congrArg a1 (funext fun a => Fin.ext (by
      match a with
      | ⟨0, _⟩ => exact hk1r _
      | ⟨1, _⟩ => exact (hk1c _).trans hi1.symm)))
  have e2 : x2 (ix2 (0 : Fin 1) o) = a2 (ix2 (0 : Fin 1) (i 1)) :=
    (hx2 _).trans (congrArg a2 (funext fun a => Fin.ext (by
      match a with
      | ⟨0, _⟩ => exact hk2r _
      | ⟨1, _⟩ => exact (hk2c _).trans hi1.symm)))
  exact congrArg₂ (· + ·) (Finset.sum_congr rfl fun e _ => congrArg₂ (· * ·) (e0 e) (e1 e)) e2

/-- The printed index maps, decided over the 8 grid points: the left operand's and the result's block index is
    `(t, 0)`, the weights' and the bias row's is `(0, 0)`. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point `t` writes back is block `t` of `G` of the arrays as the region finds them. -/
theorem flushed3_eq (c : Dev nD) (t : Fin cfg3.N) :
    (dat3 (F := Ideal) V c).flushed 3 t
      = ((cfg3.win 3).blk t).view.read (Elt Ideal) (G3 (V c main_v15) (V c main_v10) (V c main_v16)) := by
  show (cfg3.win 3).cut (grid3.coords t) ((dat3 V c).after 3 t) = _
  rw [after3_3]
  unfold out3_3
  rw [View.canon_unit_zero hz3]
  simp only [View.ld_unit_zero (S := S512x1024) hz3, View.ld_unit_zero (S := S1024x1024) hz3, View.ld_unit_zero (S := S1x1024) hz3]
  obtain ⟨e00, e01, e10, e11, e20, e21, e30, e31⟩ := idx_facts3 t
  funext j
  exact point3 (iblk3 V c 0 t) (iblk3 V c 1 t) (iblk3 V c 2 t) (V c main_v15) (V c main_v10) (V c main_v16)
    (fun y => ((cfg3.win 0).blk t).view.emb y) (fun y => ((cfg3.win 1).blk t).view.emb y) (fun y => ((cfg3.win 2).blk t).view.emb y)
    (fun _ => rfl) (fun _ => rfl) (fun _ => rfl) t.val
    (fun y => by show win3_0.index t (0 : Fin 2) * 512 + 1 * (y 0).val = _; omega)
    (fun y => by show win3_0.index t (1 : Fin 2) * 1024 + 1 * (y 1).val = _; omega)
    (fun y => by show win3_1.index t (0 : Fin 2) * 1024 + 1 * (y 0).val = _; omega)
    (fun y => by show win3_1.index t (1 : Fin 2) * 1024 + 1 * (y 1).val = _; omega)
    (fun y => by show win3_2.index t (0 : Fin 2) * 1 + 1 * (y 0).val = _; omega)
    (fun y => by show win3_2.index t (1 : Fin 2) * 1024 + 1 * (y 1).val = _; omega)
    j (((cfg3.win 3).blk t).view.emb j)
    (by show win3_3.index t (0 : Fin 2) * 512 + 1 * (j 0).val = _; omega)
    (by show win3_3.index t (1 : Fin 2) * 1024 + 1 * (j 1).val = _; omega)

/-- An index of the result array is in point `t`'s block iff each coordinate is in the block's range on its axis. -/
theorem mem_blk3 (t : Fin cfg3.N) (i : S4096x1024.Idx) :
    i ∈ ((cfg3.win 3).blk t).view.set ↔ ∀ a : Fin 2, win3_3.index t a * S512x1024.size a ≤ (i a).val
      ∧ (i a).val < win3_3.index t a * S512x1024.size a + S512x1024.size a := by
  show i ∈ ((View.whole main_v17).slice (win3_3.rect t)).set ↔ _
  rw [View.set_slice_whole, Rect.mem_set_unit]
  exact Iff.rfl

/-- Every index of the result array is in some point's block: row `r` is in block `r / 512`. -/
theorem cover3 (i : S4096x1024.Idx) :
    ∃ t : Fin cfg3.N, (cfg3.win 3).flush t = true ∧ i ∈ ((cfg3.win 3).blk t).view.set := by
  have hi0 : (i 0).val < 4096 := (i 0).isLt
  have hi1 : (i 1).val < 1024 := (i 1).isLt
  have hN : grid3.N = 8 := N_3
  have ht : (i 0).val / 512 < cfg3.N := by show (i 0).val / 512 < grid3.N; omega
  obtain ⟨_, _, _, _, _, _, e30, e31⟩ := idx_facts3 ⟨(i 0).val / 512, ht⟩
  have e30' : win3_3.index ⟨(i 0).val / 512, ht⟩ (0 : Fin 2) = (i 0).val / 512 := e30
  refine ⟨⟨(i 0).val / 512, ht⟩, flush3_3 _, ?_⟩
  rw [mem_blk3]
  intro a
  match a with
  | ⟨0, _⟩ =>
    show win3_3.index ⟨(i 0).val / 512, ht⟩ (0 : Fin 2) * 512 ≤ (i 0).val
      ∧ (i 0).val < win3_3.index ⟨(i 0).val / 512, ht⟩ (0 : Fin 2) * 512 + 512
    omega
  | ⟨1, _⟩ =>
    show win3_3.index ⟨(i 0).val / 512, ht⟩ (1 : Fin 2) * 1024 ≤ (i 1).val
      ∧ (i 1).val < win3_3.index ⟨(i 0).val / 512, ht⟩ (1 : Fin 2) * 1024 + 1024
    omega

/-- The result array after all write-backs is `G` of the arrays as the region finds them. -/
theorem final3_fun (c : Dev nD) :
    (dat3 (F := Ideal) V c).arrAt 3 cfg3.N = G3 (V c main_v15) (V c main_v10) (V c main_v16) :=
  (dat3 (F := Ideal) V c).arrAt_eq_of_cover 3 (G3 (V c main_v15) (V c main_v10) (V c main_v16))
    (fun t _ => flushed3_eq V c t) cover3

/-- `G` at explicit coordinates: row `r` of the left operand against column `o` of the weights, plus the bias at `o`. -/
theorem G3_apply (a0 : S4096x1024.Idx → EReal) (a1 : S1024x1024.Idx → EReal) (a2 : S1x1024.Idx → EReal)
    (r : Fin 4096) (o : Fin 1024) :
    G3 a0 a1 a2 (ix2 r o) = (∑ e : Fin 1024, a0 (ix2 r e) * a1 (ix2 e o)) + a2 (ix2 (0 : Fin 1) o) := rfl

/-- The result array after all write-backs, at explicit coordinates. -/
theorem final3 (c : Dev nD) (r : Fin 4096) (o : Fin 1024) :
    (dat3 (F := Ideal) V c).arrAt 3 cfg3.N (ix2 r o) = G3 (V c main_v15) (V c main_v10) (V c main_v16) (ix2 r o) :=
  congrFun (final3_fun V c) (ix2 r o)

end Cert.KernelIdeal.Final

end
-- ==== Proof.LibConcatCols.lean ====
/-
  Two blocks of equal width laid side by side.

  An `[a, b + b]` array formed by joining two `[a, b]` arrays along the column axis reads, at row `r` and column `c`,
  the left array at `(r, c)` when `c < b` and the right array at `(r, c - b)` otherwise.
-/
import Idealize.ShloMosaic.Lib.Pipeline.Value
import Idealize.ShloMosaic.Lib.ValueIdx

namespace Cert.Lib.ConcatCols

open Idealize.ShloMosaic Idealize.ShloMosaic.ValueIdx

/-- The join of two `[a, b]` arrays along columns, read at `(r, c)`: the left one below column `b`, the right one,
    shifted by `b`, from column `b` on. -/
theorem concat_cols_apply {α : Type} {a b n : ℕ} (hn : n = b + b) (x₁ x₂ : (⟨2, ![a, b]⟩ : Shape).Idx → α)
    (h : Shape.Concatenates [(⟨2, ![a, b]⟩ : Shape), (⟨2, ![a, b]⟩ : Shape)] (⟨2, ![a, n]⟩ : Shape) 1)
    (r : Fin a) (c : Fin n) :
    concatenate (⟨2, ![a, n]⟩ : Shape) 1 [⟨(⟨2, ![a, b]⟩ : Shape), x₁⟩, ⟨(⟨2, ![a, b]⟩ : Shape), x₂⟩] h (ix2 r c)
      = if hc : c.val < b then x₁ (ix2 r ⟨c.val, hc⟩)
        else x₂ (ix2 r ⟨c.val - b, by have := c.isLt; omega⟩) := by
  by_cases hc : c.val < b
  · rw [dif_pos hc]
    exact concatenate_pair_apply_left 1 x₁ x₂ h (ix2 r c) rfl (ix2 r ⟨c.val, hc⟩)
      (fun bb => by match bb with | ⟨0, _⟩ => rfl | ⟨1, _⟩ => rfl)
  · rw [dif_neg hc]
    exact concatenate_pair_apply_right 1 x₁ x₂ h (ix2 r c) rfl rfl (ix2 r ⟨c.val - b, by have := c.isLt; omega⟩)
      (fun bb hb => by match bb with | ⟨0, _⟩ => rfl | ⟨1, _⟩ => exact absurd rfl hb)
      (by show (c.val - b) + b = c.val; omega)

end Cert.Lib.ConcatCols
-- ==== Proof.HandKI.HostRead.lean ====
/-
  The kernel program's host operations between its launches, read at an index.

  The host only re-lays arrays: it flattens batch and token of the two inputs into 4096 rows, transposes the four weight
  matrices (a format change that is the identity on the extended reals follows each), lays the key and value weights,
  and the key and value biases, side by side, turns each bias vector into one row, and finally splits the 4096 rows of
  the last launch's result back into batch and token. Each lemma says which entry of which argument an entry of such
  an array is, for any contents `W` of the device's buffers.
-/
import proofs.«175174_j31018253812438_2_alg».proof.Proof.Gen.KernelIdeal.Launch
import proofs.«175174_j31018253812438_2_alg».proof.Proof.LibConcatCols
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostRead

open Cert.KernelIdeal Cert.KernelIdeal.Gen Idealize.ShloMosaic Idealize.ShloMosaic.ValueIdx Idealize.ShloMosaic.TcCoe

/-- Row `2048 b + s` of the flattened `[4096, 1024]` arrays: token `s` of batch entry `b`. -/
def row (b : Fin 2) (s : Fin 2048) : Fin 4096 := ⟨b.val * 2048 + s.val, by have := b.isLt; have := s.isLt; omega⟩

@[simp] theorem row_val (b : Fin 2) (s : Fin 2048) : (row b s).val = b.val * 2048 + s.val := rfl

variable (W : Valuation τ sig (Elt Ideal))

/-! ## The inputs flattened to 4096 rows -/

theorem v0 (b : Fin 2) (s : Fin 2048) (e : Fin 1024) :
    (StableHlo.after (hostOps0 (F := Ideal)) W (Proc.devRef .tc main_v0) : S4096x1024.Idx → EReal) (ix2 (row b s) e)
      = (W (Proc.devRef .tc main_arg0) : S2x2048x1024.Idx → EReal) (ix3 b s e) := by
  have e0 : (StableHlo.after (hostOps0 (F := Ideal)) W (Proc.devRef .tc main_v0) : S4096x1024.Idx → EReal)
      = shapeCast S4096x1024 (W (Proc.devRef .tc main_arg0) : S2x2048x1024.Idx → EReal) shapeCasts_S2x2048x1024_S4096x1024 := by
    after_results; rfl
  rw [e0]
  refine shapeCast_apply _ _ _ _ ?_
  show (S2x2048x1024.rowMajor (ix3 b s e)).val = (S4096x1024.rowMajor (ix2 (row b s) e)).val
  rw [Shape.rowMajor_val_three, Shape.rowMajor_val_two]
  rfl

theorem v1 (b : Fin 2) (s : Fin 2048) (e : Fin 1024) :
    (StableHlo.after (hostOps0 (F := Ideal)) W (Proc.devRef .tc main_v1) : S4096x1024.Idx → EReal) (ix2 (row b s) e)
      = (W (Proc.devRef .tc main_arg1) : S2x2048x1024.Idx → EReal) (ix3 b s e) := by
  have e0 : (StableHlo.after (hostOps0 (F := Ideal)) W (Proc.devRef .tc main_v1) : S4096x1024.Idx → EReal)
      = shapeCast S4096x1024 (W (Proc.devRef .tc main_arg1) : S2x2048x1024.Idx → EReal) shapeCasts_S2x2048x1024_S4096x1024 := by
    after_results; rfl
  rw [e0]
  refine shapeCast_apply _ _ _ _ ?_
  show (S2x2048x1024.rowMajor (ix3 b s e)).val = (S4096x1024.rowMajor (ix2 (row b s) e)).val
  rw [Shape.rowMajor_val_three, Shape.rowMajor_val_two]
  rfl

/-! ## The transposed weights -/

/-- A `[1024, 1024]` matrix transposed, at `(e, o)`: the matrix at `(o, e)`. -/
theorem transpose_sq_apply (x : S1024x1024.Idx → EReal) (e o : Fin 1024) :
    transpose S1024x1024 [1, 0] x transposes_S1024x1024_S1024x1024_1_0 (ix2 e o) = x (ix2 o e) :=
  transpose_apply [1, 0] x transposes_S1024x1024_S1024x1024_1_0 (ix2 e o) (ix2 o e) (fun b => match b with
    | ⟨0, _⟩ => rfl
    | ⟨1, _⟩ => rfl)

theorem v3 (e o : Fin 1024) :
    (StableHlo.after (hostOps0 (F := Ideal)) W (Proc.devRef .tc main_v3) : S1024x1024.Idx → EReal) (ix2 e o)
      = (W (Proc.devRef .tc main_arg3) : S1024x1024.Idx → EReal) (ix2 o e) := by
  have e0 : (StableHlo.after (hostOps0 (F := Ideal)) W (Proc.devRef .tc main_v3) : S1024x1024.Idx → EReal)
      = transpose S1024x1024 [1, 0] (W (Proc.devRef .tc main_arg3) : S1024x1024.Idx → EReal) transposes_S1024x1024_S1024x1024_1_0 := by
    after_results; rfl
  rw [e0]
  exact transpose_sq_apply _ e o

theorem v10 (e o : Fin 1024) :
    (StableHlo.after (hostOps0 (F := Ideal)) W (Proc.devRef .tc main_v10) : S1024x1024.Idx → EReal) (ix2 e o)
      = (W (Proc.devRef .tc main_arg9) : S1024x1024.Idx → EReal) (ix2 o e) := by
  have e0 : (StableHlo.after (hostOps0 (F := Ideal)) W (Proc.devRef .tc main_v10) : S1024x1024.Idx → EReal)
      = transpose S1024x1024 [1, 0] (W (Proc.devRef .tc main_arg9) : S1024x1024.Idx → EReal) transposes_S1024x1024_S1024x1024_1_0 := by
    after_results; rfl
  rw [e0]
  exact transpose_sq_apply _ e o

/-! ## Key and value weights, and biases, side by side -/

theorem v7 (e : Fin 1024) (j : Fin 2048) :
    (StableHlo.after (hostOps0 (F := Ideal)) W (Proc.devRef .tc main_v7) : S1024x2048.Idx → EReal) (ix2 e j)
      = if h : j.val < 1024 then (W (Proc.devRef .tc main_arg5) : S1024x1024.Idx → EReal) (ix2 ⟨j.val, h⟩ e)
        else (W (Proc.devRef .tc main_arg7) : S1024x1024.Idx → EReal) (ix2 ⟨j.val - 1024, by have := j.isLt; omega⟩ e) := by
  have e0 : (StableHlo.after (hostOps0 (F := Ideal)) W (Proc.devRef .tc main_v7) : S1024x2048.Idx → EReal)
      = concatenate S1024x2048 1
          [⟨S1024x1024, transpose S1024x1024 [1, 0] (W (Proc.devRef .tc main_arg5) : S1024x1024.Idx → EReal) transposes_S1024x1024_S1024x1024_1_0⟩,
           ⟨S1024x1024, transpose S1024x1024 [1, 0] (W (Proc.devRef .tc main_arg7) : S1024x1024.Idx → EReal) transposes_S1024x1024_S1024x1024_1_0⟩]
          concatenates_S1024x1024_S1024x1024_S1024x2048_d1 := by
    after_results; rfl
  rw [e0]
  refine (Cert.Lib.ConcatCols.concat_cols_apply (a := 1024) (b := 1024) (n := 2048) rfl _ _
    concatenates_S1024x1024_S1024x1024_S1024x2048_d1 e j).trans ?_
  by_cases h : j.val < 1024
  · rw [dif_pos h, dif_pos h]; exact transpose_sq_apply _ e ⟨j.val, h⟩
  · rw [dif_neg h, dif_neg h]; exact transpose_sq_apply _ e ⟨j.val - 1024, by have := j.isLt; omega⟩

theorem v8 (j : Fin 2048) :
    (StableHlo.after (hostOps0 (F := Ideal)) W (Proc.devRef .tc main_v8) : S2048.Idx → EReal) (ix1 j)
      = if h : j.val < 1024 then (W (Proc.devRef .tc main_arg6) : S1024.Idx → EReal) (ix1 ⟨j.val, h⟩)
        else (W (Proc.devRef .tc main_arg8) : S1024.Idx → EReal) (ix1 ⟨j.val - 1024, by have := j.isLt; omega⟩) := by
  have e0 : (StableHlo.after (hostOps0 (F := Ideal)) W (Proc.devRef .tc main_v8) : S2048.Idx → EReal)
      = concatenate S2048 0
          [⟨S1024, (W (Proc.devRef .tc main_arg6) : S1024.Idx → EReal)⟩, ⟨S1024, (W (Proc.devRef .tc main_arg8) : S1024.Idx → EReal)⟩]
          concatenates_S1024_S1024_S2048_d0 := by
    after_results
  rw [e0]
  by_cases h : j.val < 1024
  · rw [dif_pos h]
    exact concatenate_pair_apply_left 0 _ _ concatenates_S1024_S1024_S2048_d0 (ix1 j) rfl (ix1 ⟨j.val, h⟩)
      (fun bb => by match bb with | ⟨0, _⟩ => rfl)
  · rw [dif_neg h]
    exact concatenate_pair_apply_right 0 _ _ concatenates_S1024_S1024_S2048_d0 (ix1 j) rfl rfl
      (ix1 ⟨j.val - 1024, by have := j.isLt; omega⟩)
      (fun bb hb => by match bb with | ⟨0, _⟩ => exact absurd rfl hb)
      (by show (j.val - 1024) + 1024 = j.val; omega)

/-! ## Vectors as one row -/

/-- A length-`n` vector cast to one row `[1, n]`, at `(0, o)`: the vector at `o`. -/
theorem row_of_vec_apply {n : ℕ} (x : (⟨1, ![n]⟩ : Shape).Idx → EReal)
    (h : (⟨1, ![n]⟩ : Shape).ShapeCasts ⟨2, ![1, n]⟩) (o : Fin n) :
    shapeCast ⟨2, ![1, n]⟩ x h (ix2 (0 : Fin 1) o) = x (ix1 o) :=
  shapeCast_apply x h _ _ (by
    rw [Shape.rowMajor_val_one, Shape.rowMajor_val_two]
    show o.val = 0 * n + o.val
    omega)

theorem v11 (o : Fin 1024) :
    (StableHlo.after (hostOps0 (F := Ideal)) W (Proc.devRef .tc main_v11) : S1x1024.Idx → EReal) (ix2 (0 : Fin 1) o)
      = (W (Proc.devRef .tc main_arg4) : S1024.Idx → EReal) (ix1 o) := by
  have e0 : (StableHlo.after (hostOps0 (F := Ideal)) W (Proc.devRef .tc main_v11) : S1x1024.Idx → EReal)
      = shapeCast S1x1024 (W (Proc.devRef .tc main_arg4) : S1024.Idx → EReal) shapeCasts_S1024_S1x1024 := by
    after_results; rfl
  rw [e0]
  exact row_of_vec_apply _ shapeCasts_S1024_S1x1024 o

theorem v13 (j : Fin 2048) :
    (StableHlo.after (hostOps1 (F := Ideal)) W (Proc.devRef .tc main_v13) : S1x2048.Idx → EReal) (ix2 (0 : Fin 1) j)
      = (W (Proc.devRef .tc main_v8) : S2048.Idx → EReal) (ix1 j) := by
  have e0 : (StableHlo.after (hostOps1 (F := Ideal)) W (Proc.devRef .tc main_v13) : S1x2048.Idx → EReal)
      = shapeCast S1x2048 (W (Proc.devRef .tc main_v8) : S2048.Idx → EReal) shapeCasts_S2048_S1x2048 := by
    after_results; rfl
  rw [e0]
  exact row_of_vec_apply _ shapeCasts_S2048_S1x2048 j

theorem v16 (o : Fin 1024) :
    (StableHlo.after (hostOps3 (F := Ideal)) W (Proc.devRef .tc main_v16) : S1x1024.Idx → EReal) (ix2 (0 : Fin 1) o)
      = (W (Proc.devRef .tc main_arg10) : S1024.Idx → EReal) (ix1 o) := by
  have e0 : (StableHlo.after (hostOps3 (F := Ideal)) W (Proc.devRef .tc main_v16) : S1x1024.Idx → EReal)
      = shapeCast S1x1024 (W (Proc.devRef .tc main_arg10) : S1024.Idx → EReal) shapeCasts_S1024_S1x1024 := by
    after_results; rfl
  rw [e0]
  exact row_of_vec_apply _ shapeCasts_S1024_S1x1024 o

/-! ## The result split back into batch and token -/

theorem v18 (b : Fin 2) (s : Fin 2048) (o : Fin 1024) :
    (StableHlo.after (hostOps4 (F := Ideal)) W (Proc.devRef .tc main_v18) : S2x2048x1024.Idx → EReal) (ix3 b s o)
      = (W (Proc.devRef .tc main_v17) : S4096x1024.Idx → EReal) (ix2 (row b s) o) := by
  have e0 : (StableHlo.after (hostOps4 (F := Ideal)) W (Proc.devRef .tc main_v18) : S2x2048x1024.Idx → EReal)
      = shapeCast S2x2048x1024 (W (Proc.devRef .tc main_v17) : S4096x1024.Idx → EReal) shapeCasts_S4096x1024_S2x2048x1024 := by
    after_results; rfl
  rw [e0]
  refine shapeCast_apply _ _ _ _ ?_
  show (S4096x1024.rowMajor (ix2 (row b s) o)).val = (S2x2048x1024.rowMajor (ix3 b s o)).val
  rw [Shape.rowMajor_val_three, Shape.rowMajor_val_two]
  rfl

end Cert.KernelIdeal.HostRead

end
-- ==== Proof.HandKI.KValue.lean ====
/-
  The kernel program's result, at the extended reals, as the specification of its eleven arguments.

  Region by region: the array a region leaves is one function of the arrays it reads (the projections: rows times the
  transposed weight plus the bias row; attention: per batch entry and head the softmax of the scaled scores weighting
  the value rows), and the arrays it reads are either an earlier region's result or what the first host stretch
  made of the arguments (x and y flattened to 4096 rows, the weights transposed, the key and value weights and biases
  laid side by side). Reading each at an index: a query row is `lin (x b i) Wq bq`; column `64 h + d` of the fused
  projection is the key row's feature and column `1024 + 64 h + d` the value row's; an attention entry is
  `Spec.attn` of those rows; the output row is `lin` of the attention row with `Wo`, `bo`; the last host stretch
  folds the 4096 rows back to [2, 2048, 1024].
-/
import proofs.«175174_j31018253812438_2_alg».proof.Proof.HandKI.Boundaries
import proofs.«175174_j31018253812438_2_alg».proof.Proof.HandKI.Final0
import proofs.«175174_j31018253812438_2_alg».proof.Proof.HandKI.Final1
import proofs.«175174_j31018253812438_2_alg».proof.Proof.HandKI.Final2
import proofs.«175174_j31018253812438_2_alg».proof.Proof.HandKI.Final3
import proofs.«175174_j31018253812438_2_alg».proof.Proof.HandKI.HostRead
import proofs.«175174_j31018253812438_2_alg».proof.Proof.Spec

noncomputable section

namespace Cert.KernelIdeal.KValue

open Cert.KernelIdeal Cert.KernelIdeal.Gen Cert.KernelIdeal.Hand Cert.KernelIdeal.Final
open Idealize.ShloMosaic Idealize.ShloMosaic.TcCoe Idealize.ShloMosaic.ValueIdx Idealize.SL.Sem

variable (m : (ℓ : Loc nD τ sig) → Buf (Elt Ideal) ℓ) (c : Dev nD)

/-! ## The arguments, as functions of their coordinates -/

abbrev aX : S2x2048x1024.Idx → EReal := m ((c : Thread nD τ).loc main_arg0)
abbrev aY : S2x2048x1024.Idx → EReal := m ((c : Thread nD τ).loc main_arg1)
abbrev aWq : S1024x1024.Idx → EReal := m ((c : Thread nD τ).loc main_arg3)
abbrev abq : S1024.Idx → EReal := m ((c : Thread nD τ).loc main_arg4)
abbrev aWk : S1024x1024.Idx → EReal := m ((c : Thread nD τ).loc main_arg5)
abbrev abk : S1024.Idx → EReal := m ((c : Thread nD τ).loc main_arg6)
abbrev aWv : S1024x1024.Idx → EReal := m ((c : Thread nD τ).loc main_arg7)
abbrev abv : S1024.Idx → EReal := m ((c : Thread nD τ).loc main_arg8)
abbrev aWo : S1024x1024.Idx → EReal := m ((c : Thread nD τ).loc main_arg9)
abbrev abo : S1024.Idx → EReal := m ((c : Thread nD τ).loc main_arg10)

/-- The projected query, key and value rows of batch entry `b`. -/
def qRow (b : Fin 2) (i : Fin 2048) : Fin 1024 → EReal :=
  Cert.Spec.lin (fun e => aX m c (ix3 b i e)) (fun o e => aWq m c (ix2 o e)) (fun o => abq m c (ix1 o))
def kRow (b : Fin 2) (j : Fin 2048) : Fin 1024 → EReal :=
  Cert.Spec.lin (fun e => aY m c (ix3 b j e)) (fun o e => aWk m c (ix2 o e)) (fun o => abk m c (ix1 o))
def vRow (b : Fin 2) (j : Fin 2048) : Fin 1024 → EReal :=
  Cert.Spec.lin (fun e => aY m c (ix3 b j e)) (fun o e => aWv m c (ix2 o e)) (fun o => abv m c (ix1 o))

/-! ## The projections -/

/-- Region 0's result, read where region 2 reads it: row `2048 b + i` is the query row of token `i` of batch `b`. -/
theorem q_entry (b : Fin 2) (i : Fin 2048) (o : Fin 1024) :
    (Hand.V4 m c main_v12 : S4096x1024.Idx → EReal) (ix2 (row b i) o) = qRow m c b i o := by
  refine (congrFun ((q_at m c).trans (final0_fun (Hand.V1 m) c)) (ix2 (row b i) o)).trans ?_
  rw [G0_apply]
  unfold qRow Cert.Spec.lin
  exact congrArg₂ (· + ·) (Finset.sum_congr rfl fun e _ => congrArg₂ (· * ·)
    (HostRead.v0 (W0 m c) b i e) (HostRead.v3 (W0 m c) e o)) (HostRead.v11 (W0 m c) o)

/-- The fused weight's column `j`, below 1024: the key weight's row `j`. -/
theorem wkv_lo (e : Fin 1024) (o : Fin 1024) (j : Fin 2048) (hj : j.val = o.val) :
    (Hand.V1 m c main_v7 : S1024x2048.Idx → EReal) (ix2 e j) = aWk m c (ix2 o e) := by
  refine (HostRead.v7 (W0 m c) e j).trans ?_
  have hlt : j.val < 1024 := by have := o.isLt; omega
  rw [dif_pos hlt]
  exact congrArg (aWk m c) (congrArg (fun x => ix2 x e) (Fin.ext hj))

/-- From 1024 on: the value weight's row `j - 1024`. -/
theorem wkv_hi (e : Fin 1024) (o : Fin 1024) (j : Fin 2048) (hj : j.val = 1024 + o.val) :
    (Hand.V1 m c main_v7 : S1024x2048.Idx → EReal) (ix2 e j) = aWv m c (ix2 o e) := by
  refine (HostRead.v7 (W0 m c) e j).trans ?_
  have hlt : ¬ j.val < 1024 := by omega
  rw [dif_neg hlt]
  exact congrArg (aWv m c) (congrArg (fun x => ix2 x e) (Fin.ext (by show j.val - 1024 = o.val; omega)))

/-- The fused bias row as region 1 reads it: the key bias below 1024, the value bias from 1024 on. -/
theorem bkv_lo (o : Fin 1024) (j : Fin 2048) (hj : j.val = o.val) :
    (Hand.V3 m c main_v13 : S1x2048.Idx → EReal) (ix2 (0 : Fin 1) j) = abk m c (ix1 o) := by
  refine (HostRead.v13 (W2 m c) j).trans ?_
  refine (congrFun (bkv_at m c) (ix1 j)).trans ?_
  refine (HostRead.v8 (W0 m c) j).trans ?_
  have hlt : j.val < 1024 := by have := o.isLt; omega
  rw [dif_pos hlt]
  exact congrArg (abk m c) (congrArg ix1 (Fin.ext hj))
theorem bkv_hi (o : Fin 1024) (j : Fin 2048) (hj : j.val = 1024 + o.val) :
    (Hand.V3 m c main_v13 : S1x2048.Idx → EReal) (ix2 (0 : Fin 1) j) = abv m c (ix1 o) := by
  refine (HostRead.v13 (W2 m c) j).trans ?_
  refine (congrFun (bkv_at m c) (ix1 j)).trans ?_
  refine (HostRead.v8 (W0 m c) j).trans ?_
  have hlt : ¬ j.val < 1024 := by omega
  rw [dif_neg hlt]
  exact congrArg (abv m c) (congrArg ix1 (Fin.ext (by show j.val - 1024 = o.val; omega)))

/-- Region 1's result, read where region 2 reads it: row `2048 b + j`, column `o` below 1024, is the key row's
    feature `o`; -/
theorem k_entry (b : Fin 2) (j : Fin 2048) (o : Fin 1024) (col : Fin 2048) (hcol : col.val = o.val) :
    (Hand.V4 m c main_v14 : S4096x2048.Idx → EReal) (ix2 (row b j) col) = kRow m c b j o := by
  refine (congrFun ((kv_at m c).trans (final1_fun (Hand.V3 m) c)) (ix2 (row b j) col)).trans ?_
  rw [G1_apply]
  unfold kRow Cert.Spec.lin
  exact congrArg₂ (· + ·) (Finset.sum_congr rfl fun e _ => congrArg₂ (· * ·)
    ((congrFun (y_at m c) _).trans (HostRead.v1 (W0 m c) b j e))
    ((congrFun (wkv_at m c) _).trans (wkv_lo m c e o col hcol))) (bkv_lo m c o col hcol)

/-- column `1024 + o` is the value row's feature `o`. -/
theorem v_entry (b : Fin 2) (j : Fin 2048) (o : Fin 1024) (col : Fin 2048) (hcol : col.val = 1024 + o.val) :
    (Hand.V4 m c main_v14 : S4096x2048.Idx → EReal) (ix2 (row b j) col) = vRow m c b j o := by
  refine (congrFun ((kv_at m c).trans (final1_fun (Hand.V3 m) c)) (ix2 (row b j) col)).trans ?_
  rw [G1_apply]
  unfold vRow Cert.Spec.lin
  exact congrArg₂ (· + ·) (Finset.sum_congr rfl fun e _ => congrArg₂ (· * ·)
    ((congrFun (y_at m c) _).trans (HostRead.v1 (W0 m c) b j e))
    ((congrFun (wkv_at m c) _).trans (wkv_hi m c e o col hcol))) (bkv_hi m c o col hcol)

/-! ## Attention -/

theorem headOf_headCol (h : Fin 16) (d : Fin 64) : Cert.Spec.headOf (Cert.Spec.headCol h d) = h :=
  Fin.ext (by show (h.val * 64 + d.val) / 64 = h.val; have := d.isLt; omega)

/-- Every feature is a lane of its head. -/
theorem headCol_headOf (e : Fin 1024) :
    Cert.Spec.headCol (Cert.Spec.headOf e) ⟨e.val % 64, Nat.mod_lt _ (by decide)⟩ = e :=
  Fin.ext (by show e.val / 64 * 64 + e.val % 64 = e.val; omega)

/-- Region 2's result, read where region 3 reads it: row `2048 b + i`, lane `d` of head `h`, is the attention
    output of query row `i` of batch `b` at that feature. -/
theorem a_entry_head (b : Fin 2) (i : Fin 2048) (h : Fin 16) (d : Fin 64) :
    (Hand.V6 m c main_v15 : S4096x1024.Idx → EReal) (ix2 (row b i) (Cert.Spec.headCol h d))
      = Cert.Spec.attn (qRow m c b) (kRow m c b) (vRow m c b) i (Cert.Spec.headCol h d) := by
  refine (congrFun ((a_at m c).trans (final2_fun (Hand.V4 m) c)) (ix2 (row b i) (Cert.Spec.headCol h d))).trans ?_
  show (_ : EReal) = _
  rw [G2_apply]
  unfold Cert.Spec.attn Cert.Spec.score
  rw [headOf_headCol]
  exact Finset.sum_congr rfl fun j _ => congrArg₂ (· * ·)
    (congrArg (fun f => Cert.Lib.RowSoftmax.softmaxOf f j) (funext fun j' => congrArg (· * Cert.Spec.scale)
      (Finset.sum_congr rfl fun d' _ => congrArg₂ (· * ·)
        (q_entry m c b i (Cert.Spec.headCol h d')) (k_entry m c b j' (Cert.Spec.headCol h d') (kcol h d') rfl))))
    (v_entry m c b j (Cert.Spec.headCol h d) (vcol h d) (by show 1024 + h.val * 64 + d.val = 1024 + (h.val * 64 + d.val); omega))

theorem a_entry (b : Fin 2) (i : Fin 2048) (e : Fin 1024) :
    (Hand.V6 m c main_v15 : S4096x1024.Idx → EReal) (ix2 (row b i) e)
      = Cert.Spec.attn (qRow m c b) (kRow m c b) (vRow m c b) i e := by
  have h := a_entry_head m c b i (Cert.Spec.headOf e) ⟨e.val % 64, Nat.mod_lt _ (by decide)⟩
  rw [headCol_headOf] at h
  exact h

/-! ## The output projection and the result -/

/-- Region 3's result: row `2048 b + s` is the specification's output row of token `s` of batch `b`. -/
theorem out_entry (b : Fin 2) (s : Fin 2048) (o : Fin 1024) :
    (W7 m c (Proc.devRef .tc main_v17) : S4096x1024.Idx → EReal) (ix2 (row b s) o)
      = Cert.Spec.out (fun b s e => aX m c (ix3 b s e)) (fun b s e => aY m c (ix3 b s e))
          (fun o e => aWq m c (ix2 o e)) (fun o => abq m c (ix1 o)) (fun o e => aWk m c (ix2 o e)) (fun o => abk m c (ix1 o))
          (fun o e => aWv m c (ix2 o e)) (fun o => abv m c (ix1 o)) (fun o e => aWo m c (ix2 o e)) (fun o => abo m c (ix1 o)) b s o := by
  refine (congrFun ((o_at m c).trans (final3_fun (Hand.V6 m) c)) (ix2 (row b s) o)).trans ?_
  rw [G3_apply]
  show (_ : EReal) = Cert.Spec.lin (Cert.Spec.attn (qRow m c b) (kRow m c b) (vRow m c b) s) (fun o e => aWo m c (ix2 o e)) (fun o => abo m c (ix1 o)) o
  unfold Cert.Spec.lin
  exact congrArg₂ (· + ·) (Finset.sum_congr rfl fun e _ => congrArg₂ (· * ·)
    (a_entry m c b s e) ((congrFun (wo_at m c) _).trans (HostRead.v10 (W0 m c) e o)))
    ((HostRead.v16 (W5 m c) o).trans (congrFun (bo_at m c) (ix1 o)))

/-- THE VALUE: the result array at the end is the specification of the eleven argument arrays. -/
theorem value :
    (W8 m c (Proc.devRef .tc main_v18) : S2x2048x1024.Idx → EReal)
      = Cert.Spec.outArr (aX m c) (aY m c) (aWq m c) (abq m c) (aWk m c) (abk m c) (aWv m c) (abv m c) (aWo m c) (abo m c) := by
  funext i
  obtain ⟨b, s, o, rfl⟩ : ∃ (b : Fin 2) (s : Fin 2048) (o : Fin 1024), i = ix3 b s o := ⟨i 0, i 1, i 2, eq_ix3 i⟩
  rw [Cert.Spec.outArr_apply]
  exact (HostRead.v18 (W7 m c) b s o).trans (out_entry m c b s o)

/-- The run with the value: every weakly fair execution of the idealized kernel program terminates with the result
    array at the specification of the arguments and the arguments as launched. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v18)
        = Cert.Spec.outArr (m ((c.tc : Thread nD τ).loc main_arg0)) (m ((c.tc : Thread nD τ).loc main_arg1)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg7)) (m ((c.tc : Thread nD τ).loc main_arg8)) (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_v18 (by decide))).trans (value m c),
    (h c _ (mem_uc main_arg0 (by decide))).trans (W8_of m c main_arg0 (by decide) (by decide) (by decide) (by decide) (by decide) (by decide) (by decide) (by decide)),
    (h c _ (mem_uc main_arg1 (by decide))).trans (W8_of m c main_arg1 (by decide) (by decide) (by decide) (by decide) (by decide) (by decide) (by decide) (by decide)),
    (h c _ (mem_uc main_arg2 (by decide))).trans (W8_of m c main_arg2 (by decide) (by decide) (by decide) (by decide) (by decide) (by decide) (by decide) (by decide)),
    (h c _ (mem_uc main_arg3 (by decide))).trans (W8_of m c main_arg3 (by decide) (by decide) (by decide) (by decide) (by decide) (by decide) (by decide) (by decide)),
    (h c _ (mem_uc main_arg4 (by decide))).trans (W8_of m c main_arg4 (by decide) (by decide) (by decide) (by decide) (by decide) (by decide) (by decide) (by decide)),
    (h c _ (mem_uc main_arg5 (by decide))).trans (W8_of m c main_arg5 (by decide) (by decide) (by decide) (by decide) (by decide) (by decide) (by decide) (by decide)),
    (h c _ (mem_uc main_arg6 (by decide))).trans (W8_of m c main_arg6 (by decide) (by decide) (by decide) (by decide) (by decide) (by decide) (by decide) (by decide)),
    (h c _ (mem_uc main_arg7 (by decide))).trans (W8_of m c main_arg7 (by decide) (by decide) (by decide) (by decide) (by decide) (by decide) (by decide) (by decide)),
    (h c _ (mem_uc main_arg8 (by decide))).trans (W8_of m c main_arg8 (by decide) (by decide) (by decide) (by decide) (by decide) (by decide) (by decide) (by decide)),
    (h c _ (mem_uc main_arg9 (by decide))).trans (W8_of m c main_arg9 (by decide) (by decide) (by decide) (by decide) (by decide) (by decide) (by decide) (by decide)),
    (h c _ (mem_uc main_arg10 (by decide))).trans (W8_of m c main_arg10 (by decide) (by decide) (by decide) (by decide) (by decide) (by decide) (by decide) (by decide))⟩) (run_all m ρ)

end Cert.KernelIdeal.KValue

end
-- ==== Proof.RefSpecLin.lean ====
/-
  The reference's linear projections and its split into heads, read at an index.

  A projection is a contraction over the 1024 input features plus a bias spread over batch and token:
  entry `(b, s, o)` is `(∑ e, X (b, s, e) * W (o, e)) + bias o`, the specification's `lin` of token row `(b, s)`.
  The reshape to `[2, 2048, 16, 64]` followed by the transpose `[0, 2, 1, 3]` only renames coordinates: entry
  `(b, h, i, d)` of the result is entry `(b, i, 64 h + d)` of the projection, because both sit at the same
  row-major position `((2048 b + i) 16 + h) 64 + d`.
-/
import proofs.«175174_j31018253812438_2_alg».proof.Proof.Gen.ReferenceIdeal.Read
import proofs.«175174_j31018253812438_2_alg».proof.Proof.Spec

noncomputable section

namespace Cert.RefSpec

open Cert.ReferenceIdeal Cert.ReferenceIdeal.Gen Cert.ReferenceIdeal.Read Idealize.ShloMosaic Idealize.ShloMosaic.ValueIdx

/-- The three argument array types, as the generated stages spell them. -/
abbrev Arr3 : Type := (⟨S2x2048x1024, .f32⟩ : BufTy).Contents (Elt Ideal)
abbrev Arr2 : Type := (⟨S1024x1024, .f32⟩ : BufTy).Contents (Elt Ideal)
abbrev Arr1 : Type := (⟨S1024, .f32⟩ : BufTy).Contents (Elt Ideal)

/-- A projection at `(b, s, o)`: the specification's `lin` of the token row `(b, s)`. -/
theorem lin_apply (X : Arr3) (W : Arr2) (B : Arr1) (b : Fin 2) (s : Fin 2048) (o : Fin 1024) :
    val_main_v3 (F := Ideal) X W B (ix3 b s o)
      = Cert.Spec.lin (fun e => X (ix3 b s e)) (fun o e => W (ix2 o e)) (fun o => B (ix1 o)) o := by
  rw [val_main_v3_apply, val_main_v0_apply, val_main_v2_apply, val_main_v1_apply]
  have e1 : ∀ k : Fin 1024, lidx_main_v0 (ix3 b s o) k = ix3 b s k := fun k => funext fun a => by
    match a with
    | ⟨0, _⟩ => rfl
    | ⟨1, _⟩ => rfl
    | ⟨2, _⟩ => rfl
  have e2 : ∀ k : Fin 1024, ridx_main_v0 (ix3 b s o) k = ix2 o k := fun k => funext fun a => by
    match a with
    | ⟨0, _⟩ => rfl
    | ⟨1, _⟩ => rfl
  have e3 : idx_main_v1 (idx_main_v2 (ix3 b s o)) = ix1 o := funext fun a => by
    match a with
    | ⟨0, _⟩ => rfl
  show (∑ k : Fin 1024, X (lidx_main_v0 (ix3 b s o) k) * W (ridx_main_v0 (ix3 b s o) k))
      + B (idx_main_v1 (idx_main_v2 (ix3 b s o))) = (∑ e : Fin 1024, X (ix3 b s e) * W (ix2 o e)) + B (ix1 o)
  refine congrArg₂ (· + ·) (Finset.sum_congr rfl fun k _ => ?_) (congrArg B e3)
  exact congrArg₂ (· * ·) (congrArg X (e1 k)) (congrArg W (e2 k))

/-- The key and value projections are the same stage as the query projection, of other arguments. -/
theorem v9_eq (X : Arr3) (W : Arr2) (B : Arr1) : val_main_v9 (F := Ideal) X W B = val_main_v3 (F := Ideal) X W B := rfl
theorem v15_eq (X : Arr3) (W : Arr2) (B : Arr1) : val_main_v15 (F := Ideal) X W B = val_main_v3 (F := Ideal) X W B := rfl

/-- The split into heads at `(b, h, i, d)`: the projection at `(b, i, 64 h + d)`. -/
theorem heads_apply (X : Arr3) (W : Arr2) (B : Arr1) (b : Fin 2) (h : Fin 16) (i : Fin 2048) (d : Fin 64) :
    val_main_v5 (F := Ideal) X W B (ix4 b h i d) = val_main_v3 (F := Ideal) X W B (ix3 b i (Cert.Spec.headCol h d)) := by
  rw [val_main_v5_apply, val_main_v4_apply]
  refine congrArg _ (funext fun a => Fin.ext ?_)
  have hb := b.isLt; have hh := h.isLt; have hi := i.isLt; have hd := d.isLt
  match a with
  | ⟨0, _⟩ => show (((b.val * 2048 + i.val) * 16 + h.val) * 64 + d.val) / 2097152 = b.val; omega
  | ⟨1, _⟩ => show (((b.val * 2048 + i.val) * 16 + h.val) * 64 + d.val) / 1024 % 2048 = i.val; omega
  | ⟨2, _⟩ => show (((b.val * 2048 + i.val) * 16 + h.val) * 64 + d.val) % 1024 = h.val * 64 + d.val; omega

theorem v11_eq (X : Arr3) (W : Arr2) (B : Arr1) : val_main_v11 (F := Ideal) X W B = val_main_v5 (F := Ideal) X W B := rfl
theorem v17_eq (X : Arr3) (W : Arr2) (B : Arr1) : val_main_v17 (F := Ideal) X W B = val_main_v5 (F := Ideal) X W B := rfl

/-- A head's lane `d` of token `i`: the specification's projected row at feature `headCol h d`. -/
theorem heads_lin (X : Arr3) (W : Arr2) (B : Arr1) (b : Fin 2) (h : Fin 16) (i : Fin 2048) (d : Fin 64) :
    val_main_v5 (F := Ideal) X W B (ix4 b h i d)
      = Cert.Spec.lin (fun e => X (ix3 b i e)) (fun o e => W (ix2 o e)) (fun o => B (ix1 o)) (Cert.Spec.headCol h d) :=
  (heads_apply X W B b h i d).trans (lin_apply X W B b i _)

end Cert.RefSpec

end
-- ==== Proof.RefSpecScale.lean ====
/-
  The one arithmetic law of the reference side: dividing an extended real by the square root of the head width 64
  is multiplying it by one eighth. The word 0x42800000 denotes 64, its square root is the real 8, division by a
  nonzero real is the product with its reciprocal at every extended real (the infinities included), and the word
  0x3E000000 denotes 1/8.
-/
import proofs.«175174_j31018253812438_2_alg».proof.Proof.Spec

noncomputable section

namespace Cert.RefSpec

open Idealize.ShloMosaic

/-- The word of `64.0` denotes the real 64. -/
theorem ofBits_64 : Ideal.ofBits .f32 0x42800000#32 = ((64 : ℝ) : EReal) := by
  simp [Ideal.ofBits, Ideal.ieee, -EReal.coe_mul]; norm_num

/-- The word of `0.125` denotes the real 1/8. -/
theorem ofBits_eighth : Ideal.ofBits .f32 0x3E000000#32 = ((1 / 8 : ℝ) : EReal) := by
  simp [Ideal.ofBits, Ideal.ieee, -EReal.coe_mul]; norm_num

/-- The square root of 64 is 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num]
  exact Real.sqrt_sq (by norm_num)

/-- Division by `√64` is multiplication by the attention scale, on every extended real. -/
theorem div_sqrt_64 (x : EReal) :
    Ideal.div x (Ideal.sqrt (Ideal.ofBits .f32 0x42800000#32)) = x * Cert.Spec.scale := by
  rw [ofBits_64, sqrt_64, Ideal.div_coe (by norm_num : (8 : ℝ) ≠ 0)]
  exact congrArg (x * ·) ofBits_eighth.symm

end Cert.RefSpec

end
-- ==== Proof.RefSpecScore.lean ====
/-
  The reference's scaled scores, read at an index.

  Entry `(b, h, i, j)` of the batched contraction of the query heads with the key heads is the sum over the 64 lanes
  `d` of `q (b, h, i, d) * k (b, h, j, d)`; dividing by `√64` multiplies it by the attention scale. With the heads read
  as features `64 h + d` of the projections, this is the specification's `score`.
-/
import proofs.«175174_j31018253812438_2_alg».proof.Proof.RefSpecLin
import proofs.«175174_j31018253812438_2_alg».proof.Proof.RefSpecScale

noncomputable section

namespace Cert.RefSpec

open Cert.ReferenceIdeal Cert.ReferenceIdeal.Gen Cert.ReferenceIdeal.Read Idealize.ShloMosaic Idealize.ShloMosaic.ValueIdx

/-- The scaled score at `(b, h, i, j)`. -/
theorem score_apply (x0 x1 : Arr3) (x3 : Arr2) (x4 : Arr1) (x5 : Arr2) (x6 : Arr1)
    (b : Fin 2) (h : Fin 16) (i j : Fin 2048) :
    val_main_v21 (F := Ideal) x0 x1 x3 x4 x5 x6 (ix4 b h i j)
      = Cert.Spec.score
          (fun i' => Cert.Spec.lin (fun e => x0 (ix3 b i' e)) (fun o e => x3 (ix2 o e)) (fun o => x4 (ix1 o)))
          (fun j' => Cert.Spec.lin (fun e => x1 (ix3 b j' e)) (fun o e => x5 (ix2 o e)) (fun o => x6 (ix1 o))) h i j := by
  rw [val_main_v21_apply, val_main_v18_apply, val_main_v20_apply, val_main_v19_apply, val_main_cst_apply]
  show Ideal.div _ (Ideal.sqrt (Ideal.ofBits .f32 0x42800000#32)) = _
  rw [div_sqrt_64]
  unfold Cert.Spec.score
  refine congrArg (· * Cert.Spec.scale) (Finset.sum_congr rfl fun d _ => ?_)
  have e1 : lidx_main_v18 (ix4 b h i j) d = ix4 b h i d := funext fun a => by
    match a with
    | ⟨0, _⟩ => rfl
    | ⟨1, _⟩ => rfl
    | ⟨2, _⟩ => rfl
    | ⟨3, _⟩ => rfl
  have e2 : ridx_main_v18 (ix4 b h i j) d = ix4 b h j d := funext fun a => by
    match a with
    | ⟨0, _⟩ => rfl
    | ⟨1, _⟩ => rfl
    | ⟨2, _⟩ => rfl
    | ⟨3, _⟩ => rfl
  rw [e1, e2, v11_eq, heads_lin, heads_lin]

end Cert.RefSpec

end
-- ==== Proof.RefSpecSoftmax.lean ====
/-
  The reference's softmax over the keys, read at an index.

  With `s` the scaled scores, the reference takes the maximum of each row `(b, h, i)` over the 2048 keys by a fold
  from `-∞`, takes the maximum of that with `-∞` once more (which changes nothing), subtracts it, exponentiates,
  sums each row from `0`, and divides. Entry `(b, h, i, j)` of the result depends on row `(b, h, i)` of `s` only:
  it is the softmax of `fun j' => s (b, h, i, j')` at `j`.
-/
import proofs.«175174_j31018253812438_2_alg».proof.Proof.RefSpecLin

noncomputable section

namespace Cert.RefSpec

open Cert.ReferenceIdeal Cert.ReferenceIdeal.Gen Cert.ReferenceIdeal.Read Idealize.ShloMosaic Idealize.ShloMosaic.ValueIdx
open Cert.Lib.RowSoftmax (negInf maxOf weightOf softmaxOf max_negInf_maxOf)

/-- The row index `(b, h, i)` with key `k` inserted on the last axis is `(b, h, i, k)`. -/
theorem lift_key (hr : S2x16x2048x2048.Reduces [3] S2x16x2048) (b : Fin 2) (h : Fin 16) (i : Fin 2048) (k : Fin 2048) :
    hr.lift (ix3 b h i) k = ix4 b h i k := by
  funext c; apply Fin.ext
  match c with
  | ⟨0, _⟩ => rfl
  | ⟨1, _⟩ => rfl
  | ⟨2, _⟩ => rfl
  | ⟨3, _⟩ => rfl

section
variable (x0 x1 : Arr3) (x3 : Arr2) (x4 : Arr1) (x5 : Arr2) (x6 : Arr1) (b : Fin 2) (h : Fin 16) (i : Fin 2048)

/-- A reduction with a maximum body over the keys, started from `-∞`, at row `(b, h, i)`: the maximum, folded from `-∞`,
    of that row. The body is commutative and associative, so the fold is over the keys in any order. -/
theorem hostMax_apply (y : FVec Ideal S2x16x2048x2048 .f32) :
    Host.reduce (FloatOps.maximumf (F := Ideal) (φ := .f32)) y (constant (F := Ideal) S_ .f32 0xFF800000#32)
        reducesTo_S2x16x2048x2048_S2x16x2048_d3 h_S_ (ix3 b h i)
      = maxOf (fun j : Fin 2048 => y (ix4 b h i j)) := by
  have hr : S2x16x2048x2048.Reduces [3] S2x16x2048 := by decide
  refine (Host.reduce_eq_fold_single (FloatOps.maximumf (F := Ideal) (φ := .f32)) y _
    reducesTo_S2x16x2048x2048_S2x16x2048_d3 hr h_S_ (ix3 b h i)).trans ?_
  show (Finset.univ : Finset (Fin 2048)).fold max negInf (fun k => y (hr.lift (ix3 b h i) k)) = _
  exact congrArg (fun f => (Finset.univ : Finset (Fin 2048)).fold max negInf f)
    (funext fun k => congrArg y (lift_key hr b h i k))

/-- The row maximum at `(b, h, i)`: the maximum, folded from `-∞`, of that row of the scaled scores. -/
theorem rowMax_apply :
    val_main_v22 (F := Ideal) x0 x1 x3 x4 x5 x6 (ix3 b h i)
      = maxOf (fun j : Fin 2048 => val_main_v21 (F := Ideal) x0 x1 x3 x4 x5 x6 (ix4 b h i j)) := by
  unfold val_main_v22
  exact hostMax_apply b h i (val_main_v21 (F := Ideal) x0 x1 x3 x4 x5 x6)

/-- The maximum with `-∞` once more is still the row maximum. -/
theorem stableMax_apply :
    val_main_v24 (F := Ideal) x0 x1 x3 x4 x5 x6 (ix3 b h i)
      = maxOf (fun j : Fin 2048 => val_main_v21 (F := Ideal) x0 x1 x3 x4 x5 x6 (ix4 b h i j)) := by
  rw [val_main_v24_apply, val_main_v23_apply, val_main_cst_1_apply, rowMax_apply]
  exact max_negInf_maxOf _

/-- A row statistic kept as a column and spread back over the keys reads, at `(b, h, i, j)`, the statistic of row `(b, h, i)`. -/
theorem keep_idx (j : Fin 2048) : idx_main_v25 (idx_main_v26 (ix4 b h i j)) = ix3 b h i := funext fun a => by
  match a with
  | ⟨0, _⟩ => rfl
  | ⟨1, _⟩ => rfl
  | ⟨2, _⟩ => rfl

/-- The unnormalised weight at `(b, h, i, j)`. -/
theorem weight_apply (j : Fin 2048) :
    val_main_v28 (F := Ideal) x0 x1 x3 x4 x5 x6 (ix4 b h i j)
      = weightOf (fun j' : Fin 2048 => val_main_v21 (F := Ideal) x0 x1 x3 x4 x5 x6 (ix4 b h i j')) j := by
  rw [val_main_v28_apply, val_main_v27_apply, val_main_v26_apply, val_main_v25_apply, keep_idx, stableMax_apply]
  rfl

/-- The row sum of the weights at `(b, h, i)`. -/
theorem rowSum_apply :
    val_main_v29 (F := Ideal) x0 x1 x3 x4 x5 x6 (ix3 b h i)
      = ∑ j : Fin 2048, weightOf (fun j' : Fin 2048 => val_main_v21 (F := Ideal) x0 x1 x3 x4 x5 x6 (ix4 b h i j')) j := by
  rw [val_main_v29_apply, val_main_cst_2_apply]
  show Ideal.ofBits .f32 0x00000000#32 + _ = _
  rw [Ideal.ofBits_zero_f32, zero_add]
  refine Finset.sum_congr rfl fun k _ => ?_
  have e : idx_main_v29 (ix3 b h i) k = ix4 b h i k := funext fun a => by
    match a with
    | ⟨0, _⟩ => rfl
    | ⟨1, _⟩ => rfl
    | ⟨2, _⟩ => rfl
    | ⟨3, _⟩ => rfl
  rw [e, weight_apply]

/-- The attention weights at `(b, h, i, j)`: the softmax of row `(b, h, i)` of the scaled scores, at key `j`. -/
theorem softmax_apply (j : Fin 2048) :
    val_main_v32 (F := Ideal) x0 x1 x3 x4 x5 x6 (ix4 b h i j)
      = softmaxOf (fun j' : Fin 2048 => val_main_v21 (F := Ideal) x0 x1 x3 x4 x5 x6 (ix4 b h i j')) j := by
  have e : idx_main_v30 (idx_main_v31 (ix4 b h i j)) = ix3 b h i := funext fun a => by
    match a with
    | ⟨0, _⟩ => rfl
    | ⟨1, _⟩ => rfl
    | ⟨2, _⟩ => rfl
  rw [val_main_v32_apply, val_main_v31_apply, val_main_v30_apply, e, rowSum_apply, weight_apply]
  rfl

end

end Cert.RefSpec

end
-- ==== Proof.RefSpecAttn.lean ====
/-
  The reference's attention output, merged back to 1024 features, read at an index.

  Entry `(b, h, i, d)` of the batched contraction of the attention weights with the value heads is the sum over the
  keys `j` of `weights (b, h, i, j) * v (b, h, j, d)`. The transpose back and the reshape to `[2, 2048, 1024]` rename
  coordinates: entry `(b, s, c)` of the merged array is entry `(b, c / 64, s, c % 64)` of the contraction, and feature
  `64 (c / 64) + c % 64` is `c`. So the merged array at `(b, s, c)` is the specification's `attn` of the three projections.
-/
import proofs.«175174_j31018253812438_2_alg».proof.Proof.RefSpecScore
import proofs.«175174_j31018253812438_2_alg».proof.Proof.RefSpecSoftmax

noncomputable section

namespace Cert.RefSpec

open Cert.ReferenceIdeal Cert.ReferenceIdeal.Gen Cert.ReferenceIdeal.Read Idealize.ShloMosaic Idealize.ShloMosaic.ValueIdx
open Cert.Lib.RowSoftmax (softmaxOf)

/-- The lane of a feature inside its head. -/
def laneOf (c : Fin 1024) : Fin 64 := ⟨c.val % 64, Nat.mod_lt _ (by decide)⟩

/-- A feature is lane `c % 64` of head `c / 64`. -/
theorem headCol_headOf (c : Fin 1024) : Cert.Spec.headCol (Cert.Spec.headOf c) (laneOf c) = c :=
  Fin.ext (by show c.val / 64 * 64 + c.val % 64 = c.val; omega)

/-- The merged attention output at `(b, s, c)`. -/
theorem attn_apply (x0 x1 : Arr3) (x3 : Arr2) (x4 : Arr1) (x5 : Arr2) (x6 : Arr1) (x7 : Arr2) (x8 : Arr1)
    (b : Fin 2) (s : Fin 2048) (c : Fin 1024) :
    val_main_v35 (F := Ideal) x0 x1 x3 x4 x5 x6 x7 x8 (ix3 b s c)
      = Cert.Spec.attn
          (fun i' => Cert.Spec.lin (fun e => x0 (ix3 b i' e)) (fun o e => x3 (ix2 o e)) (fun o => x4 (ix1 o)))
          (fun j' => Cert.Spec.lin (fun e => x1 (ix3 b j' e)) (fun o e => x5 (ix2 o e)) (fun o => x6 (ix1 o)))
          (fun j' => Cert.Spec.lin (fun e => x1 (ix3 b j' e)) (fun o e => x7 (ix2 o e)) (fun o => x8 (ix1 o))) s c := by
  have hb := b.isLt; have hs := s.isLt; have hc := c.isLt
  have e : idx_main_v34 (idx_main_v35 (ix3 b s c)) = ix4 b (Cert.Spec.headOf c) s (laneOf c) := funext fun a => Fin.ext (by
    match a with
    | ⟨0, _⟩ => show ((b.val * 2048 + s.val) * 1024 + c.val) / 2097152 = b.val; omega
    | ⟨1, _⟩ => show ((b.val * 2048 + s.val) * 1024 + c.val) / 64 % 16 = c.val / 64; omega
    | ⟨2, _⟩ => show ((b.val * 2048 + s.val) * 1024 + c.val) / 1024 % 2048 = s.val; omega
    | ⟨3, _⟩ => show ((b.val * 2048 + s.val) * 1024 + c.val) % 64 = c.val % 64; omega)
  rw [val_main_v35_apply, val_main_v34_apply, e, val_main_v33_apply]
  unfold Cert.Spec.attn
  refine Finset.sum_congr rfl fun j _ => ?_
  have e1 : lidx_main_v33 (ix4 b (Cert.Spec.headOf c) s (laneOf c)) j = ix4 b (Cert.Spec.headOf c) s j := funext fun a => by
    match a with
    | ⟨0, _⟩ => rfl
    | ⟨1, _⟩ => rfl
    | ⟨2, _⟩ => rfl
    | ⟨3, _⟩ => rfl
  have e2 : ridx_main_v33 (ix4 b (Cert.Spec.headOf c) s (laneOf c)) j = ix4 b (Cert.Spec.headOf c) j (laneOf c) := funext fun a => by
    match a with
    | ⟨0, _⟩ => rfl
    | ⟨1, _⟩ => rfl
    | ⟨2, _⟩ => rfl
    | ⟨3, _⟩ => rfl
  rw [e1, e2, softmax_apply, v17_eq, heads_lin, headCol_headOf]
  exact congrArg (fun f => softmaxOf f j * _) (funext fun j' => score_apply x0 x1 x3 x4 x5 x6 b (Cert.Spec.headOf c) s j')

end Cert.RefSpec

end
-- ==== Proof.RefSpec.lean ====
/-
  The reference program computes the specification.

  Its last stage is the output projection of the merged attention output, so at `(b, s, o)` it is the specification's
  `lin` of the row `attn q k v s`, with `q`, `k`, `v` the three projections of batch entry `b`: the specification's `out`.
  Hence every weakly fair execution of the reference ends with its result array at `Spec.outArr` of the argument arrays
  it was launched with, the arguments unchanged.
-/
import proofs.«175174_j31018253812438_2_alg».proof.Proof.RefSpecAttn

noncomputable section

namespace Cert.RefSpec

open Cert.ReferenceIdeal Cert.ReferenceIdeal.Gen Cert.ReferenceIdeal.Read Idealize.ShloMosaic Idealize.ShloMosaic.ValueIdx
open Idealize.ShloMosaic.TcCoe Idealize.SL.Sem

/-- The output projection is the same stage as the query projection, of the merged attention output. -/
theorem v39_eq (x0 x1 : Arr3) (x3 : Arr2) (x4 : Arr1) (x5 : Arr2) (x6 : Arr1) (x7 : Arr2) (x8 : Arr1) (x9 : Arr2) (x10 : Arr1) :
    val_main_v39 (F := Ideal) x0 x1 x3 x4 x5 x6 x7 x8 x9 x10
      = val_main_v3 (F := Ideal) (val_main_v35 (F := Ideal) x0 x1 x3 x4 x5 x6 x7 x8) x9 x10 := rfl

/-- The reference's result at `(b, s, o)` is the specification there. -/
theorem out_apply (x0 x1 : Arr3) (x3 : Arr2) (x4 : Arr1) (x5 : Arr2) (x6 : Arr1) (x7 : Arr2) (x8 : Arr1) (x9 : Arr2) (x10 : Arr1)
    (b : Fin 2) (s : Fin 2048) (o : Fin 1024) :
    val_main_v39 (F := Ideal) x0 x1 x3 x4 x5 x6 x7 x8 x9 x10 (ix3 b s o)
      = Cert.Spec.outArr x0 x1 x3 x4 x5 x6 x7 x8 x9 x10 (ix3 b s o) := by
  rw [v39_eq, lin_apply, Cert.Spec.outArr_apply]
  unfold Cert.Spec.out
  exact congrArg (fun X => Cert.Spec.lin X (fun o e => x9 (ix2 o e)) (fun o => x10 (ix1 o)) o)
    (funext fun e => attn_apply x0 x1 x3 x4 x5 x6 x7 x8 b s e)

/-- The reference's result array is the specification's. -/
theorem val_eq_outArr (x0 x1 : Arr3) (x3 : Arr2) (x4 : Arr1) (x5 : Arr2) (x6 : Arr1) (x7 : Arr2) (x8 : Arr1) (x9 : Arr2) (x10 : Arr1) :
    val_main_v39 (F := Ideal) x0 x1 x3 x4 x5 x6 x7 x8 x9 x10 = Cert.Spec.outArr x0 x1 x3 x4 x5 x6 x7 x8 x9 x10 := by
  funext i
  obtain ⟨b, s, o, rfl⟩ : ∃ (b : Fin 2) (s : Fin 2048) (o : Fin 1024), i = ix3 b s o := ⟨i 0, i 1, i 2, eq_ix3 i⟩
  exact out_apply x0 x1 x3 x4 x5 x6 x7 x8 x9 x10 b s o

/-- Every weakly fair execution of the reference ends with its result at the specification of the arguments it was
    launched with, and the arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread nD τ).loc main_v39)
        = Cert.Spec.outArr (m' ((c.tc : Thread nD τ).loc main_arg0)) (m' ((c.tc : Thread nD τ).loc main_arg1))
            (m' ((c.tc : Thread nD τ).loc main_arg3)) (m' ((c.tc : Thread nD τ).loc main_arg4))
            (m' ((c.tc : Thread nD τ).loc main_arg5)) (m' ((c.tc : Thread nD τ).loc main_arg6))
            (m' ((c.tc : Thread nD τ).loc main_arg7)) (m' ((c.tc : Thread nD τ).loc main_arg8))
            (m' ((c.tc : Thread nD τ).loc main_arg9)) (m' ((c.tc : Thread nD τ).loc main_arg10))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)) :=
  (θ_run (Cert.ReferenceIdeal.defs (F := Ideal)) _ _).mono
    (fun _ h c => ⟨(h c).1.trans ((val_main_v39_eq m' c).trans (val_eq_outArr _ _ _ _ _ _ _ _ _ _)), (h c).2⟩)
    (Cert.ReferenceIdeal.Value.run (F := Ideal) m' ρ')

end Cert.RefSpec

end
-- ==== Proof.lean ====
/-
  Multi-head attention between linear projections: the kernel program (four kernel regions — the query projection,
  the fused key/value projection, attention per batch and pair of heads over the whole key length, the output
  projection — among host reshapes, transposes and concatenations) against the plain reference.

  Frames. Each of the two kernel programs is run region by region: a region's body, executed symbolically on whole
  staging buffers, leaves its result block at the body's arithmetic of the input blocks; the regions are composed with
  the host stretches over "every unscoped buffer of the core at a known valuation", the attention region's key and
  value windows sharing one array by half shares. No argument array is written by a host stretch or is a region's
  result, so every argument ends as launched. The reference is host operations only.

  Values, at the extended reals. Every region's result array is one whole-array function of the arrays it reads:
  a projection is rows times the transposed weight plus the bias; attention of query row i in head h is the softmax
  over the key rows j of (q_i · k_j) · 0.125, weighting the value rows. Chaining them through the host stretches gives
  the specification `Cert.Spec.outArr` of the eleven arguments. The reference computes the same function: its
  division of the scores by sqrt 64 is the multiplication by 0.125 on every extended real, and the extra maximum
  with -∞ in its softmax changes nothing. No finiteness of the inputs is used.
-/
import proofs.«175174_j31018253812438_2_alg».proof.Defs
import proofs.«175174_j31018253812438_2_alg».proof.Proof.Gen.Kernel
import proofs.«175174_j31018253812438_2_alg».proof.Proof.Gen.KernelIdeal
import proofs.«175174_j31018253812438_2_alg».proof.Proof.Gen.ReferenceIdeal
import proofs.«175174_j31018253812438_2_alg».proof.Proof.Gen.Pre_finite_inputs
import proofs.«175174_j31018253812438_2_alg».proof.Proof.Gen.ReferenceIdeal.Run
import proofs.«175174_j31018253812438_2_alg».proof.Proof.Gen.ReferenceIdeal.Read
import proofs.«175174_j31018253812438_2_alg».proof.Proof.HandK.Run
import proofs.«175174_j31018253812438_2_alg».proof.Proof.HandKI.Run
import proofs.«175174_j31018253812438_2_alg».proof.Proof.HandKI.KValue
import proofs.«175174_j31018253812438_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k [hKernel : Cert.Kernel.Facts] [hPre : Cert.Pre_finite_inputs.Facts] : Cert.frame_Kernel :=
  fun m ρ _ => Cert.Kernel.Hand.frame (F := Bits) m ρ

/-- So does the idealized kernel program. -/
theorem frame_ki [hKernelIdeal : Cert.KernelIdeal.Facts] [hPre : Cert.Pre_finite_inputs.Facts] : Cert.frame_KernelIdeal :=
  fun m ρ _ => Cert.KernelIdeal.Hand.frame (F := Ideal) m ρ

/-- The reference is host operations only: its run with the result dropped. -/
theorem frame_ri [hReferenceIdeal : Cert.ReferenceIdeal.Facts] [hPre : Cert.Pre_finite_inputs.Facts] : Cert.frame_ReferenceIdeal :=
  fun m ρ _ => (θ_run Cert.ReferenceIdeal.defs _ _).mono (fun _ h c => (h c).2) (Cert.RefSpec.run m ρ)

/-- The ideal pass rewrote nothing. -/
theorem preserves : Cert.preserves_Kernel_KernelIdeal := trivial

/-- At the extended reals both programs end with the result array at the specification of the arguments: the
    kernel program by its run region by region, the reference by its host operations read at an index; the two
    memories agree on the arguments. -/
theorem algebraic [hKernelIdeal : Cert.KernelIdeal.Facts] [hReferenceIdeal : Cert.ReferenceIdeal.Facts] [hPre : Cert.Pre_finite_inputs.Facts] :
    Cert.algebraic_KernelIdeal_ReferenceIdeal := by
  intro m ρ m' ρ' _ hagree
  refine ⟨fun c => Cert.Spec.outArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    Cert.KernelIdeal.KValue.run m ρ, ?_⟩
  refine (θ_run Cert.ReferenceIdeal.defs _ _).mono (fun _ h c => ⟨(h c).1.trans ?_, (h c).2⟩) (Cert.RefSpec.run m' ρ')
  obtain ⟨h0, h1, -, h3, h4, h5, h6, h7, h8, h9, h10⟩ := hagree c
  rw [h0, h1, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
